-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S48x1x64 : Shape := ⟨3, ![48, 1, 64]⟩
abbrev S48x4x2048x64 : Shape := ⟨4, ![48, 4, 2048, 64]⟩
abbrev S1x2048x1024 : Shape := ⟨3, ![1, 2048, 1024]⟩
abbrev S64x1024 : Shape := ⟨2, ![64, 1024]⟩
abbrev S1x1x64 : Shape := ⟨3, ![1, 1, 64]⟩
abbrev S1x1x2048x64 : Shape := ⟨4, ![1, 1, 2048, 64]⟩
abbrev S2048x1024 : Shape := ⟨2, ![2048, 1024]⟩
abbrev S2048x64 : Shape := ⟨2, ![2048, 64]⟩
abbrev S1x64 : Shape := ⟨2, ![1, 64]⟩
abbrev S16x4x2048x64 : Shape := ⟨4, ![16, 4, 2048, 64]⟩
abbrev S1x1x256x64 : Shape := ⟨4, ![1, 1, 256, 64]⟩
abbrev S256x1 : Shape := ⟨2, ![256, 1]⟩
abbrev S256x64 : Shape := ⟨2, ![256, 64]⟩
abbrev S256x256 : Shape := ⟨2, ![256, 256]⟩
abbrev S1x256 : Shape := ⟨2, ![1, 256]⟩
abbrev S256 : Shape := ⟨1, ![256]⟩
abbrev S1024x16x64 : Shape := ⟨3, ![1024, 16, 64]⟩
abbrev S16x1024x64 : Shape := ⟨3, ![16, 1024, 64]⟩
abbrev S1x1024 : Shape := ⟨2, ![1, 1024]⟩
abbrev S1x1x1024x64 : Shape := ⟨4, ![1, 1, 1024, 64]⟩
abbrev S1x1024x64 : Shape := ⟨3, ![1, 1024, 64]⟩
abbrev S1x1024x1024 : Shape := ⟨3, ![1, 1024, 1024]⟩
abbrev S1024x64 : Shape := ⟨2, ![1024, 64]⟩

abbrev nBuf : Space → Nat
  | .hbm => 12
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S48x1x64, .f32⟩
  | .hbm, ⟨6, _⟩ => ⟨S48x4x2048x64, .bf16⟩
  | .hbm, ⟨7, _⟩ => ⟨S16x4x2048x64, .bf16⟩
  | .hbm, ⟨8, _⟩ => ⟨S1024x16x64, .f32⟩
  | .hbm, ⟨9, _⟩ => ⟨S16x1024x64, .f32⟩
  | .hbm, ⟨10, _⟩ => ⟨S1x1024, .f32⟩
  | .hbm, ⟨11, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .f32⟩
  | .local _ .vmem, ⟨3, _⟩ => ⟨S64x1024, .f32⟩
  | .local _ .vmem, ⟨4, _⟩ => ⟨S1x1x64, .f32⟩
  | .local _ .vmem, ⟨5, _⟩ => ⟨S1x1x64, .f32⟩
  | .local _ .vmem, ⟨6, _⟩ => ⟨S1x1x2048x64, .bf16⟩
  | .local _ .vmem, ⟨7, _⟩ => ⟨S1x1x2048x64, .bf16⟩
  | .local _ .vmem, ⟨8, _⟩ => ⟨S1x1x256x64, .bf16⟩
  | .local _ .vmem, ⟨9, _⟩ => ⟨S1x1x256x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x256x64, .bf16⟩
  | .local _ .vmem, ⟨15, _⟩ => ⟨S1x1x256x64, .bf16⟩
  | .local _ .vmem, ⟨16, _⟩ => ⟨S256x1, .f32⟩
  | .local _ .vmem, ⟨17, _⟩ => ⟨S256x1, .f32⟩
  | .local _ .vmem, ⟨18, _⟩ => ⟨S256x64, .f32⟩
  | .local _ .vmem, ⟨19, _⟩ => ⟨S1x1x1024x64, .bf16⟩
  | .local _ .vmem, ⟨20, _⟩ => ⟨S1x1x1024x64, .bf16⟩
  | .local _ .vmem, ⟨21, _⟩ => ⟨S1x1024x64, .f32⟩
  | .local _ .vmem, ⟨22, _⟩ => ⟨S1x1024x64, .f32⟩
  | .local _ .vmem, ⟨23, _⟩ => ⟨S1x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![4, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 16, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![v0.toNat, arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![v0.toNat, arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage1_0 : Fin 2 → Memref sig .tc .vmem S1x1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![4, 2, 16], ![false, false, false]⟩

def k2_cond2 (i : grid2.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_11 : BitVec 32 := 0#32
  let v16 : BitVec 1 := Scalar.cmpi .ne v15 c0_i32_11
  v16

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S3072_S48x1x64 : S3072.ShapeCasts S48x1x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S2048x64 : S1x64.Broadcasts S2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  packedbf16_S1x1x2048x64_S1x1x2048x64_0_0_0_0 : (Rect.unit (s := S1x1x2048x64) ![0, 0, 0, 0] S1x1x2048x64.size inb_S1x1x2048x64_S1x1x2048x64_0_0_0_0).PackedRows (EltTy.packing .bf16)
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x1x2048x64_S1x1x256x64_0_0_0_0 : ∀ a, (![0, 0, 0, 0] : Fin 4 → Nat) a + S1x1x256x64.size a ≤ S1x1x2048x64.size a
  iota_S256x1_d0_w32 : S256x1.Iotas .tc 32 [0]
  iota_S1x256_d1_w32 : S1x256.Iotas .tc 32 [1]
  broadcasts_S256x1_S256x256 : S256x1.Broadcasts S256x256
  broadcasts_S1x256_S256x256 : S1x256.Broadcasts S256x256
  reduces_S256x256_S256 : S256x256.Reduces [1] S256
  shapeCasts_S256_S256x1 : S256.ShapeCasts S256x1
  broadcasts_S256x1_S256x64 : S256x1.Broadcasts S256x64
  inb_S1x1x2048x64_S1x1x256x64_0_0_256_0 : ∀ a, (![0, 0, 256, 0] : Fin 4 → Nat) a + S1x1x256x64.size a ≤ S1x1x2048x64.size a
  inb_S1x1x2048x64_S1x1x256x64_0_0_512_0 : ∀ a, (![0, 0, 512, 0] : Fin 4 → Nat) a + S1x1x256x64.size a ≤ S1x1x2048x64.size a
  inb_S1x1x2048x64_S1x1x256x64_0_0_768_0 : ∀ a, (![0, 0, 768, 0] : Fin 4 → Nat) a + S1x1x256x64.size a ≤ S1x1x2048x64.size a
  inb_S1x1x2048x64_S1x1x256x64_0_0_1024_0 : ∀ a, (![0, 0, 1024, 0] : Fin 4 → Nat) a + S1x1x256x64.size a ≤ S1x1x2048x64.size a
  inb_S1x1x2048x64_S1x1x256x64_0_0_1280_0 : ∀ a, (![0, 0, 1280, 0] : Fin 4 → Nat) a + S1x1x256x64.size a ≤ S1x1x2048x64.size a
  inb_S1x1x2048x64_S1x1x256x64_0_0_1536_0 : ∀ a, (![0, 0, 1536, 0] : Fin 4 → Nat) a + S1x1x256x64.size a ≤ S1x1x2048x64.size a
  inb_S1x1x2048x64_S1x1x256x64_0_0_1792_0 : ∀ a, (![0, 0, 1792, 0] : Fin 4 → Nat) a + S1x1x256x64.size a ≤ S1x1x2048x64.size a
  shapeCasts_S256x64_S1x1x256x64 : S256x64.ShapeCasts S1x1x256x64
  packedbf16_S1x1x256x64_S1x1x256x64_0_0_0_0 : (Rect.unit (s := S1x1x256x64) ![0, 0, 0, 0] S1x1x256x64.size inb_S1x1x256x64_S1x1x256x64_0_0_0_0).PackedRows (EltTy.packing .bf16)
  shapeCasts_S1024x1024_S1024x16x64 : S1024x1024.ShapeCasts S1024x16x64
  transposes_S1024x16x64_S16x1024x64_1_0_2 : S1024x16x64.Transposes [1, 0, 2] S16x1024x64
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2048x1024_S64x1024_S2048x64_1_1_0_0_n_n_wf : DotDims.WF S2048x1024 S64x1024 S2048x64 [1] [1] [0] [0] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S3072x1024.size a
  hwx0_1 : ∀ i : grid0.Coords, EltTy.bits .f32 = 32 ∨ (Rect.block (s := S3072x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S48x1x64.size a
  hwx0_2 : ∀ i : grid0.Coords, EltTy.bits .f32 = 32 ∨ (Rect.block (s := S48x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x64.size a ≤ S48x4x2048x64.size a
  hwx0_3 : ∀ i : grid0.Coords, EltTy.bits .bf16 = 32 ∨ (Rect.block (s := S48x4x2048x64) S1x1x2048x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x64.size a ≤ S48x4x2048x64.size a
  hwx1_0 : ∀ i : grid1.Coords, EltTy.bits .bf16 = 32 ∨ (Rect.block (s := S48x4x2048x64) S1x1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S48x4x2048x64.size a
  hwx1_1 : ∀ i : grid1.Coords, EltTy.bits .bf16 = 32 ∨ (Rect.block (s := S48x4x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S48x4x2048x64.size a
  hwx1_2 : ∀ i : grid1.Coords, EltTy.bits .bf16 = 32 ∨ (Rect.block (s := S48x4x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256x64.size a ≤ S16x4x2048x64.size a
  hwx1_3 : ∀ i : grid1.Coords, EltTy.bits .bf16 = 32 ∨ (Rect.block (s := S16x4x2048x64) S1x1x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x1024x64.size a ≤ S16x4x2048x64.size a
  hwx2_0 : ∀ i : grid2.Coords, EltTy.bits .bf16 = 32 ∨ (Rect.block (s := S16x4x2048x64) S1x1x1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S16x1024x64.size a
  hwx2_1 : ∀ i : grid2.Coords, EltTy.bits .f32 = 32 ∨ (Rect.block (s := S16x1024x64) S1x1024x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x2048x1024.size a
  hwx2_3 : ∀ i : grid2.Coords, EltTy.bits .f32 = 32 ∨ (Rect.block (s := S4x2048x1024) S1x1024x1024.size (cc2_transform_3 i) (hinb2_3 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1x1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S_, .i1⟩
  | .hbm, ⟨23, _⟩ => ⟨S2048x2048, .i1⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .i1⟩
  | .hbm, ⟨31, _⟩ => ⟨S2048x2048, .i1⟩
  | .hbm, ⟨32, _⟩ => ⟨S2048x2048, .i1⟩
  | .hbm, ⟨33, _⟩ => ⟨S1x1x2048x2048, .i1⟩
  | .hbm, ⟨34, _⟩ => ⟨S_, .f32⟩
  | .hbm, ⟨35, _⟩ => ⟨S_, .f32⟩
  | .hbm, ⟨36, _⟩ => ⟨S4x16x2048x2048, .i1⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048, .f32⟩
  | .hbm, ⟨41, _⟩ => ⟨S_, .f32⟩
  | .hbm, ⟨42, _⟩ => ⟨S4x16x2048, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S_, .f32⟩
  | .hbm, ⟨49, _⟩ => ⟨S4x16x2048, .f32⟩
  | .hbm, ⟨50, _⟩ => ⟨S4x16x2048x1, .f32⟩
  | .hbm, ⟨51, _⟩ => ⟨S4x16x2048x2048, .f32⟩
  | .hbm, ⟨52, _⟩ => ⟨S4x16x2048x2048, .f32⟩
  | .hbm, ⟨53, _⟩ => ⟨S4x16x2048x64, .f32⟩
  | .hbm, ⟨54, _⟩ => ⟨S4x2048x16x64, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.BitsQkvRegion.lean ====
/- Region 0 of @main (custom_call 0, `cc0__qkv_proj_kernel`, pipeline 0): the class-A half of its frame at the
   region-entry contents `V`, at any float interpretation `F`. The body reads each input window's staging buffer
   once and overwrites the output window's buffer with one store of the payload `k0_pay1`; so after the body each
   input buffer still holds its block and the output buffer holds `out0_3` of the three input blocks. -/
import proofs.«102473_j17867063951717_2_alg».proof.Proof.Gen.Kernel.Launch
import proofs.«102473_j17867063951717_2_alg».proof.Proof.Gen.Kernel.Skeleton
import proofs.«102473_j17867063951717_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' batch block, fetched only when the batch coordinate moves): its current staging
    buffer holds its block at every point, fetched there or not, for ANY proof data whose array is `V`'s (`hA`) and
    whose body leaves the block in place (`hafter`): unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight rows of one head slot): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row of one head slot): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x2048x1024 := Rect.unit (s := S1x2048x1024) ![0, 0, 0] S1x2048x1024.size inb_S1x2048x1024_S1x2048x1024_0_0_0
abbrev r0_1 : Rect S64x1024 := Rect.unit (s := S64x1024) ![0, 0] S64x1024.size inb_S64x1024_S64x1024_0_0
abbrev r0_2 : Rect S1x1x64 := Rect.unit (s := S1x1x64) ![0, 0, 0] S1x1x64.size inb_S1x1x64_S1x1x64_0_0_0
abbrev r0_3 : Rect S1x1x2048x64 := Rect.unit (s := S1x1x2048x64) ![0, 0, 0, 0] S1x1x2048x64.size inb_S1x1x2048x64_S1x1x2048x64_0_0_0_0

/-! ## What the body leaves in the output window's buffer -/

/-- Window 3's staging buffer after the body, from the input windows' blocks: its one store as a piece over the
    whole buffer, the payload the skeleton's (the projection of the activations by the weight rows, plus the bias). -/
def out0_3 (x0 : Vec F S1x2048x1024 .f32) (x1 : Vec F S64x1024 .f32) (x2 : Vec F S1x1x64 .f32) : Vec F S1x1x2048x64 .bf16 :=
  View.canon [⟨r0_3, k0_pay1 (View.ld x0 r0_0) (View.ld x1 r0_1) (View.ld x2 r0_2)⟩]

/-- The store's rectangle is the whole buffer, so it covers it. -/
theorem cover0_3 (p0 : Vec F S1x1x2048x64 .bf16) (y : S1x1x2048x64.Idx) :
    ∃ pc ∈ ([⟨r0_3, p0⟩] : List (View.Piece (Elt F) S1x1x2048x64 .bf16)), y ∈ pc.1.set :=
  View.cover_of_tiled [⟨r0_3, p0⟩] S1x1x2048x64.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg2 : Memref sig .tc .vmem S1x2048x1024 .f32) (harg2 : arg2.IsWhole) (arg3 : Memref sig .tc .vmem S64x1024 .f32) (harg3 : arg3.IsWhole) (arg4 : Memref sig .tc .vmem S1x1x64 .f32) (harg4 : arg4.IsWhole) (arg5 : Memref sig .tc .vmem S1x1x2048x64 .bf16) (harg5 : arg5.IsWhole)
    (x0 : Vec F S1x2048x1024 .f32) (x1 : Vec F S64x1024 .f32) (x2 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__qkv_proj_kernel i arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Qkv

end
-- ==== Proof.BitsAttnRuns.lean ====
/-
  The attention region (the second pallas_call): what its eight control cases are stated over. A grid point is
  (batch, head, query block qi); the body walks the eight key chunks c = 0..7 and processes chunk c only when c ≤ qi,
  so a point's case is its query block index qi = t mod 8. Here: each window's block at a point, read off the array
  as the region finds it; that an input's staging buffer holds that block whether or not the pipeline fetched it at
  the point; the eight conditions in closed form over the grid; the staging and scratch memrefs the body is called with.
-/
import proofs.«102473_j17867063951717_2_alg».proof.Proof.Gen.Kernel.Launch
import proofs.«102473_j17867063951717_2_alg».proof.Proof.Gen.Kernel.Skeleton
import proofs.«102473_j17867063951717_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved), for any proof data whose array is the entry contents and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved), for any proof data whose array is the entry contents and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions, decided over the grid -/

/-- Key chunk 0 is processed at a point: the query block's index is at least 0. -/
abbrev cond1_0 (i : grid1.Coords) : Prop := (Scalar.cmpi .ne (Scalar.extui (Scalar.cmpi .sge (BitVec.ofNat 32 (i 2).val) 0#32)) 0#32) = 1#1
theorem hcond1_0 : ∀ t : Fin cfg1.N, cond1_0 (grid1.coords t) ↔ 0 ≤ t.val % 8 :=
  (by decide +kernel : ∀ t : Fin grid1.N, cond1_0 (grid1.coords t) ↔ 0 ≤ t.val % 8)

/-- Key chunk 1 is processed at a point: the query block's index is at least 1. -/
abbrev cond1_1 (i : grid1.Coords) : Prop := (Scalar.cmpi .ne (Scalar.extui (Scalar.cmpi .sge (BitVec.ofNat 32 (i 2).val) 1#32)) 0#32) = 1#1
theorem hcond1_1 : ∀ t : Fin cfg1.N, cond1_1 (grid1.coords t) ↔ 1 ≤ t.val % 8 :=
  (by decide +kernel : ∀ t : Fin grid1.N, cond1_1 (grid1.coords t) ↔ 1 ≤ t.val % 8)

/-- Key chunk 2 is processed at a point: the query block's index is at least 2. -/
abbrev cond1_2 (i : grid1.Coords) : Prop := (Scalar.cmpi .ne (Scalar.extui (Scalar.cmpi .sge (BitVec.ofNat 32 (i 2).val) 2#32)) 0#32) = 1#1
theorem hcond1_2 : ∀ t : Fin cfg1.N, cond1_2 (grid1.coords t) ↔ 2 ≤ t.val % 8 :=
  (by decide +kernel : ∀ t : Fin grid1.N, cond1_2 (grid1.coords t) ↔ 2 ≤ t.val % 8)

/-- Key chunk 3 is processed at a point: the query block's index is at least 3. -/
abbrev cond1_3 (i : grid1.Coords) : Prop := (Scalar.cmpi .ne (Scalar.extui (Scalar.cmpi .sge (BitVec.ofNat 32 (i 2).val) 3#32)) 0#32) = 1#1
theorem hcond1_3 : ∀ t : Fin cfg1.N, cond1_3 (grid1.coords t) ↔ 3 ≤ t.val % 8 :=
  (by decide +kernel : ∀ t : Fin grid1.N, cond1_3 (grid1.coords t) ↔ 3 ≤ t.val % 8)

/-- Key chunk 4 is processed at a point: the query block's index is at least 4. -/
abbrev cond1_4 (i : grid1.Coords) : Prop := (Scalar.cmpi .ne (Scalar.extui (Scalar.cmpi .sge (BitVec.ofNat 32 (i 2).val) 4#32)) 0#32) = 1#1
theorem hcond1_4 : ∀ t : Fin cfg1.N, cond1_4 (grid1.coords t) ↔ 4 ≤ t.val % 8 :=
  (by decide +kernel : ∀ t : Fin grid1.N, cond1_4 (grid1.coords t) ↔ 4 ≤ t.val % 8)

/-- Key chunk 5 is processed at a point: the query block's index is at least 5. -/
abbrev cond1_5 (i : grid1.Coords) : Prop := (Scalar.cmpi .ne (Scalar.extui (Scalar.cmpi .sge (BitVec.ofNat 32 (i 2).val) 5#32)) 0#32) = 1#1
theorem hcond1_5 : ∀ t : Fin cfg1.N, cond1_5 (grid1.coords t) ↔ 5 ≤ t.val % 8 :=
  (by decide +kernel : ∀ t : Fin grid1.N, cond1_5 (grid1.coords t) ↔ 5 ≤ t.val % 8)

/-- Key chunk 6 is processed at a point: the query block's index is at least 6. -/
abbrev cond1_6 (i : grid1.Coords) : Prop := (Scalar.cmpi .ne (Scalar.extui (Scalar.cmpi .sge (BitVec.ofNat 32 (i 2).val) 6#32)) 0#32) = 1#1
theorem hcond1_6 : ∀ t : Fin cfg1.N, cond1_6 (grid1.coords t) ↔ 6 ≤ t.val % 8 :=
  (by decide +kernel : ∀ t : Fin grid1.N, cond1_6 (grid1.coords t) ↔ 6 ≤ t.val % 8)

/-- Key chunk 7 is processed at a point: the query block's index is at least 7. -/
abbrev cond1_7 (i : grid1.Coords) : Prop := (Scalar.cmpi .ne (Scalar.extui (Scalar.cmpi .sge (BitVec.ofNat 32 (i 2).val) 7#32)) 0#32) = 1#1
theorem hcond1_7 : ∀ t : Fin cfg1.N, cond1_7 (grid1.coords t) ↔ 7 ≤ t.val % 8 :=
  (by decide +kernel : ∀ t : Fin grid1.N, cond1_7 (grid1.coords t) ↔ 7 ≤ t.val % 8)

/-! ## No window is idle at any point -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The memrefs the body is called with -/

/-- One staging buffer of the output window, through which its contents are stated. -/
abbrev VO1_3 : View sig .tc .vmem S1x1x256x64 .bf16 := (Memref.whole cc1_stg3_0 : Memref sig .tc .vmem S1x1x256x64 .bf16).view
abbrev ms1_0 (t : Fin cfg1.N) : Memref sig .tc .vmem S1x1x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x256x64 .bf16 := win1_3.stage (cfg1.slots t 3)
abbrev hs1_3 (t : Fin cfg1.N) : (ms1_3 t).IsWhole := hstage1_3 ((cfg1.slots t 3).cast nbuf1_3)
/-- The scratch operands: the running maximum, the running normaliser, the running weighted sum. -/
abbrev scM1_0 : Memref sig .tc .vmem S256x1 .f32 := Memref.whole cc1_scratch0
abbrev scM1_1 : Memref sig .tc .vmem S256x1 .f32 := Memref.whole cc1_scratch1
abbrev scM1_2 : Memref sig .tc .vmem S256x64 .f32 := Memref.whole cc1_scratch2

end Cert.Kernel.Attn

end
-- ==== Proof.BitsAttnRunA.lean ====
/-
  The attention body run whole at a point whose query block index is 0: key chunks 0..0 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRuns

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_A (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRunB.lean ====
/-
  The attention body run whole at a point whose query block index is 1: key chunks 0..1 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_B (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRunC.lean ====
/-
  The attention body run whole at a point whose query block index is 2: key chunks 0..2 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_C (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRunD.lean ====
/-
  The attention body run whole at a point whose query block index is 3: key chunks 0..3 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_D (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRunE.lean ====
/-
  The attention body run whole at a point whose query block index is 4: key chunks 0..4 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRunD

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_E (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRunF.lean ====
/-
  The attention body run whole at a point whose query block index is 5: key chunks 0..5 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRunE

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_F (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRunG.lean ====
/-
  The attention body run whole at a point whose query block index is 6: key chunks 0..6 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRunF

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_G (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRunH.lean ====
/-
  The attention body run whole at a point whose query block index is 7: key chunks 0..7 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.BitsAttnRunG

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output block's staging memref in this case, with the body's triple. -/
noncomputable def kernelRun1_H (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Attn

end
-- ==== Proof.BitsAttnRegion.lean ====
/-
  The attention region: what the output block's staging buffer holds after the body at each point (the case its
  query block index selects, run at the point's memrefs and input blocks), the proof data of the pipeline at the
  region's entry contents, and the body obligation at every point. The three scratch buffers are re-initialised at
  every point before they are read, so nothing is carried between points: the body takes them from the scoped rest
  at any contents and hands them back at some contents. The query, key and value windows read ONE array (the
  head-major projection), each holding a share of it; the output window's array is held whole.
-/
import proofs.«102473_j17867063951717_2_alg».proof.Proof.BitsAttnRunH

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem lt8 (n : ℕ) : n % 8 < 8 := Nat.mod_lt _ (by decide)

/-- Query block index 0: the one store of the output block covers it. -/
theorem cover1_A_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_A c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_A c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 0: what the body leaves in the output block's staging buffer. -/
def out1_A_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_A c i arg3 harg3 arg4 harg4 arg5 harg5 arg6 harg6 arg7 harg7 arg8 harg8 arg9 harg9 hc0 hc1 hc2 hc3 hc4 hc5 hc6 hc7 x0 x1 x2).1)

/-- Query block index 1: the one store of the output block covers it. -/
theorem cover1_B_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_B c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_B c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 1: what the body leaves in the output block's staging buffer. -/
def out1_B_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_B c i arg3 harg3 arg4 harg4 arg5 harg5 arg6 harg6 arg7 harg7 arg8 harg8 arg9 harg9 hc0 hc1 hc2 hc3 hc4 hc5 hc6 hc7 x0 x1 x2).1)

/-- Query block index 2: the one store of the output block covers it. -/
theorem cover1_C_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_C c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_C c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 2: what the body leaves in the output block's staging buffer. -/
def out1_C_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_C c i arg3 harg3 arg4 harg4 arg5 harg5 arg6 harg6 arg7 harg7 arg8 harg8 arg9 harg9 hc0 hc1 hc2 hc3 hc4 hc5 hc6 hc7 x0 x1 x2).1)

/-- Query block index 3: the one store of the output block covers it. -/
theorem cover1_D_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_D c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_D c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 3: what the body leaves in the output block's staging buffer. -/
def out1_D_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_D c i arg3 harg3 arg4 harg4 arg5 harg5 arg6 harg6 arg7 harg7 arg8 harg8 arg9 harg9 hc0 hc1 hc2 hc3 hc4 hc5 hc6 hc7 x0 x1 x2).1)

/-- Query block index 4: the one store of the output block covers it. -/
theorem cover1_E_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_E c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_E c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 4: what the body leaves in the output block's staging buffer. -/
def out1_E_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 hc3 hc4 hc5 hc6 hc7 x0 x1 x2).1)

/-- Query block index 5: the one store of the output block covers it. -/
theorem cover1_F_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_F c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_F c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 5: what the body leaves in the output block's staging buffer. -/
def out1_F_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_F c i arg3 harg3 arg4 harg4 arg5 harg5 arg6 harg6 arg7 harg7 arg8 harg8 arg9 harg9 hc0 hc1 hc2 hc3 hc4 hc5 hc6 hc7 x0 x1 x2).1)

/-- Query block index 6: the one store of the output block covers it. -/
theorem cover1_G_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_G c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_G c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 6: what the body leaves in the output block's staging buffer. -/
def out1_G_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_G c i arg3 harg3 arg4 harg4 arg5 harg5 arg6 harg6 arg7 harg7 arg8 harg8 arg9 harg9 hc0 hc1 hc2 hc3 hc4 hc5 hc6 hc7 x0 x1 x2).1)

/-- Query block index 7: the one store of the output block covers it. -/
theorem cover1_H_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x1x256x64 .bf16) (x1 : Vec F S1x1x2048x64 .bf16) (x2 : Vec F S1x1x2048x64 .bf16) (y : S1x1x256x64.Idx) :
    ∃ pc ∈ (kernelRun1_H c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_H c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 7: what the body leaves in the output block's staging buffer. -/
def out1_H_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_H c i arg3 harg3 arg4 harg4 arg5 harg5 arg6 harg6 arg7 harg7 arg8 harg8 arg9 harg9 hc0 hc1 hc2 hc3 hc4 hc5 hc6 hc7 x0 x1 x2).1)

section
variable (V : (c : Dev nD) → (b : Ref sig .tc) → Buf (Elt F) ((c : Thread nD τ).loc b))

/-- What the output block's staging buffer holds after the body at point `t`: the case of the point's query block
    index `t mod 8`, at the point's memrefs and its query, key and value blocks. -/
def outAt1 (c : Dev nD) (t : Fin cfg1.N) : Vec F S1x1x256x64 .bf16 :=
  if h0 : t.val % 8 = 0 then out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) (fun h => absurd ((hcond1_1 t).mp h) (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h1 : t.val % 8 = 1 then out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h2 : t.val % 8 = 2 then out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h3 : t.val % 8 = 3 then out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h4 : t.val % 8 = 4 then out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h5 : t.val % 8 = 5 then out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h6 : t.val % 8 = 6 then out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) (fun h => absurd ((hcond1_7 t).mp h) (by have := lt8 t.val; omega)) (iblk1 V c 0 t) (iblk1 V c 1 t) (iblk1 V c 2 t)
  else out1_H_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) ((hcond1_7 t).mpr (by have := lt8 t.val; omega)) (iblk1 V c 0 t) (iblk1 V c 1 t) (iblk1 V c 2 t)

theorem outAt1_A (c : Dev nD) (t : Fin cfg1.N) (h : t.val % 8 = 0) :
    outAt1 V c t = out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) (fun h => absurd ((hcond1_1 t).mp h) (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_pos h]

theorem outAt1_B (c : Dev nD) (t : Fin cfg1.N) (h : t.val % 8 = 1) :
    outAt1 V c t = out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_pos h]

theorem outAt1_C (c : Dev nD) (t : Fin cfg1.N) (h : t.val % 8 = 2) :
    outAt1 V c t = out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_pos h]

theorem outAt1_D (c : Dev nD) (t : Fin cfg1.N) (h : t.val % 8 = 3) :
    outAt1 V c t = out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_pos h]

theorem outAt1_E (c : Dev nD) (t : Fin cfg1.N) (h : t.val % 8 = 4) :
    outAt1 V c t = out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_pos h]

theorem outAt1_F (c : Dev nD) (t : Fin cfg1.N) (h : t.val % 8 = 5) :
    outAt1 V c t = out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_neg (show ¬ t.val % 8 = 4 from by omega), dif_pos h]

theorem outAt1_G (c : Dev nD) (t : Fin cfg1.N) (h : t.val % 8 = 6) :
    outAt1 V c t = out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_neg (show ¬ t.val % 8 = 4 from by omega), dif_neg (show ¬ t.val % 8 = 5 from by omega), dif_pos h]

theorem outAt1_H (c : Dev nD) (t : Fin cfg1.N) (h : t.val % 8 = 7) :
    outAt1 V c t = out1_H_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) ((hcond1_7 t).mpr (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_neg (show ¬ t.val % 8 = 4 from by omega), dif_neg (show ¬ t.val % 8 = 5 from by omega), dif_neg (show ¬ t.val % 8 = 6 from by omega)]

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl

/-- The proof data of the attention pipeline on core `c`: the arrays as the region finds them; after the body each
    input's buffer at its block and the output's at `outAt1`; the invariant the scoped rest and the generator register;
    nothing owed; the one array the three input windows read held in three shares that make the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's query block index says which case it is
    in; the invariant hands the body the three scratch buffers at some contents and takes them back at some contents;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 8 = 0
  · rw [outAt1_A V c t h0]
    unfold out1_A_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr (by have := lt8 t.val; omega)) (fun h => absurd ((hcond1_1 t).mp h) (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _ _ _ _ _ _)
  by_cases h1 : t.val % 8 = 1
  · rw [outAt1_B V c t h1]
    unfold out1_B_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ ((hcond1_0 t).mpr (by have := lt8 t.val; omega)) ((hcond1_1 t).mpr (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _ _ _ _)
  by_cases h2 : t.val % 8 = 2
  · rw [outAt1_C V c t h2]
    unfold out1_C_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_C c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _ _ _ _ _ _ _ _ _ _)
  by_cases h3 : t.val % 8 = 3
  · rw [outAt1_D V c t h3]
    unfold out1_D_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_D c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_D_3 c _ _ _ _ _ _ _ _ _ _ _ _ _ _ _ _ _ _ _ _ _ _ _ _ _ _)
  by_cases h4 : t.val % 8 = 4
  · rw [outAt1_E V c t h4]
    unfold out1_E_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_E c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_E_3 c _ _ _ _ _ _ _ _ _ _ _ _ _ _ _ _ _ _ _ _ _ _ _ _ _ _)
  by_cases h5 : t.val % 8 = 5
  · rw [outAt1_F V c t h5]
    unfold out1_F_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_F c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_F_3 c _ _ _ _ _ _ _ _ _ _ _ _ _ _ _ _ _ _ _ _ _ _ _ _ _ _)
  by_cases h6 : t.val % 8 = 6
  · rw [outAt1_G V c t h6]
    unfold out1_G_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_G c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_G_3 c _ _ _ _ _ _ _ _ _ _ _ _ _ _ _ _ _ _ _ _ _ _ _ _ _ _)
  · have h7 : t.val % 8 = 7 := by have := lt8 t.val; omega
    rw [outAt1_H V c t h7]
    unfold out1_H_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_H c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) ((hcond1_7 t).mpr (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_H_3 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Attn

end
-- ==== Proof.BitsAttnShares.lean ====
/-
  The attention region's arrays among the core's unscoped buffers. Its query, key and value windows read ONE array
  (the head-major projection); the pipeline holds that array's buffer in three shares that make the whole, one per
  window, and the attention-output array whole. At the region's entry the two distinct buffers, each whole at the full
  share, are dealt among the four windows by splitting the first's share twice; at the exit the three shares — all at
  the contents the region found, since input windows are never written back — are joined again, and the output array
  comes back at what the write-backs left.
-/
import proofs.«102473_j17867063951717_2_alg».proof.Proof.BitsAttnRegion
import Idealize.ShloMosaic.Rules.PointsTo

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the region's arrays: the projection array and the attention-output array. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v1) ↦{fullShare} X main_v1) ∗ (((c : Thread nD τ).loc main_v2) ↦{fullShare} X main_v2)) := by
  unfold Pipeline.arrBufs
  exact bigSep_eq_bigSepL_of_eq [main_v1, main_v2] (by decide) (by decide) _

/-- The pipeline's four windows' arrays at contents `G`: three shares of the projection array's buffer, the
    attention-output array's whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1, (arr_whole1 0).set_eq_univ, (arr_whole1 3).set_eq_univ]
  rfl

/-- ENTRY: the two buffers whole at the contents the region finds are the four windows' arrays at those contents. -/
theorem arrays_of_arrBufs1 (c : Dev nD) :
    (Pipeline.arrBufs (Ix := Unit) (Name := ℕ) (U := UR sig nD τ) (Lvl := ℕ) spec1 c (V c) : sProp 𝕄) ⊢ (dat1 V c).arrays (dat1 V c).A := by
  rw [arrBufs1_eq, arrays1_eq]
  iintro ⟨H1, H2⟩
  ihave Hs := (pointsTo_share (PosShare.mem_left_op_right fullShare)).1 $$ H1
  icases Hs with ⟨Hl, Hr⟩
  ihave Hs2 := (pointsTo_share (PosShare.mem_left_op_right fullShare.right)).1 $$ Hr
  icases Hs2 with ⟨Hrl, Hrr⟩
  isplitl [Hl]; · iexact Hl
  isplitl [Hrl]; · iexact Hrl
  isplitl [Hrr]; · iexact Hrr
  iexact H2

/-- EXIT: the four windows' arrays, the three input shares at the contents found and the output at `O`, are the two
    buffers whole at any contents `X'` that has the projection array as found and the output array at `O`. -/
theorem arrBufs_of_arrays1 (c : Dev nD) (G : (w : Fin cfg1.W) → Buf (Elt F) ((cfg1.win w).arr.view.loc (c : Thread nD τ)))
    (X' : (b : Ref sig .tc) → Buf (Elt F) ((c : Thread nD τ).loc b))
    (h0 : G 0 = X' main_v1) (h1 : G 1 = X' main_v1) (h2 : G 2 = X' main_v1) (h3 : G 3 = X' main_v2) :
    ((dat1 V c).arrays G : sProp 𝕄) ⊢ Pipeline.arrBufs (Ix := Unit) (Name := ℕ) (U := UR sig nD τ) (Lvl := ℕ) spec1 c X' := by
  rw [arrBufs1_eq, arrays1_eq, h0, h1, h2, h3]
  iintro ⟨Hl, Hrl, Hrr, H2⟩
  isplitr [H2]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H2

end

end Cert.Kernel.Attn

end
-- ==== Proof.BitsOutProjRuns.lean ====
import proofs.«102473_j17867063951717_2_alg».proof.Proof.Gen.Kernel.Launch
import proofs.«102473_j17867063951717_2_alg».proof.Proof.Gen.Kernel.Skeleton
import proofs.«102473_j17867063951717_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

/-! # The output projection (third region of @main): what its three control cases share

The region walks the grid (batch b, row half si, head h) with h innermost. Its body keeps a 1024 x 1024
accumulator in a scratch buffer across the sixteen heads of one output block: at h = 0 it is zeroed,
at every head the product of the head's attention block with the head's weight slice is added, and at
h = 15 the accumulator plus the bias row is stored as the output block, which is written back there and
nowhere else. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attention-output window's current staging buffer holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weight window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias window, fetched at the first point only: its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (h = 0: zero the accumulator), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (h = 15: store the output block), from the grid coordinates. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A (h = 0) the output window is idle: the case stores nothing into it, -/
theorem idleAt2_3_A : ∀ t : Fin cfg2.N, cond2_0 (grid2.coords t) → ¬cond2_1 (grid2.coords t) → cfg2.idle 3 (grid2.coords t) = true := by decide +kernel
/-- and the pipeline does not write its block back. -/
theorem noFlush2_3_A : ∀ t : Fin cfg2.N, cond2_0 (grid2.coords t) → ¬cond2_1 (grid2.coords t) → (cfg2.win 3).flush t = false := by decide +kernel
/-- The same at the points of case B (0 < h < 15). -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the points of case C (h = 15) the output window is live: the case stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated (the choice does not matter). -/
abbrev VO2_3 : View sig .tc .vmem S1x1024x1024 .f32 := (Memref.whole cc2_stg3_0 : Memref sig .tc .vmem S1x1024x1024 .f32).view
/-- Each window's current staging memref at point `t`, spelled as the pipeline passes it, and its wholeness. -/
abbrev ms2_0 (t : Fin cfg2.N) : Memref sig .tc .vmem S1x1x1024x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S1024x1024 .f32 := Memref.whole cc2_scratch0
/-- The accumulator as a view: what it holds between points is stated through it. -/
abbrev VS2_0 : View sig .tc .vmem S1024x1024 .f32 := scM2_0.view

/-! ## The region invariant, with the accumulator singled out -/

/-- The core's scoped buffers that are neither a staging buffer of this region nor its accumulator — the other
    two regions' staging buffers and scratch —, each whole at some contents: the body never touches them. -/
def otherScoped (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

/-- The class's invariant is: the accumulator owned at some contents, the other scoped buffers, and the generator
    register at some state. -/
theorem PhiA2_eq (c : Dev nD) :
    (Pipeline.ΦA spec2 c : sProp 𝕄)
      = iprop(iprop((∃ d, owns (c : Thread nD τ) scM2_0 fullShare d) ∗ otherScoped c) ∗ (∃ r, prngReg c r)) := by
  unfold Pipeline.ΦA Pipeline.scopedRest otherScoped
  rw [bigSep_erase (i := cc2_scratch0) (by decide)]
  simp only [scM2_0, owns_whole]; try rfl

end Cert.Kernel.OutProj

end
-- ==== Proof.BitsOutProjRunA.lean ====
import proofs.«102473_j17867063951717_2_alg».proof.Proof.BitsOutProjRuns

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

set_option maxHeartbeats 1000000 in
/-- CASE A (h = 0: the first `scf.if` taken, the second not). What the body's stores leave in the accumulator, as
    pieces (last first), WITH the proof that on whole memrefs — the three inputs' at their contents, the output's at
    contents `xi3` handed back untouched (the case stores nothing into it), the accumulator at ANYTHING (the case
    stores it whole, with zeros, before it reads it) — the body runs to the continuation holding the inputs' and the
    output's as they were and the accumulator with its pieces written. -/
noncomputable def kernelRun2_A (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__outproj_kernel i arg3 harg3 arg4 harg4 arg5 harg5 arg6 harg6 arg7 harg7) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.OutProj

end
-- ==== Proof.BitsOutProjRunB.lean ====
import proofs.«102473_j17867063951717_2_alg».proof.Proof.BitsOutProjRunA

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

set_option maxHeartbeats 1000000 in
/-- CASE B (0 < h < 15: neither `scf.if` taken). The same with the accumulator at the contents `xs0` the point
    before left: the body adds this head's product to it. -/
noncomputable def kernelRun2_B (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__outproj_kernel i arg3 harg3 arg4 harg4 arg5 harg5 arg6 harg6 arg7 harg7) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.OutProj

end
-- ==== Proof.BitsOutProjRunC.lean ====
import proofs.«102473_j17867063951717_2_alg».proof.Proof.BitsOutProjRunB

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

set_option maxHeartbeats 1000000 in
/-- CASE C (h = 15: the second `scf.if` taken). The accumulator at the contents `xs0` the point before left, the
    output's memref at ANYTHING: the body adds the last head's product and stores the accumulator plus the bias row
    over the whole output block. -/
noncomputable def kernelRun2_C (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) :
    Σ' (L3 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__outproj_kernel i arg3 harg3 arg4 harg4 arg5 harg5 arg6 harg6 arg7 harg7) K } := by
  refine ⟨?_, ?_, fun E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.OutProj

end
-- ==== Proof.BitsOutProjRegion.lean ====
import proofs.«102473_j17867063951717_2_alg».proof.Proof.BitsOutProjRunC

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

/-! # The output projection (third region of @main): its half of the frame, at entry contents `V`

What the output block's staging buffer and the accumulator hold after each grid point, the region's proof data, and the
body obligation: at every point the body, run in the case the point's head coordinate selects, takes the accumulator at
what the point before left (at h = 0: at anything) and leaves it at this point's contents. -/

/-! ## What each case leaves -/

/-- Case A stores nothing into the output block (the window is idle at its points and not written back there):
    no pieces — a placeholder that nothing consults. -/
def out2_A_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) : Vec F S1x1024x1024 .f32 :=
  VO2_3.read (Elt F) (VO2_3.writes (Elt F) VO2_3.junk (kernelRun2_A c i arg3 harg3 arg4 harg4 arg5 harg5 arg6 harg6 arg7 harg7 hc0 hc1 x0 x1 x2).1)

/-- Case A's stores into the accumulator cover it whole (the zeroing store, then the accumulating store). -/
theorem scover2_A_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y

/-- What case A leaves in the accumulator: its pieces read back. -/
def sout2_A_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).2.1)

/-- Case B stores nothing into the output block (the window is idle at its points and not written back there):
    no pieces — a placeholder that nothing consults. -/
def out2_B_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) : Vec F S1x1024x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's stores into the accumulator cover it whole (the accumulating store). -/
theorem scover2_B_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y

/-- What case B leaves in the accumulator: its pieces read back. -/
def sout2_B_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- Case C's one store into the output block covers it whole. -/
theorem cover2_C_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) (y : S1x1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x1024x1024.size (by sl_kernel_rfl) y

/-- What case C leaves in the output's staging buffer: its piece read back. -/
def out2_C_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) : Vec F S1x1024x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- Case C's stores into the accumulator cover it whole (the accumulating store). -/
theorem scover2_C_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y

/-- What case C leaves in the accumulator: its pieces read back. -/
def sout2_C_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the buffers hold after each point -/

/-- After a point of case A (h = 0): the output's placeholder and the accumulator's contents, from the point's blocks. -/
def caseA (c : Dev nD) (t : Fin cfg2.N) (h0 : t.val % 16 = 0) (h1 : ¬t.val % 16 = 15) : Vec F S1x1024x1024 .f32 × Vec F S1024x1024 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t))

/-- After a point of case B (0 < h < 15), over the accumulator's contents `xs` before it. -/
def caseB (c : Dev nD) (t : Fin cfg2.N) (h0 : ¬t.val % 16 = 0) (h1 : ¬t.val % 16 = 15) (xs : Vec F S1024x1024 .f32) : Vec F S1x1024x1024 .f32 × Vec F S1024x1024 .f32 :=
  (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs)

/-- After a point of case C (h = 15), over the accumulator's contents `xs` before it. -/
def caseC (c : Dev nD) (t : Fin cfg2.N) (h0 : ¬t.val % 16 = 0) (h1 : t.val % 16 = 15) (xs : Vec F S1024x1024 .f32) : Vec F S1x1024x1024 .f32 × Vec F S1024x1024 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs)

/-- THE ACCUMULATION. What the output's staging buffer and the accumulator hold after the body at position `n`: the
    case the head coordinate selects there, run at the point's memrefs and input blocks, the accumulator read at what
    position `n - 1` left. At h = 0 nothing of the point before is read: the accumulator starts afresh at every
    output block. -/
def outsAt2 (c : Dev nD) : (n : ℕ) → n < cfg2.N → Vec F S1x1024x1024 .f32 × Vec F S1024x1024 .f32
  | 0, hn => caseA V c ⟨0, hn⟩ (Nat.zero_mod _) (fun h => by (try dsimp only at h); omega)
  | n + 1, hn =>
    if h0 : (n + 1) % 16 = 0 then
      if h1 : (n + 1) % 16 = 15 then
        False.elim (by omega)
      else
        caseA V c ⟨n + 1, hn⟩ h0 h1
    else
      if h1 : (n + 1) % 16 = 15 then
        caseC V c ⟨n + 1, hn⟩ h0 h1 (outsAt2 c n (Nat.lt_of_succ_lt hn)).2
      else
        caseB V c ⟨n + 1, hn⟩ h0 h1 (outsAt2 c n (Nat.lt_of_succ_lt hn)).2

/-- `outsAt2` at a point of case A: that case's contents. -/
theorem outsAt2_A (c : Dev nD) (t : Fin cfg2.N) (h0 : t.val % 16 = 0) (h1 : ¬t.val % 16 = 15) :
    outsAt2 V c t.val t.isLt = caseA V c t h0 h1 := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = caseB V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = caseC V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer that is no staging
    buffer at anything, the generator register at some state); afterwards the same with the accumulator at what the
    point before left in it. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ otherScoped c) ∗ (∃ r, prngReg c r))

theorem PhiS_zero (c : Dev nD) (n : ℕ) (h : n ≤ cfg2.N) (hz : n = 0) : PhiS V c n h = Pipeline.ΦA spec2 c := by
  subst hz; rfl

/-- After point `n` (before point `n + 1`): the accumulator at that point's contents. -/
theorem PhiS_succ (c : Dev nD) (n : ℕ) (hn : n < cfg2.N) :
    PhiS V c (n + 1) hn = iprop(iprop(owns (c : Thread nD τ) scM2_0 fullShare ((outsAt2 V c n hn).2) ∗ otherScoped c) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ otherScoped c) ∗ (∃ r, prngReg c r)) := by
  cases n with
  | zero => exact absurd rfl hz
  | succ n => rfl

/-! ## The region's proof data -/

/-- The proof data of the output projection on core `c`: the arrays as the region finds them (`V`); after the body at
    point `t` each input's buffer at its block and the output's at `outsAt2`; the invariant `PhiS`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the head coordinate says which case the point is in;
    the invariant hands the body the accumulator at what the point before left (at the first point, and at any other
    point with h = 0 once its named contents are forgotten: at anything) and takes it back at this point's contents; the
    other scoped buffers and the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 128 := lt_of_lt_of_eq t.isLt (show cfg2.N = 128 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold caseA sout2_A_0; (try dsimp only)
      by_cases hz : t.val = 0
      · rw [PhiS_castSucc V c t, PhiS_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold caseC out2_C_3 sout2_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold caseB sout2_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.Kernel.OutProj

end
-- ==== Proof.BitsRun.lean ====
/-
  The whole program's run. @main is: one host reshape of the bias; the projection region; the attention region; three
  host layout operations on the output weights and bias; the output-projection region. The contents of the core's
  unscoped buffers at each of the six boundaries are a fold from the launch memory: a host stretch applies its
  operations, a region replaces its output array by what its write-backs leave and changes nothing else. Every weakly
  fair execution terminates, nothing faulting, with EVERY unscoped buffer at the last valuation of the fold: the frame
  (no boundary's step writes an argument) and the result (the last region's output array) are both read off it.
-/
import proofs.«102473_j17867063951717_2_alg».proof.Proof.BitsQkvRegion
import proofs.«102473_j17867063951717_2_alg».proof.Proof.BitsAttnShares
import proofs.«102473_j17867063951717_2_alg».proof.Proof.BitsOutProjRegion
import proofs.«102473_j17867063951717_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the bias reshape: the projection region's entry. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- What the projection region leaves in the head-major array. -/
def o1 (c : Dev nD) : Buf (Elt F) ((c : Thread nD τ).loc main_v1) := (Qkv.dat0 (E1 m) c).arrAt 3 cfg0.N
/-- At the projection region's exit, which is the attention region's entry. -/
def W2 (c : Dev nD) : Valuation τ sig (Elt F) := Function.update (W1 m c) main_v1 (o1 m c)
abbrev E2 : (c : Dev nD) → (b : Ref sig .tc) → Buf (Elt F) ((c : Thread nD τ).loc b) := fun c b => W2 m c b
/-- What the attention region leaves in the attention-output array. -/
def o2 (c : Dev nD) : Buf (Elt F) ((c : Thread nD τ).loc main_v2) := (Attn.dat1 (E2 m) c).arrAt 3 cfg1.N
/-- At the attention region's exit. -/
def W3 (c : Dev nD) : Valuation τ sig (Elt F) := Function.update (W2 m c) main_v2 (o2 m c)
abbrev E3 : (c : Dev nD) → (b : Ref sig .tc) → Buf (Elt F) ((c : Thread nD τ).loc b) := fun c b => W3 m c b
/-- After the output weights' and bias's layout operations: the output-projection region's entry. -/
abbrev W4 (c : Dev nD) : Valuation τ sig (Elt F) := StableHlo.after hostOps2 (W3 m c)
abbrev E4 : (c : Dev nD) → (b : Ref sig .tc) → Buf (Elt F) ((c : Thread nD τ).loc b) := fun c b => W4 m c b
/-- What the output-projection region leaves in the result array. -/
def o3 (c : Dev nD) : Buf (Elt F) ((c : Thread nD τ).loc main_v6) := (OutProj.dat2 (E4 m) c).arrAt 3 cfg2.N
/-- At the return. -/
def W5 (c : Dev nD) : Valuation τ sig (Elt F) := Function.update (W4 m c) main_v6 (o3 m c)
abbrev E5 : (c : Dev nD) → (b : Ref sig .tc) → Buf (Elt F) ((c : Thread nD τ).loc b) := fun c b => W5 m c b

/-! ## What each step leaves unchanged -/

theorem W1_of (c : Dev nD) (r : Ref sig .tc) (h : r ∉ hostOps0_W) : W1 m c r = W0 m c r :=
  StableHlo.after_of_writes_sub hostOps0 _ hostOps0_writes h
theorem W2_self (c : Dev nD) : W2 m c (Proc.devRef .tc main_v1) = o1 m c := by unfold W2; exact Function.update_self ..
theorem W2_of (c : Dev nD) (r : Ref sig .tc) (h : r ∉ ([main_v1] : List (Ref sig .tc))) : W2 m c r = W1 m c r := by
  unfold W2; exact Function.update_of_ne (StableHlo.devRef_ne_of_ne (List.ne_of_not_mem_cons h) : (Proc.devRef .tc r : DevRef τ sig) ≠ Proc.devRef .tc main_v1) ..
theorem W3_self (c : Dev nD) : W3 m c (Proc.devRef .tc main_v2) = o2 m c := by unfold W3; exact Function.update_self ..
theorem W3_of (c : Dev nD) (r : Ref sig .tc) (h : r ∉ ([main_v2] : List (Ref sig .tc))) : W3 m c r = W2 m c r := by
  unfold W3; exact Function.update_of_ne (StableHlo.devRef_ne_of_ne (List.ne_of_not_mem_cons h) : (Proc.devRef .tc r : DevRef τ sig) ≠ Proc.devRef .tc main_v2) ..
theorem W4_of (c : Dev nD) (r : Ref sig .tc) (h : r ∉ hostOps2_W) : W4 m c r = W3 m c r :=
  StableHlo.after_of_writes_sub hostOps2 _ hostOps2_writes h
theorem W5_self (c : Dev nD) : W5 m c (Proc.devRef .tc main_v6) = o3 m c := by unfold W5; exact Function.update_self ..
theorem W5_of (c : Dev nD) (r : Ref sig .tc) (h : r ∉ ([main_v6] : List (Ref sig .tc))) : W5 m c r = W4 m c r := by
  unfold W5; exact Function.update_of_ne (StableHlo.devRef_ne_of_ne (List.ne_of_not_mem_cons h) : (Proc.devRef .tc r : DevRef τ sig) ≠ Proc.devRef .tc main_v6) ..

/-- No step writes an argument: each reaches the return as launched. -/
theorem W5_main_arg0 (c : Dev nD) : W5 m c (Proc.devRef .tc main_arg0) = m ((c : Thread nD τ).loc main_arg0) :=
  (W5_of m c main_arg0 (by decide)).trans <| (W4_of m c main_arg0 (by decide)).trans <| (W3_of m c main_arg0 (by decide)).trans <| (W2_of m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of m c main_arg1 (by decide)).trans <| (W3_of m c main_arg1 (by decide)).trans <| (W2_of m c main_arg1 (by decide)).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of m c main_arg2 (by decide)).trans <| (W3_of m c main_arg2 (by decide)).trans <| (W2_of m c main_arg2 (by decide)).trans <| (W1_of m c main_arg2 (by decide)).trans rfl
theorem W5_main_arg3 (c : Dev nD) : W5 m c (Proc.devRef .tc main_arg3) = m ((c : Thread nD τ).loc main_arg3) :=
  (W5_of m c main_arg3 (by decide)).trans <| (W4_of m c main_arg3 (by decide)).trans <| (W3_of m c main_arg3 (by decide)).trans <| (W2_of m c main_arg3 (by decide)).trans <| (W1_of m c main_arg3 (by decide)).trans rfl
theorem W5_main_arg4 (c : Dev nD) : W5 m c (Proc.devRef .tc main_arg4) = m ((c : Thread nD τ).loc main_arg4) :=
  (W5_of m c main_arg4 (by decide)).trans <| (W4_of m c main_arg4 (by decide)).trans <| (W3_of m c main_arg4 (by decide)).trans <| (W2_of m c main_arg4 (by decide)).trans <| (W1_of m c main_arg4 (by decide)).trans rfl

/-! ## Each region's arrays at its exit -/

theorem hF0 (c : Dev nD) (w : Fin cfg0.W) : (Qkv.dat0 (E1 m) c).arrAt w cfg0.N = E2 m c (Pipeline.arrRef spec0 w) :=
  match w with
  | ⟨0, _⟩ => (((Qkv.dat0 (E1 m) c).arrAt_in 0 rfl _).trans (Qkv.A_eq0 (E1 m) c 0)).trans (W2_of m c main_arg0 (by decide)).symm
  | ⟨1, _⟩ => (((Qkv.dat0 (E1 m) c).arrAt_in 1 rfl _).trans (Qkv.A_eq0 (E1 m) c 1)).trans (W2_of m c main_arg1 (by decide)).symm
  | ⟨2, _⟩ => (((Qkv.dat0 (E1 m) c).arrAt_in 2 rfl _).trans (Qkv.A_eq0 (E1 m) c 2)).trans (W2_of m c main_v0 (by decide)).symm
  | ⟨3, _⟩ => (W2_self m c).symm
  | ⟨_ + 4, h⟩ => absurd h (Nat.not_lt.2 (Nat.le_add_left _ _))
theorem hrest0 (c : Dev nD) : ∀ b, b ∉ Finset.univ.image (Pipeline.arrRef spec0) → E2 m c b = E1 m c b :=
  fun b hb => W2_of m c b (fun h => hb (Finset.mem_image.mpr ⟨3, Finset.mem_univ _, (List.mem_singleton.mp h).symm⟩))

theorem hF1 (c : Dev nD) (w : Fin cfg1.W) : (Attn.dat1 (E2 m) c).arrAt w cfg1.N = E3 m c (Pipeline.arrRef spec1 w) :=
  match w with
  | ⟨0, _⟩ => (((Attn.dat1 (E2 m) c).arrAt_in 0 rfl _).trans (Attn.A_eq1 (E2 m) c 0)).trans (W3_of m c main_v1 (by decide)).symm
  | ⟨1, _⟩ => (((Attn.dat1 (E2 m) c).arrAt_in 1 rfl _).trans (Attn.A_eq1 (E2 m) c 1)).trans (W3_of m c main_v1 (by decide)).symm
  | ⟨2, _⟩ => (((Attn.dat1 (E2 m) c).arrAt_in 2 rfl _).trans (Attn.A_eq1 (E2 m) c 2)).trans (W3_of m c main_v1 (by decide)).symm
  | ⟨3, _⟩ => (W3_self m c).symm
  | ⟨_ + 4, h⟩ => absurd h (Nat.not_lt.2 (Nat.le_add_left _ _))
theorem hrest1 (c : Dev nD) : ∀ b, b ∉ Finset.univ.image (Pipeline.arrRef spec1) → E3 m c b = E2 m c b :=
  fun b hb => W3_of m c b (fun h => hb (Finset.mem_image.mpr ⟨3, Finset.mem_univ _, (List.mem_singleton.mp h).symm⟩))

theorem hF2 (c : Dev nD) (w : Fin cfg2.W) : (OutProj.dat2 (E4 m) c).arrAt w cfg2.N = E5 m c (Pipeline.arrRef spec2 w) :=
  match w with
  | ⟨0, _⟩ => (((OutProj.dat2 (E4 m) c).arrAt_in 0 rfl _).trans (OutProj.A_eq2 (E4 m) c 0)).trans (W5_of m c main_v2 (by decide)).symm
  | ⟨1, _⟩ => (((OutProj.dat2 (E4 m) c).arrAt_in 1 rfl _).trans (OutProj.A_eq2 (E4 m) c 1)).trans (W5_of m c main_v4 (by decide)).symm
  | ⟨2, _⟩ => (((OutProj.dat2 (E4 m) c).arrAt_in 2 rfl _).trans (OutProj.A_eq2 (E4 m) c 2)).trans (W5_of m c main_v5 (by decide)).symm
  | ⟨3, _⟩ => (W5_self m c).symm
  | ⟨_ + 4, h⟩ => absurd h (Nat.not_lt.2 (Nat.le_add_left _ _))
theorem hrest2 (c : Dev nD) : ∀ b, b ∉ Finset.univ.image (Pipeline.arrRef spec2) → E5 m c b = E4 m c b :=
  fun b hb => W5_of m c b (fun h => hb (Finset.mem_image.mpr ⟨3, Finset.mem_univ _, (List.mem_singleton.mp h).symm⟩))

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Qkv.dat0 (E1 m) c
  | ⟨1, _⟩ => fun c => Attn.dat1 (E2 m) c
  | ⟨2, _⟩ => fun c => OutProj.dat2 (E4 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hub := Pipeline.unscopedBufs_split₀ (Ix := Unit) (Name := ℕ) (U := UR sig nD τ) (Lvl := ℕ) (Val := Elt F) cfgs (1 : Fin 3) winFacts₀1.arr_unscoped c (E2 m c)
    rw [Pipeline.unscopedBufs_held] at hub
    have hsp := Entails.of_eq hub
    have harr := Attn.arrays_of_arrBufs1 (E2 m) c
    iintro ⟨⟨Hub, Hp, HO⟩, -, -⟩
    ihave Hsp := hsp $$ Hub
    icases Hsp with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs (1 : Fin 3) winFacts₀1.arr_unscoped c (E3 m c)
    rw [Pipeline.unscopedBufs_held] at hub
    have hrest : (Pipeline.unscopedRest (Ix := Unit) (Name := ℕ) (U := UR sig nD τ) (Lvl := ℕ) spec1 c (E2 m c) : sProp 𝕄)
        = Pipeline.unscopedRest spec1 c (E3 m c) := by
      unfold Pipeline.unscopedRest
      exact bigSep_congr fun b hb => by rw [hrest1 m c b (Finset.mem_sdiff.mp hb).2]
    iintro ⟨Ha, HO, HY, Hrest⟩
    imodintro
    isplitl [Ha Hrest]
    · rw [hub]
      isplitl [Ha]
      · iapply (Attn.arrBufs_of_arrays1 (E2 m) c ((pdats m 1 c).arrAt · cfg1.N) (E3 m c) (hF1 m c 0) (hF1 m c 1) (hF1 m c 2) (hF1 m c 3))
        iexact Ha
      iapply (Entails.of_eq hrest); iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (OutProj.hin2 (E4 m) c)
    unfold Pipeline.ΦA
    iintro ⟨Hp, -, Hr⟩
    isplitl [Hr]; · iexact Hr
    iexact Hp
  hout c := by
    rw [Pipeline.ownSems0_none]
    refine (OutProj.hout2 (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds each unscoped buffer at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any `F`: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- THE RESULT: the result array ends at what the output-projection region's write-backs leave, the arguments as launched. -/
theorem run_result : θ_run defs (onTc (τ := τ) (main (F := F))) ⟨m, fun _ => 0, ρ⟩ (fun r => ∀ c : Dev nD,
      r.2.mem ((c.tc : Thread nD τ).loc main_v6) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans (W5_self m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Run

end
-- ==== Proof.IdealQkvRegion.lean ====
/- Region 0 of @main (custom_call 0, `cc0__qkv_proj_kernel`, pipeline 0): the class-A half of its frame at the
   region-entry contents `V`, at any float interpretation `F`. The body reads each input window's staging buffer
   once and overwrites the output window's buffer with one store of the payload `k0_pay1`; so after the body each
   input buffer still holds its block and the output buffer holds `out0_3` of the three input blocks. -/
import proofs.«102473_j17867063951717_2_alg».proof.Proof.Gen.KernelIdeal.Launch
import proofs.«102473_j17867063951717_2_alg».proof.Proof.Gen.KernelIdeal.Skeleton
import proofs.«102473_j17867063951717_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' batch block, fetched only when the batch coordinate moves): its current staging
    buffer holds its block at every point, fetched there or not, for ANY proof data whose array is `V`'s (`hA`) and
    whose body leaves the block in place (`hafter`): unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight rows of one head slot): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row of one head slot): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x2048x1024 := Rect.unit (s := S1x2048x1024) ![0, 0, 0] S1x2048x1024.size inb_S1x2048x1024_S1x2048x1024_0_0_0
abbrev r0_1 : Rect S64x1024 := Rect.unit (s := S64x1024) ![0, 0] S64x1024.size inb_S64x1024_S64x1024_0_0
abbrev r0_2 : Rect S1x1x64 := Rect.unit (s := S1x1x64) ![0, 0, 0] S1x1x64.size inb_S1x1x64_S1x1x64_0_0_0
abbrev r0_3 : Rect S1x1x2048x64 := Rect.unit (s := S1x1x2048x64) ![0, 0, 0, 0] S1x1x2048x64.size inb_S1x1x2048x64_S1x1x2048x64_0_0_0_0

/-! ## What the body leaves in the output window's buffer -/

/-- Window 3's staging buffer after the body, from the input windows' blocks: its one store as a piece over the
    whole buffer, the payload the skeleton's (the projection of the activations by the weight rows, plus the bias). -/
def out0_3 (x0 : Vec F S1x2048x1024 .f32) (x1 : Vec F S64x1024 .f32) (x2 : Vec F S1x1x64 .f32) : Vec F S1x1x2048x64 .bf16 :=
  View.canon [⟨r0_3, k0_pay1 (View.ld x0 r0_0) (View.ld x1 r0_1) (View.ld x2 r0_2)⟩]

/-- The store's rectangle is the whole buffer, so it covers it. -/
theorem cover0_3 (p0 : Vec F S1x1x2048x64 .bf16) (y : S1x1x2048x64.Idx) :
    ∃ pc ∈ ([⟨r0_3, p0⟩] : List (View.Piece (Elt F) S1x1x2048x64 .bf16)), y ∈ pc.1.set :=
  View.cover_of_tiled [⟨r0_3, p0⟩] S1x1x2048x64.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg2 : Memref sig .tc .vmem S1x2048x1024 .f32) (harg2 : arg2.IsWhole) (arg3 : Memref sig .tc .vmem S64x1024 .f32) (harg3 : arg3.IsWhole) (arg4 : Memref sig .tc .vmem S1x1x64 .f32) (harg4 : arg4.IsWhole) (arg5 : Memref sig .tc .vmem S1x1x2048x64 .bf16) (harg5 : arg5.IsWhole)
    (x0 : Vec F S1x2048x1024 .f32) (x1 : Vec F S64x1024 .f32) (x2 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__qkv_proj_kernel i arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Qkv

end
-- ==== Proof.IdealAttnRuns.lean ====
/-
  The attention region (the second pallas_call): what its eight control cases are stated over. A grid point is
  (batch, head, query block qi); the body walks the eight key chunks c = 0..7 and processes chunk c only when c ≤ qi,
  so a point's case is its query block index qi = t mod 8. Here: each window's block at a point, read off the array
  as the region finds it; that an input's staging buffer holds that block whether or not the pipeline fetched it at
  the point; the eight conditions in closed form over the grid; the staging and scratch memrefs the body is called with.
-/
import proofs.«102473_j17867063951717_2_alg».proof.Proof.Gen.KernelIdeal.Launch
import proofs.«102473_j17867063951717_2_alg».proof.Proof.Gen.KernelIdeal.Skeleton
import proofs.«102473_j17867063951717_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved), for any proof data whose array is the entry contents and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved), for any proof data whose array is the entry contents and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions, decided over the grid -/

/-- Key chunk 0 is processed at a point: the query block's index is at least 0. -/
abbrev cond1_0 (i : grid1.Coords) : Prop := (Scalar.cmpi .ne (Scalar.extui (Scalar.cmpi .sge (BitVec.ofNat 32 (i 2).val) 0#32)) 0#32) = 1#1
theorem hcond1_0 : ∀ t : Fin cfg1.N, cond1_0 (grid1.coords t) ↔ 0 ≤ t.val % 8 :=
  (by decide +kernel : ∀ t : Fin grid1.N, cond1_0 (grid1.coords t) ↔ 0 ≤ t.val % 8)

/-- Key chunk 1 is processed at a point: the query block's index is at least 1. -/
abbrev cond1_1 (i : grid1.Coords) : Prop := (Scalar.cmpi .ne (Scalar.extui (Scalar.cmpi .sge (BitVec.ofNat 32 (i 2).val) 1#32)) 0#32) = 1#1
theorem hcond1_1 : ∀ t : Fin cfg1.N, cond1_1 (grid1.coords t) ↔ 1 ≤ t.val % 8 :=
  (by decide +kernel : ∀ t : Fin grid1.N, cond1_1 (grid1.coords t) ↔ 1 ≤ t.val % 8)

/-- Key chunk 2 is processed at a point: the query block's index is at least 2. -/
abbrev cond1_2 (i : grid1.Coords) : Prop := (Scalar.cmpi .ne (Scalar.extui (Scalar.cmpi .sge (BitVec.ofNat 32 (i 2).val) 2#32)) 0#32) = 1#1
theorem hcond1_2 : ∀ t : Fin cfg1.N, cond1_2 (grid1.coords t) ↔ 2 ≤ t.val % 8 :=
  (by decide +kernel : ∀ t : Fin grid1.N, cond1_2 (grid1.coords t) ↔ 2 ≤ t.val % 8)

/-- Key chunk 3 is processed at a point: the query block's index is at least 3. -/
abbrev cond1_3 (i : grid1.Coords) : Prop := (Scalar.cmpi .ne (Scalar.extui (Scalar.cmpi .sge (BitVec.ofNat 32 (i 2).val) 3#32)) 0#32) = 1#1
theorem hcond1_3 : ∀ t : Fin cfg1.N, cond1_3 (grid1.coords t) ↔ 3 ≤ t.val % 8 :=
  (by decide +kernel : ∀ t : Fin grid1.N, cond1_3 (grid1.coords t) ↔ 3 ≤ t.val % 8)

/-- Key chunk 4 is processed at a point: the query block's index is at least 4. -/
abbrev cond1_4 (i : grid1.Coords) : Prop := (Scalar.cmpi .ne (Scalar.extui (Scalar.cmpi .sge (BitVec.ofNat 32 (i 2).val) 4#32)) 0#32) = 1#1
theorem hcond1_4 : ∀ t : Fin cfg1.N, cond1_4 (grid1.coords t) ↔ 4 ≤ t.val % 8 :=
  (by decide +kernel : ∀ t : Fin grid1.N, cond1_4 (grid1.coords t) ↔ 4 ≤ t.val % 8)

/-- Key chunk 5 is processed at a point: the query block's index is at least 5. -/
abbrev cond1_5 (i : grid1.Coords) : Prop := (Scalar.cmpi .ne (Scalar.extui (Scalar.cmpi .sge (BitVec.ofNat 32 (i 2).val) 5#32)) 0#32) = 1#1
theorem hcond1_5 : ∀ t : Fin cfg1.N, cond1_5 (grid1.coords t) ↔ 5 ≤ t.val % 8 :=
  (by decide +kernel : ∀ t : Fin grid1.N, cond1_5 (grid1.coords t) ↔ 5 ≤ t.val % 8)

/-- Key chunk 6 is processed at a point: the query block's index is at least 6. -/
abbrev cond1_6 (i : grid1.Coords) : Prop := (Scalar.cmpi .ne (Scalar.extui (Scalar.cmpi .sge (BitVec.ofNat 32 (i 2).val) 6#32)) 0#32) = 1#1
theorem hcond1_6 : ∀ t : Fin cfg1.N, cond1_6 (grid1.coords t) ↔ 6 ≤ t.val % 8 :=
  (by decide +kernel : ∀ t : Fin grid1.N, cond1_6 (grid1.coords t) ↔ 6 ≤ t.val % 8)

/-- Key chunk 7 is processed at a point: the query block's index is at least 7. -/
abbrev cond1_7 (i : grid1.Coords) : Prop := (Scalar.cmpi .ne (Scalar.extui (Scalar.cmpi .sge (BitVec.ofNat 32 (i 2).val) 7#32)) 0#32) = 1#1
theorem hcond1_7 : ∀ t : Fin cfg1.N, cond1_7 (grid1.coords t) ↔ 7 ≤ t.val % 8 :=
  (by decide +kernel : ∀ t : Fin grid1.N, cond1_7 (grid1.coords t) ↔ 7 ≤ t.val % 8)

/-! ## No window is idle at any point -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The memrefs the body is called with -/

/-- One staging buffer of the output window, through which its contents are stated. -/
abbrev VO1_3 : View sig .tc .vmem S1x1x256x64 .bf16 := (Memref.whole cc1_stg3_0 : Memref sig .tc .vmem S1x1x256x64 .bf16).view
abbrev ms1_0 (t : Fin cfg1.N) : Memref sig .tc .vmem S1x1x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x256x64 .bf16 := win1_3.stage (cfg1.slots t 3)
abbrev hs1_3 (t : Fin cfg1.N) : (ms1_3 t).IsWhole := hstage1_3 ((cfg1.slots t 3).cast nbuf1_3)
/-- The scratch operands: the running maximum, the running normaliser, the running weighted sum. -/
abbrev scM1_0 : Memref sig .tc .vmem S256x1 .f32 := Memref.whole cc1_scratch0
abbrev scM1_1 : Memref sig .tc .vmem S256x1 .f32 := Memref.whole cc1_scratch1
abbrev scM1_2 : Memref sig .tc .vmem S256x64 .f32 := Memref.whole cc1_scratch2

end Cert.KernelIdeal.Attn

end
-- ==== Proof.IdealAttnRunA.lean ====
/-
  The attention body run whole at a point whose query block index is 0: key chunks 0..0 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRuns

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_A (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRunB.lean ====
/-
  The attention body run whole at a point whose query block index is 1: key chunks 0..1 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_B (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRunC.lean ====
/-
  The attention body run whole at a point whose query block index is 2: key chunks 0..2 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_C (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRunD.lean ====
/-
  The attention body run whole at a point whose query block index is 3: key chunks 0..3 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_D (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRunE.lean ====
/-
  The attention body run whole at a point whose query block index is 4: key chunks 0..4 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRunD

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_E (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRunF.lean ====
/-
  The attention body run whole at a point whose query block index is 5: key chunks 0..5 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRunE

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_F (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRunG.lean ====
/-
  The attention body run whole at a point whose query block index is 6: key chunks 0..6 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRunF

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_G (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRunH.lean ====
/-
  The attention body run whole at a point whose query block index is 7: key chunks 0..7 are processed (the
  last of them is the diagonal chunk), the later ones skipped. On whole staging memrefs — the query, key and value
  blocks at their contents, the output block and the three scratch buffers at anything — the body runs to its end
  holding the inputs as they were, the output block with the pieces its one store wrote, the scratch at some contents.
-/
import proofs.«102473_j17867063951717_2_alg».proof.Proof.IdealAttnRunG

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's store leaves in the output block's staging memref in this case, with the body's triple. -/
noncomputable def kernelRun1_H (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x1x256x64 .bf16) (x1 : Vec F S1x1x2048x64 .bf16) (x2 : Vec F S1x1x2048x64 .bf16) :
    { L3 : List (View.Piece (Elt F) S1x1x256x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Attn

end
-- ==== Proof.IdealAttnRegion.lean ====
/-
  The attention region: what the output block's staging buffer holds after the body at each point (the case its
  query block index selects, run at the point's memrefs and input blocks), the proof data of the pipeline at the
  region's entry contents, and the body obligation at every point. The three scratch buffers are re-initialised at
  every point before they are read, so nothing is carried between points: the body takes them from the scoped rest
  at any contents and hands them back at some contents. The query, key and value windows read ONE array (the
  head-major projection), each holding a share of it; the output window's array is held whole.
-/
import proofs.«102473_j17867063951717_2_alg».proof.Proof.IdealAttnRunH

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem lt8 (n : ℕ) : n % 8 < 8 := Nat.mod_lt _ (by decide)

/-- Query block index 0: the one store of the output block covers it. -/
theorem cover1_A_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_A c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_A c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 0: what the body leaves in the output block's staging buffer. -/
def out1_A_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_A c i arg3 harg3 arg4 harg4 arg5 harg5 arg6 harg6 arg7 harg7 arg8 harg8 arg9 harg9 hc0 hc1 hc2 hc3 hc4 hc5 hc6 hc7 x0 x1 x2).1)

/-- Query block index 1: the one store of the output block covers it. -/
theorem cover1_B_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_B c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_B c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 1: what the body leaves in the output block's staging buffer. -/
def out1_B_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_B c i arg3 harg3 arg4 harg4 arg5 harg5 arg6 harg6 arg7 harg7 arg8 harg8 arg9 harg9 hc0 hc1 hc2 hc3 hc4 hc5 hc6 hc7 x0 x1 x2).1)

/-- Query block index 2: the one store of the output block covers it. -/
theorem cover1_C_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_C c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_C c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 2: what the body leaves in the output block's staging buffer. -/
def out1_C_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_C c i arg3 harg3 arg4 harg4 arg5 harg5 arg6 harg6 arg7 harg7 arg8 harg8 arg9 harg9 hc0 hc1 hc2 hc3 hc4 hc5 hc6 hc7 x0 x1 x2).1)

/-- Query block index 3: the one store of the output block covers it. -/
theorem cover1_D_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_D c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_D c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 3: what the body leaves in the output block's staging buffer. -/
def out1_D_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_D c i arg3 harg3 arg4 harg4 arg5 harg5 arg6 harg6 arg7 harg7 arg8 harg8 arg9 harg9 hc0 hc1 hc2 hc3 hc4 hc5 hc6 hc7 x0 x1 x2).1)

/-- Query block index 4: the one store of the output block covers it. -/
theorem cover1_E_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_E c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_E c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 4: what the body leaves in the output block's staging buffer. -/
def out1_E_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 hc3 hc4 hc5 hc6 hc7 x0 x1 x2).1)

/-- Query block index 5: the one store of the output block covers it. -/
theorem cover1_F_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_F c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_F c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 5: what the body leaves in the output block's staging buffer. -/
def out1_F_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_F c i arg3 harg3 arg4 harg4 arg5 harg5 arg6 harg6 arg7 harg7 arg8 harg8 arg9 harg9 hc0 hc1 hc2 hc3 hc4 hc5 hc6 hc7 x0 x1 x2).1)

/-- Query block index 6: the one store of the output block covers it. -/
theorem cover1_G_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x1x256x64 .bf16) (x1 : Vec F S1x1x2048x64 .bf16) (x2 : Vec F S1x1x2048x64 .bf16) (y : S1x1x256x64.Idx) :
    ∃ pc ∈ (kernelRun1_G c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_G c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 6: what the body leaves in the output block's staging buffer. -/
def out1_G_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_G c i arg3 harg3 arg4 harg4 arg5 harg5 arg6 harg6 arg7 harg7 arg8 harg8 arg9 harg9 hc0 hc1 hc2 hc3 hc4 hc5 hc6 hc7 x0 x1 x2).1)

/-- Query block index 7: the one store of the output block covers it. -/
theorem cover1_H_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x1x256x64 .bf16) (x1 : Vec F S1x1x2048x64 .bf16) (x2 : Vec F S1x1x2048x64 .bf16) (y : S1x1x256x64.Idx) :
    ∃ pc ∈ (kernelRun1_H c i arg3 harg3 arg4 harg4 arg5 harg5 arg6 harg6 arg7 harg7 arg8 harg8 arg9 harg9 hc0 hc1 hc2 hc3 hc4 hc5 hc6 hc7 x0 x1 x2).1, y ∈ pc.1.set :=
  View.cover_of_tiledL (kernelRun1_H c i arg3 harg3 arg4 harg4 arg5 harg5 arg6 harg6 arg7 harg7 arg8 harg8 arg9 harg9 hc0 hc1 hc2 hc3 hc4 hc5 hc6 hc7 x0 x1 x2).1 S1x1x256x64.size (by sl_kernel_rfl) y

/-- Query block index 7: what the body leaves in the output block's staging buffer. -/
def out1_H_3 (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x1x256x64 .bf16) (x1 : Vec F S1x1x2048x64 .bf16) (x2 : Vec F S1x1x2048x64 .bf16) : Vec F S1x1x256x64 .bf16 :=
  VO1_3.read (Elt F) (VO1_3.writes (Elt F) VO1_3.junk (kernelRun1_H c i arg3 harg3 arg4 harg4 arg5 harg5 arg6 harg6 arg7 harg7 arg8 harg8 arg9 harg9 hc0 hc1 hc2 hc3 hc4 hc5 hc6 hc7 x0 x1 x2).1)

section
variable (V : (c : Dev nD) → (b : Ref sig .tc) → Buf (Elt F) ((c : Thread nD τ).loc b))

/-- What the output block's staging buffer holds after the body at point `t`: the case of the point's query block
    index `t mod 8`, at the point's memrefs and its query, key and value blocks. -/
def outAt1 (c : Dev nD) (t : Fin cfg1.N) : Vec F S1x1x256x64 .bf16 :=
  if h0 : t.val % 8 = 0 then out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) (fun h => absurd ((hcond1_1 t).mp h) (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h1 : t.val % 8 = 1 then out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h2 : t.val % 8 = 2 then out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h3 : t.val % 8 = 3 then out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h4 : t.val % 8 = 4 then out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h5 : t.val % 8 = 5 then out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)
  else if h6 : t.val % 8 = 6 then out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) (fun h => absurd ((hcond1_7 t).mp h) (by have := lt8 t.val; omega)) (iblk1 V c 0 t) (iblk1 V c 1 t) (iblk1 V c 2 t)
  else out1_H_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) ((hcond1_7 t).mpr (by have := lt8 t.val; omega)) (iblk1 V c 0 t) (iblk1 V c 1 t) (iblk1 V c 2 t)

theorem outAt1_A (c : Dev nD) (t : Fin cfg1.N) (h : t.val % 8 = 0) :
    outAt1 V c t = out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) (fun h => absurd ((hcond1_1 t).mp h) (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_pos h]

theorem outAt1_B (c : Dev nD) (t : Fin cfg1.N) (h : t.val % 8 = 1) :
    outAt1 V c t = out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_pos h]

theorem outAt1_C (c : Dev nD) (t : Fin cfg1.N) (h : t.val % 8 = 2) :
    outAt1 V c t = out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_pos h]

theorem outAt1_D (c : Dev nD) (t : Fin cfg1.N) (h : t.val % 8 = 3) :
    outAt1 V c t = out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_pos h]

theorem outAt1_E (c : Dev nD) (t : Fin cfg1.N) (h : t.val % 8 = 4) :
    outAt1 V c t = out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_pos h]

theorem outAt1_F (c : Dev nD) (t : Fin cfg1.N) (h : t.val % 8 = 5) :
    outAt1 V c t = out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_neg (show ¬ t.val % 8 = 4 from by omega), dif_pos h]

theorem outAt1_G (c : Dev nD) (t : Fin cfg1.N) (h : t.val % 8 = 6) :
    outAt1 V c t = out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) (fun h => absurd ((hcond1_7 t).mp h) (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_neg (show ¬ t.val % 8 = 4 from by omega), dif_neg (show ¬ t.val % 8 = 5 from by omega), dif_pos h]

theorem outAt1_H (c : Dev nD) (t : Fin cfg1.N) (h : t.val % 8 = 7) :
    outAt1 V c t = out1_H_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) ((hcond1_7 t).mpr (by have := lt8 t.val; omega)) (iblk1 V c 0 t) (iblk1 V c 1 t) (iblk1 V c 2 t) := by
  unfold outAt1
  rw [dif_neg (show ¬ t.val % 8 = 0 from by omega), dif_neg (show ¬ t.val % 8 = 1 from by omega), dif_neg (show ¬ t.val % 8 = 2 from by omega), dif_neg (show ¬ t.val % 8 = 3 from by omega), dif_neg (show ¬ t.val % 8 = 4 from by omega), dif_neg (show ¬ t.val % 8 = 5 from by omega), dif_neg (show ¬ t.val % 8 = 6 from by omega)]

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl

/-- The proof data of the attention pipeline on core `c`: the arrays as the region finds them; after the body each
    input's buffer at its block and the output's at `outAt1`; the invariant the scoped rest and the generator register;
    nothing owed; the one array the three input windows read held in three shares that make the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's query block index says which case it is
    in; the invariant hands the body the three scratch buffers at some contents and takes them back at some contents;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 8 = 0
  · rw [outAt1_A V c t h0]
    unfold out1_A_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr (by have := lt8 t.val; omega)) (fun h => absurd ((hcond1_1 t).mp h) (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _ _ _ _ _ _)
  by_cases h1 : t.val % 8 = 1
  · rw [outAt1_B V c t h1]
    unfold out1_B_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ ((hcond1_0 t).mpr (by have := lt8 t.val; omega)) ((hcond1_1 t).mpr (by have := lt8 t.val; omega)) (fun h => absurd ((hcond1_2 t).mp h) (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _ _ _ _)
  by_cases h2 : t.val % 8 = 2
  · rw [outAt1_C V c t h2]
    unfold out1_C_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_C c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) (fun h => absurd ((hcond1_3 t).mp h) (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _ _ _ _ _ _ _ _ _ _)
  by_cases h3 : t.val % 8 = 3
  · rw [outAt1_D V c t h3]
    unfold out1_D_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_D c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) (fun h => absurd ((hcond1_4 t).mp h) (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_D_3 c _ _ _ _ _ _ _ _ _ _ _ _ _ _ _ _ _ _ _ _ _ _ _ _ _ _)
  by_cases h4 : t.val % 8 = 4
  · rw [outAt1_E V c t h4]
    unfold out1_E_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_E c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) (fun h => absurd ((hcond1_5 t).mp h) (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_E_3 c _ _ _ _ _ _ _ _ _ _ _ _ _ _ _ _ _ _ _ _ _ _ _ _ _ _)
  by_cases h5 : t.val % 8 = 5
  · rw [outAt1_F V c t h5]
    unfold out1_F_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_F c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) (fun h => absurd ((hcond1_6 t).mp h) (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_F_3 c _ _ _ _ _ _ _ _ _ _ _ _ _ _ _ _ _ _ _ _ _ _ _ _ _ _)
  by_cases h6 : t.val % 8 = 6
  · rw [outAt1_G V c t h6]
    unfold out1_G_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_G c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) (fun h => absurd ((hcond1_7 t).mp h) (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_G_3 c _ _ _ _ _ _ _ _ _ _ _ _ _ _ _ _ _ _ _ _ _ _ _ _ _ _)
  · have h7 : t.val % 8 = 7 := by have := lt8 t.val; omega
    rw [outAt1_H V c t h7]
    unfold out1_H_3; (try dsimp only)
    iintro ⟨⟨⟨Hr0, Hr1, Hr2, Hr3, Hr4, Hr5, Hr6, Hr7, HS0, HS1, HS2, Hr11, Hr12, Hr13, Hr14, Hr15, Hr16, Hr17, Hr18⟩, Hg⟩, Ho, ⟨%d0, H0⟩, ⟨%d1, H1⟩, ⟨%d2, H2⟩, ⟨%d3, H3⟩⟩
    iapply ((kernelRun1_H c (grid1.coords t) _ _ _ _ _ _ _ _ _ _ _ _ _ _ ((hcond1_0 t).mpr (by have := lt8 t.val; omega)) ((hcond1_1 t).mpr (by have := lt8 t.val; omega)) ((hcond1_2 t).mpr (by have := lt8 t.val; omega)) ((hcond1_3 t).mpr (by have := lt8 t.val; omega)) ((hcond1_4 t).mpr (by have := lt8 t.val; omega)) ((hcond1_5 t).mpr (by have := lt8 t.val; omega)) ((hcond1_6 t).mpr (by have := lt8 t.val; omega)) ((hcond1_7 t).mpr (by have := lt8 t.val; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hr0 Hr1 Hr2 Hr3 Hr4 Hr5 Hr6 Hr7 HS0 HS1 HS2 Hr11 Hr12 Hr13 Hr14 Hr15 Hr16 Hr17 Hr18 Hg]
    · isplitr [Hg]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        isplitl [HS0]; · iexact HS0
        isplitl [HS1]; · iexact HS1
        isplitl [HS2]; · iexact HS2
        isplitl [Hr11]; · iexact Hr11
        isplitl [Hr12]; · iexact Hr12
        isplitl [Hr13]; · iexact Hr13
        isplitl [Hr14]; · iexact Hr14
        isplitl [Hr15]; · iexact Hr15
        isplitl [Hr16]; · iexact Hr16
        isplitl [Hr17]; · iexact Hr17
        iexact Hr18
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_H_3 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Attn

end
-- ==== Proof.IdealAttnShares.lean ====
/-
  The attention region's arrays among the core's unscoped buffers. Its query, key and value windows read ONE array
  (the head-major projection); the pipeline holds that array's buffer in three shares that make the whole, one per
  window, and the attention-output array whole. At the region's entry the two distinct buffers, each whole at the full
  share, are dealt among the four windows by splitting the first's share twice; at the exit the three shares — all at
  the contents the region found, since input windows are never written back — are joined again, and the output array
  comes back at what the write-backs left.
-/
import proofs.«102473_j17867063951717_2_alg».proof.Proof.IdealAttnRegion
import Idealize.ShloMosaic.Rules.PointsTo

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- The distinct buffers behind the region's arrays: the projection array and the attention-output array. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v1) ↦{fullShare} X main_v1) ∗ (((c : Thread nD τ).loc main_v2) ↦{fullShare} X main_v2)) := by
  unfold Pipeline.arrBufs
  exact bigSep_eq_bigSepL_of_eq [main_v1, main_v2] (by decide) (by decide) _

/-- The pipeline's four windows' arrays at contents `G`: three shares of the projection array's buffer, the
    attention-output array's whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1, (arr_whole1 0).set_eq_univ, (arr_whole1 3).set_eq_univ]
  rfl

/-- ENTRY: the two buffers whole at the contents the region finds are the four windows' arrays at those contents. -/
theorem arrays_of_arrBufs1 (c : Dev nD) :
    (Pipeline.arrBufs (Ix := Unit) (Name := ℕ) (U := UR sig nD τ) (Lvl := ℕ) spec1 c (V c) : sProp 𝕄) ⊢ (dat1 V c).arrays (dat1 V c).A := by
  rw [arrBufs1_eq, arrays1_eq]
  iintro ⟨H1, H2⟩
  ihave Hs := (pointsTo_share (PosShare.mem_left_op_right fullShare)).1 $$ H1
  icases Hs with ⟨Hl, Hr⟩
  ihave Hs2 := (pointsTo_share (PosShare.mem_left_op_right fullShare.right)).1 $$ Hr
  icases Hs2 with ⟨Hrl, Hrr⟩
  isplitl [Hl]; · iexact Hl
  isplitl [Hrl]; · iexact Hrl
  isplitl [Hrr]; · iexact Hrr
  iexact H2

/-- EXIT: the four windows' arrays, the three input shares at the contents found and the output at `O`, are the two
    buffers whole at any contents `X'` that has the projection array as found and the output array at `O`. -/
theorem arrBufs_of_arrays1 (c : Dev nD) (G : (w : Fin cfg1.W) → Buf (Elt F) ((cfg1.win w).arr.view.loc (c : Thread nD τ)))
    (X' : (b : Ref sig .tc) → Buf (Elt F) ((c : Thread nD τ).loc b))
    (h0 : G 0 = X' main_v1) (h1 : G 1 = X' main_v1) (h2 : G 2 = X' main_v1) (h3 : G 3 = X' main_v2) :
    ((dat1 V c).arrays G : sProp 𝕄) ⊢ Pipeline.arrBufs (Ix := Unit) (Name := ℕ) (U := UR sig nD τ) (Lvl := ℕ) spec1 c X' := by
  rw [arrBufs1_eq, arrays1_eq, h0, h1, h2, h3]
  iintro ⟨Hl, Hrl, Hrr, H2⟩
  isplitr [H2]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H2

end

end Cert.KernelIdeal.Attn

end
-- ==== Proof.IdealOutProjRuns.lean ====
import proofs.«102473_j17867063951717_2_alg».proof.Proof.Gen.KernelIdeal.Launch
import proofs.«102473_j17867063951717_2_alg».proof.Proof.Gen.KernelIdeal.Skeleton
import proofs.«102473_j17867063951717_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

/-! # The output projection (third region of @main): what its three control cases share

The region walks the grid (batch b, row half si, head h) with h innermost. Its body keeps a 1024 x 1024
accumulator in a scratch buffer across the sixteen heads of one output block: at h = 0 it is zeroed,
at every head the product of the head's attention block with the head's weight slice is added, and at
h = 15 the accumulator plus the bias row is stored as the output block, which is written back there and
nowhere else. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attention-output window's current staging buffer holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weight window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias window, fetched at the first point only: its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (h = 0: zero the accumulator), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (h = 15: store the output block), from the grid coordinates. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A (h = 0) the output window is idle: the case stores nothing into it, -/
theorem idleAt2_3_A : ∀ t : Fin cfg2.N, cond2_0 (grid2.coords t) → ¬cond2_1 (grid2.coords t) → cfg2.idle 3 (grid2.coords t) = true := by decide +kernel
/-- and the pipeline does not write its block back. -/
theorem noFlush2_3_A : ∀ t : Fin cfg2.N, cond2_0 (grid2.coords t) → ¬cond2_1 (grid2.coords t) → (cfg2.win 3).flush t = false := by decide +kernel
/-- The same at the points of case B (0 < h < 15). -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the points of case C (h = 15) the output window is live: the case stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated (the choice does not matter). -/
abbrev VO2_3 : View sig .tc .vmem S1x1024x1024 .f32 := (Memref.whole cc2_stg3_0 : Memref sig .tc .vmem S1x1024x1024 .f32).view
/-- Each window's current staging memref at point `t`, spelled as the pipeline passes it, and its wholeness. -/
abbrev ms2_0 (t : Fin cfg2.N) : Memref sig .tc .vmem S1x1x1024x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S1024x1024 .f32 := Memref.whole cc2_scratch0
/-- The accumulator as a view: what it holds between points is stated through it. -/
abbrev VS2_0 : View sig .tc .vmem S1024x1024 .f32 := scM2_0.view

/-! ## The region invariant, with the accumulator singled out -/

/-- The core's scoped buffers that are neither a staging buffer of this region nor its accumulator — the other
    two regions' staging buffers and scratch —, each whole at some contents: the body never touches them. -/
def otherScoped (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

/-- The class's invariant is: the accumulator owned at some contents, the other scoped buffers, and the generator
    register at some state. -/
theorem PhiA2_eq (c : Dev nD) :
    (Pipeline.ΦA spec2 c : sProp 𝕄)
      = iprop(iprop((∃ d, owns (c : Thread nD τ) scM2_0 fullShare d) ∗ otherScoped c) ∗ (∃ r, prngReg c r)) := by
  unfold Pipeline.ΦA Pipeline.scopedRest otherScoped
  rw [bigSep_erase (i := cc2_scratch0) (by decide)]
  simp only [scM2_0, owns_whole]; try rfl

end Cert.KernelIdeal.OutProj

end
-- ==== Proof.IdealOutProjRunA.lean ====
import proofs.«102473_j17867063951717_2_alg».proof.Proof.IdealOutProjRuns

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

set_option maxHeartbeats 1000000 in
/-- CASE A (h = 0: the first `scf.if` taken, the second not). What the body's stores leave in the accumulator, as
    pieces (last first), WITH the proof that on whole memrefs — the three inputs' at their contents, the output's at
    contents `xi3` handed back untouched (the case stores nothing into it), the accumulator at ANYTHING (the case
    stores it whole, with zeros, before it reads it) — the body runs to the continuation holding the inputs' and the
    output's as they were and the accumulator with its pieces written. -/
noncomputable def kernelRun2_A (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__outproj_kernel i arg3 harg3 arg4 harg4 arg5 harg5 arg6 harg6 arg7 harg7) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.OutProj

end
-- ==== Proof.IdealOutProjRunB.lean ====
import proofs.«102473_j17867063951717_2_alg».proof.Proof.IdealOutProjRunA

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

set_option maxHeartbeats 1000000 in
/-- CASE B (0 < h < 15: neither `scf.if` taken). The same with the accumulator at the contents `xs0` the point
    before left: the body adds this head's product to it. -/
noncomputable def kernelRun2_B (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__outproj_kernel i arg3 harg3 arg4 harg4 arg5 harg5 arg6 harg6 arg7 harg7) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.OutProj

end
-- ==== Proof.IdealOutProjRunC.lean ====
import proofs.«102473_j17867063951717_2_alg».proof.Proof.IdealOutProjRunB

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

set_option maxHeartbeats 1000000 in
/-- CASE C (h = 15: the second `scf.if` taken). The accumulator at the contents `xs0` the point before left, the
    output's memref at ANYTHING: the body adds the last head's product and stores the accumulator plus the bias row
    over the whole output block. -/
noncomputable def kernelRun2_C (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) :
    Σ' (L3 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__outproj_kernel i arg3 harg3 arg4 harg4 arg5 harg5 arg6 harg6 arg7 harg7) K } := by
  refine ⟨?_, ?_, fun E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.OutProj

end
-- ==== Proof.IdealOutProjRegion.lean ====
import proofs.«102473_j17867063951717_2_alg».proof.Proof.IdealOutProjRunC

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the output projection's region is entered
variable (V : (c : Dev nD) → (b : Ref sig .tc) → Buf (Elt F) ((c : Thread nD τ).loc b))

/-! # The output projection (third region of @main): its half of the frame, at entry contents `V`

What the output block's staging buffer and the accumulator hold after each grid point, the region's proof data, and the
body obligation: at every point the body, run in the case the point's head coordinate selects, takes the accumulator at
what the point before left (at h = 0: at anything) and leaves it at this point's contents. -/

/-! ## What each case leaves -/

/-- Case A stores nothing into the output block (the window is idle at its points and not written back there):
    no pieces — a placeholder that nothing consults. -/
def out2_A_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) : Vec F S1x1024x1024 .f32 :=
  VO2_3.read (Elt F) (VO2_3.writes (Elt F) VO2_3.junk (kernelRun2_A c i arg3 harg3 arg4 harg4 arg5 harg5 arg6 harg6 arg7 harg7 hc0 hc1 x0 x1 x2).1)

/-- Case A's stores into the accumulator cover it whole (the zeroing store, then the accumulating store). -/
theorem scover2_A_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y

/-- What case A leaves in the accumulator: its pieces read back. -/
def sout2_A_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).2.1)

/-- Case B stores nothing into the output block (the window is idle at its points and not written back there):
    no pieces — a placeholder that nothing consults. -/
def out2_B_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) : Vec F S1x1024x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's stores into the accumulator cover it whole (the accumulating store). -/
theorem scover2_B_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y

/-- What case B leaves in the accumulator: its pieces read back. -/
def sout2_B_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- Case C's one store into the output block covers it whole. -/
theorem cover2_C_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) (y : S1x1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x1024x1024.size (by sl_kernel_rfl) y

/-- What case C leaves in the output's staging buffer: its piece read back. -/
def out2_C_3 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) : Vec F S1x1024x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- Case C's stores into the accumulator cover it whole (the accumulating store). -/
theorem scover2_C_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y

/-- What case C leaves in the accumulator: its pieces read back. -/
def sout2_C_0 (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the buffers hold after each point -/

/-- After a point of case A (h = 0): the output's placeholder and the accumulator's contents, from the point's blocks. -/
def caseA (c : Dev nD) (t : Fin cfg2.N) (h0 : t.val % 16 = 0) (h1 : ¬t.val % 16 = 15) : Vec F S1x1024x1024 .f32 × Vec F S1024x1024 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t))

/-- After a point of case B (0 < h < 15), over the accumulator's contents `xs` before it. -/
def caseB (c : Dev nD) (t : Fin cfg2.N) (h0 : ¬t.val % 16 = 0) (h1 : ¬t.val % 16 = 15) (xs : Vec F S1024x1024 .f32) : Vec F S1x1024x1024 .f32 × Vec F S1024x1024 .f32 :=
  (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs)

/-- After a point of case C (h = 15), over the accumulator's contents `xs` before it. -/
def caseC (c : Dev nD) (t : Fin cfg2.N) (h0 : ¬t.val % 16 = 0) (h1 : t.val % 16 = 15) (xs : Vec F S1024x1024 .f32) : Vec F S1x1024x1024 .f32 × Vec F S1024x1024 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs)

/-- THE ACCUMULATION. What the output's staging buffer and the accumulator hold after the body at position `n`: the
    case the head coordinate selects there, run at the point's memrefs and input blocks, the accumulator read at what
    position `n - 1` left. At h = 0 nothing of the point before is read: the accumulator starts afresh at every
    output block. -/
def outsAt2 (c : Dev nD) : (n : ℕ) → n < cfg2.N → Vec F S1x1024x1024 .f32 × Vec F S1024x1024 .f32
  | 0, hn => caseA V c ⟨0, hn⟩ (Nat.zero_mod _) (fun h => by (try dsimp only at h); omega)
  | n + 1, hn =>
    if h0 : (n + 1) % 16 = 0 then
      if h1 : (n + 1) % 16 = 15 then
        False.elim (by omega)
      else
        caseA V c ⟨n + 1, hn⟩ h0 h1
    else
      if h1 : (n + 1) % 16 = 15 then
        caseC V c ⟨n + 1, hn⟩ h0 h1 (outsAt2 c n (Nat.lt_of_succ_lt hn)).2
      else
        caseB V c ⟨n + 1, hn⟩ h0 h1 (outsAt2 c n (Nat.lt_of_succ_lt hn)).2

/-- `outsAt2` at a point of case A: that case's contents. -/
theorem outsAt2_A (c : Dev nD) (t : Fin cfg2.N) (h0 : t.val % 16 = 0) (h1 : ¬t.val % 16 = 15) :
    outsAt2 V c t.val t.isLt = caseA V c t h0 h1 := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = caseB V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = caseC V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer that is no staging
    buffer at anything, the generator register at some state); afterwards the same with the accumulator at what the
    point before left in it. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ otherScoped c) ∗ (∃ r, prngReg c r))

theorem PhiS_zero (c : Dev nD) (n : ℕ) (h : n ≤ cfg2.N) (hz : n = 0) : PhiS V c n h = Pipeline.ΦA spec2 c := by
  subst hz; rfl

/-- After point `n` (before point `n + 1`): the accumulator at that point's contents. -/
theorem PhiS_succ (c : Dev nD) (n : ℕ) (hn : n < cfg2.N) :
    PhiS V c (n + 1) hn = iprop(iprop(owns (c : Thread nD τ) scM2_0 fullShare ((outsAt2 V c n hn).2) ∗ otherScoped c) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ otherScoped c) ∗ (∃ r, prngReg c r)) := by
  cases n with
  | zero => exact absurd rfl hz
  | succ n => rfl

/-! ## The region's proof data -/

/-- The proof data of the output projection on core `c`: the arrays as the region finds them (`V`); after the body at
    point `t` each input's buffer at its block and the output's at `outsAt2`; the invariant `PhiS`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the head coordinate says which case the point is in;
    the invariant hands the body the accumulator at what the point before left (at the first point, and at any other
    point with h = 0 once its named contents are forgotten: at anything) and takes it back at this point's contents; the
    other scoped buffers and the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 128 := lt_of_lt_of_eq t.isLt (show cfg2.N = 128 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold caseA sout2_A_0; (try dsimp only)
      by_cases hz : t.val = 0
      · rw [PhiS_castSucc V c t, PhiS_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold caseC out2_C_3 sout2_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold caseB sout2_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.KernelIdeal.OutProj

end
-- ==== Proof.IdealRun.lean ====
/-
  The whole program's run. @main is: one host reshape of the bias; the projection region; the attention region; three
  host layout operations on the output weights and bias; the output-projection region. The contents of the core's
  unscoped buffers at each of the six boundaries are a fold from the launch memory: a host stretch applies its
  operations, a region replaces its output array by what its write-backs leave and changes nothing else. Every weakly
  fair execution terminates, nothing faulting, with EVERY unscoped buffer at the last valuation of the fold: the frame
  (no boundary's step writes an argument) and the result (the last region's output array) are both read off it.
-/
import proofs.«102473_j17867063951717_2_alg».proof.Proof.IdealQkvRegion
import proofs.«102473_j17867063951717_2_alg».proof.Proof.IdealAttnShares
import proofs.«102473_j17867063951717_2_alg».proof.Proof.IdealOutProjRegion
import proofs.«102473_j17867063951717_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the bias reshape: the projection region's entry. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- What the projection region leaves in the head-major array. -/
def o1 (c : Dev nD) : Buf (Elt F) ((c : Thread nD τ).loc main_v1) := (Qkv.dat0 (E1 m) c).arrAt 3 cfg0.N
/-- At the projection region's exit, which is the attention region's entry. -/
def W2 (c : Dev nD) : Valuation τ sig (Elt F) := Function.update (W1 m c) main_v1 (o1 m c)
abbrev E2 : (c : Dev nD) → (b : Ref sig .tc) → Buf (Elt F) ((c : Thread nD τ).loc b) := fun c b => W2 m c b
/-- What the attention region leaves in the attention-output array. -/
def o2 (c : Dev nD) : Buf (Elt F) ((c : Thread nD τ).loc main_v2) := (Attn.dat1 (E2 m) c).arrAt 3 cfg1.N
/-- At the attention region's exit. -/
def W3 (c : Dev nD) : Valuation τ sig (Elt F) := Function.update (W2 m c) main_v2 (o2 m c)
abbrev E3 : (c : Dev nD) → (b : Ref sig .tc) → Buf (Elt F) ((c : Thread nD τ).loc b) := fun c b => W3 m c b
/-- After the output weights' and bias's layout operations: the output-projection region's entry. -/
abbrev W4 (c : Dev nD) : Valuation τ sig (Elt F) := StableHlo.after hostOps2 (W3 m c)
abbrev E4 : (c : Dev nD) → (b : Ref sig .tc) → Buf (Elt F) ((c : Thread nD τ).loc b) := fun c b => W4 m c b
/-- What the output-projection region leaves in the result array. -/
def o3 (c : Dev nD) : Buf (Elt F) ((c : Thread nD τ).loc main_v6) := (OutProj.dat2 (E4 m) c).arrAt 3 cfg2.N
/-- At the return. -/
def W5 (c : Dev nD) : Valuation τ sig (Elt F) := Function.update (W4 m c) main_v6 (o3 m c)
abbrev E5 : (c : Dev nD) → (b : Ref sig .tc) → Buf (Elt F) ((c : Thread nD τ).loc b) := fun c b => W5 m c b

/-! ## What each step leaves unchanged -/

theorem W1_of (c : Dev nD) (r : Ref sig .tc) (h : r ∉ hostOps0_W) : W1 m c r = W0 m c r :=
  StableHlo.after_of_writes_sub hostOps0 _ hostOps0_writes h
theorem W2_self (c : Dev nD) : W2 m c (Proc.devRef .tc main_v1) = o1 m c := by unfold W2; exact Function.update_self ..
theorem W2_of (c : Dev nD) (r : Ref sig .tc) (h : r ∉ ([main_v1] : List (Ref sig .tc))) : W2 m c r = W1 m c r := by
  unfold W2; exact Function.update_of_ne (StableHlo.devRef_ne_of_ne (List.ne_of_not_mem_cons h) : (Proc.devRef .tc r : DevRef τ sig) ≠ Proc.devRef .tc main_v1) ..
theorem W3_self (c : Dev nD) : W3 m c (Proc.devRef .tc main_v2) = o2 m c := by unfold W3; exact Function.update_self ..
theorem W3_of (c : Dev nD) (r : Ref sig .tc) (h : r ∉ ([main_v2] : List (Ref sig .tc))) : W3 m c r = W2 m c r := by
  unfold W3; exact Function.update_of_ne (StableHlo.devRef_ne_of_ne (List.ne_of_not_mem_cons h) : (Proc.devRef .tc r : DevRef τ sig) ≠ Proc.devRef .tc main_v2) ..
theorem W4_of (c : Dev nD) (r : Ref sig .tc) (h : r ∉ hostOps2_W) : W4 m c r = W3 m c r :=
  StableHlo.after_of_writes_sub hostOps2 _ hostOps2_writes h
theorem W5_self (c : Dev nD) : W5 m c (Proc.devRef .tc main_v6) = o3 m c := by unfold W5; exact Function.update_self ..
theorem W5_of (c : Dev nD) (r : Ref sig .tc) (h : r ∉ ([main_v6] : List (Ref sig .tc))) : W5 m c r = W4 m c r := by
  unfold W5; exact Function.update_of_ne (StableHlo.devRef_ne_of_ne (List.ne_of_not_mem_cons h) : (Proc.devRef .tc r : DevRef τ sig) ≠ Proc.devRef .tc main_v6) ..

/-- No step writes an argument: each reaches the return as launched. -/
theorem W5_main_arg0 (c : Dev nD) : W5 m c (Proc.devRef .tc main_arg0) = m ((c : Thread nD τ).loc main_arg0) :=
  (W5_of m c main_arg0 (by decide)).trans <| (W4_of m c main_arg0 (by decide)).trans <| (W3_of m c main_arg0 (by decide)).trans <| (W2_of m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of m c main_arg1 (by decide)).trans <| (W3_of m c main_arg1 (by decide)).trans <| (W2_of m c main_arg1 (by decide)).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of m c main_arg2 (by decide)).trans <| (W3_of m c main_arg2 (by decide)).trans <| (W2_of m c main_arg2 (by decide)).trans <| (W1_of m c main_arg2 (by decide)).trans rfl
theorem W5_main_arg3 (c : Dev nD) : W5 m c (Proc.devRef .tc main_arg3) = m ((c : Thread nD τ).loc main_arg3) :=
  (W5_of m c main_arg3 (by decide)).trans <| (W4_of m c main_arg3 (by decide)).trans <| (W3_of m c main_arg3 (by decide)).trans <| (W2_of m c main_arg3 (by decide)).trans <| (W1_of m c main_arg3 (by decide)).trans rfl
theorem W5_main_arg4 (c : Dev nD) : W5 m c (Proc.devRef .tc main_arg4) = m ((c : Thread nD τ).loc main_arg4) :=
  (W5_of m c main_arg4 (by decide)).trans <| (W4_of m c main_arg4 (by decide)).trans <| (W3_of m c main_arg4 (by decide)).trans <| (W2_of m c main_arg4 (by decide)).trans <| (W1_of m c main_arg4 (by decide)).trans rfl

/-! ## Each region's arrays at its exit -/

theorem hF0 (c : Dev nD) (w : Fin cfg0.W) : (Qkv.dat0 (E1 m) c).arrAt w cfg0.N = E2 m c (Pipeline.arrRef spec0 w) :=
  match w with
  | ⟨0, _⟩ => (((Qkv.dat0 (E1 m) c).arrAt_in 0 rfl _).trans (Qkv.A_eq0 (E1 m) c 0)).trans (W2_of m c main_arg0 (by decide)).symm
  | ⟨1, _⟩ => (((Qkv.dat0 (E1 m) c).arrAt_in 1 rfl _).trans (Qkv.A_eq0 (E1 m) c 1)).trans (W2_of m c main_arg1 (by decide)).symm
  | ⟨2, _⟩ => (((Qkv.dat0 (E1 m) c).arrAt_in 2 rfl _).trans (Qkv.A_eq0 (E1 m) c 2)).trans (W2_of m c main_v0 (by decide)).symm
  | ⟨3, _⟩ => (W2_self m c).symm
  | ⟨_ + 4, h⟩ => absurd h (Nat.not_lt.2 (Nat.le_add_left _ _))
theorem hrest0 (c : Dev nD) : ∀ b, b ∉ Finset.univ.image (Pipeline.arrRef spec0) → E2 m c b = E1 m c b :=
  fun b hb => W2_of m c b (fun h => hb (Finset.mem_image.mpr ⟨3, Finset.mem_univ _, (List.mem_singleton.mp h).symm⟩))

theorem hF1 (c : Dev nD) (w : Fin cfg1.W) : (Attn.dat1 (E2 m) c).arrAt w cfg1.N = E3 m c (Pipeline.arrRef spec1 w) :=
  match w with
  | ⟨0, _⟩ => (((Attn.dat1 (E2 m) c).arrAt_in 0 rfl _).trans (Attn.A_eq1 (E2 m) c 0)).trans (W3_of m c main_v1 (by decide)).symm
  | ⟨1, _⟩ => (((Attn.dat1 (E2 m) c).arrAt_in 1 rfl _).trans (Attn.A_eq1 (E2 m) c 1)).trans (W3_of m c main_v1 (by decide)).symm
  | ⟨2, _⟩ => (((Attn.dat1 (E2 m) c).arrAt_in 2 rfl _).trans (Attn.A_eq1 (E2 m) c 2)).trans (W3_of m c main_v1 (by decide)).symm
  | ⟨3, _⟩ => (W3_self m c).symm
  | ⟨_ + 4, h⟩ => absurd h (Nat.not_lt.2 (Nat.le_add_left _ _))
theorem hrest1 (c : Dev nD) : ∀ b, b ∉ Finset.univ.image (Pipeline.arrRef spec1) → E3 m c b = E2 m c b :=
  fun b hb => W3_of m c b (fun h => hb (Finset.mem_image.mpr ⟨3, Finset.mem_univ _, (List.mem_singleton.mp h).symm⟩))

theorem hF2 (c : Dev nD) (w : Fin cfg2.W) : (OutProj.dat2 (E4 m) c).arrAt w cfg2.N = E5 m c (Pipeline.arrRef spec2 w) :=
  match w with
  | ⟨0, _⟩ => (((OutProj.dat2 (E4 m) c).arrAt_in 0 rfl _).trans (OutProj.A_eq2 (E4 m) c 0)).trans (W5_of m c main_v2 (by decide)).symm
  | ⟨1, _⟩ => (((OutProj.dat2 (E4 m) c).arrAt_in 1 rfl _).trans (OutProj.A_eq2 (E4 m) c 1)).trans (W5_of m c main_v4 (by decide)).symm
  | ⟨2, _⟩ => (((OutProj.dat2 (E4 m) c).arrAt_in 2 rfl _).trans (OutProj.A_eq2 (E4 m) c 2)).trans (W5_of m c main_v5 (by decide)).symm
  | ⟨3, _⟩ => (W5_self m c).symm
  | ⟨_ + 4, h⟩ => absurd h (Nat.not_lt.2 (Nat.le_add_left _ _))
theorem hrest2 (c : Dev nD) : ∀ b, b ∉ Finset.univ.image (Pipeline.arrRef spec2) → E5 m c b = E4 m c b :=
  fun b hb => W5_of m c b (fun h => hb (Finset.mem_image.mpr ⟨3, Finset.mem_univ _, (List.mem_singleton.mp h).symm⟩))

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Qkv.dat0 (E1 m) c
  | ⟨1, _⟩ => fun c => Attn.dat1 (E2 m) c
  | ⟨2, _⟩ => fun c => OutProj.dat2 (E4 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hub := Pipeline.unscopedBufs_split₀ (Ix := Unit) (Name := ℕ) (U := UR sig nD τ) (Lvl := ℕ) (Val := Elt F) cfgs (1 : Fin 3) winFacts₀1.arr_unscoped c (E2 m c)
    rw [Pipeline.unscopedBufs_held] at hub
    have hsp := Entails.of_eq hub
    have harr := Attn.arrays_of_arrBufs1 (E2 m) c
    iintro ⟨⟨Hub, Hp, HO⟩, -, -⟩
    ihave Hsp := hsp $$ Hub
    icases Hsp with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs (1 : Fin 3) winFacts₀1.arr_unscoped c (E3 m c)
    rw [Pipeline.unscopedBufs_held] at hub
    have hrest : (Pipeline.unscopedRest (Ix := Unit) (Name := ℕ) (U := UR sig nD τ) (Lvl := ℕ) spec1 c (E2 m c) : sProp 𝕄)
        = Pipeline.unscopedRest spec1 c (E3 m c) := by
      unfold Pipeline.unscopedRest
      exact bigSep_congr fun b hb => by rw [hrest1 m c b (Finset.mem_sdiff.mp hb).2]
    iintro ⟨Ha, HO, HY, Hrest⟩
    imodintro
    isplitl [Ha Hrest]
    · rw [hub]
      isplitl [Ha]
      · iapply (Attn.arrBufs_of_arrays1 (E2 m) c ((pdats m 1 c).arrAt · cfg1.N) (E3 m c) (hF1 m c 0) (hF1 m c 1) (hF1 m c 2) (hF1 m c 3))
        iexact Ha
      iapply (Entails.of_eq hrest); iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (OutProj.hin2 (E4 m) c)
    unfold Pipeline.ΦA
    iintro ⟨Hp, -, Hr⟩
    isplitl [Hr]; · iexact Hr
    iexact Hp
  hout c := by
    rw [Pipeline.ownSems0_none]
    refine (OutProj.hout2 (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds each unscoped buffer at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any `F`: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- THE RESULT: the result array ends at what the output-projection region's write-backs leave, the arguments as launched. -/
theorem run_result : θ_run defs (onTc (τ := τ) (main (F := F))) ⟨m, fun _ => 0, ρ⟩ (fun r => ∀ c : Dev nD,
      r.2.mem ((c.tc : Thread nD τ).loc main_v6) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans (W5_self m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Run

end
-- ==== Proof.RefFrame.lean ====
/-
  The reference program's frame: it is a straight line of host operations, so every weakly fair execution ends, and
  its run (each result at the operations' composed term of the arguments, the arguments unchanged) gives the frame
  by forgetting the result.
-/
import proofs.«102473_j17867063951717_2_alg».proof.Defs
import proofs.«102473_j17867063951717_2_alg».proof.Proof.Gen.ReferenceIdeal
import proofs.«102473_j17867063951717_2_alg».proof.Proof.Gen.ReferenceIdeal.Run
import proofs.«102473_j17867063951717_2_alg».proof.Proof.Gen.ReferenceIdeal.Read
import proofs.«102473_j17867063951717_2_alg».proof.Proof.Gen.Pre_finite_inputs

noncomputable section

open Idealize.ShloMosaic Idealize.ShloMosaic.TcCoe Idealize.SL.Sem

namespace Cert.Proof.RefFrame

/-- The reference terminates without a fault and leaves its five argument arrays as launched. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefFrame

end
-- ==== Proof.Claims.lean ====
/-
  The two kernel programs' frames and the sanctioned idealization. Each kernel program's frame is read off its run
  (every unscoped buffer at the last valuation of the fold through @main; no step of the fold writes an argument).
  The idealized program differs from the printed one in ONE constant, eight times: the finite fill the kernel writes
  where the causal mask is false, which the certificate's table names `neg_big` and reads as -∞ (the reference fills
  with -∞ there); each of the eight sites is that one rule's statement.
-/
import proofs.«102473_j17867063951717_2_alg».proof.Defs
import proofs.«102473_j17867063951717_2_alg».proof.Proof.BitsRun
import proofs.«102473_j17867063951717_2_alg».proof.Proof.IdealRun
import proofs.«102473_j17867063951717_2_alg».proof.Proof.RefFrame

noncomputable section

open Idealize.ShloMosaic Idealize.ShloMosaic.TcCoe Idealize.SL.Sem

namespace Cert.Proof.Claims

/-- The printed kernel, at the word level: terminates, faults nowhere, leaves its arguments as launched. -/
theorem frame_p : Cert.frame_Kernel := fun m ρ _ => Cert.Kernel.Run.frame (F := Bits) m ρ

/-- The idealized kernel, over the extended reals: the same. -/
theorem frame_pi : Cert.frame_KernelIdeal := fun m ρ _ => Cert.KernelIdeal.Run.frame (F := Ideal) m ρ

/-- The mask fill, named: the table gives `neg_big` the value -∞, and the printed constant is that value at the ideal instance. -/
theorem neg_big : IdealRules.named_const.Statement Cert.KernelIdeal.κ "neg_big" .f32 0xFF333332#32 ⊥ :=
  IdealRules.named_const.statement Cert.KernelIdeal.κ "neg_big" .f32 0xFF333332#32 ⊥ rfl

/-- The ledger's eight entries are that one statement. -/
theorem preserves : Cert.preserves_Kernel_KernelIdeal :=
  ⟨neg_big, neg_big, neg_big, neg_big, neg_big, neg_big, neg_big, neg_big⟩

end Cert.Proof.Claims

end
-- ==== Proof.IdealHostValues.lean ====
/-
  What the host operations around the regions leave, read at an index (at the ideal instance). The bias is reshaped
  [3072] → [48,1,64]: entry (g,0,d) is the bias's entry 64·g + d. The output weights are reshaped [1024,1024] →
  [1024,16,64] and transposed to [16,1024,64]: entry (h,n,d) is the weight (n, 64·h + d). The output bias is reshaped
  [1024] → [1,1024]. And what passes between the regions untouched: the attention region reads the projection
  region's output array, the output projection reads the attention region's.
-/
import proofs.«102473_j17867063951717_2_alg».proof.Proof.IdealRun
import Idealize.ShloMosaic.Lib.StableHlo.Run
import Idealize.ShloMosaic.Lib.Pipeline.Value
import Idealize.ShloMosaic.Lib.ValueIdx

noncomputable section

namespace Cert.KernelIdeal.Run

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The host stretches' results -/

theorem E1_main_v0 (c : Dev nD) :
    (E1 m c main_v0 : S48x1x64.Idx → EReal) = shapeCast S48x1x64 (m ((c : Thread nD τ).loc main_arg2)) shapeCasts_S3072_S48x1x64 := by
  show StableHlo.after hostOps0 (W0 m c) (Proc.devRef .tc main_v0) = _
  after_results; rfl

theorem E4_main_v4 (c : Dev nD) :
    (E4 m c main_v4 : S16x1024x64.Idx → EReal)
      = transpose S16x1024x64 [1, 0, 2] (shapeCast S1024x16x64 (m ((c : Thread nD τ).loc main_arg3)) shapeCasts_S1024x1024_S1024x16x64) transposes_S1024x16x64_S16x1024x64_1_0_2 := by
  show StableHlo.after hostOps2 (W3 m c) (Proc.devRef .tc main_v4) = _
  after_results
  rw [show W3 m c (Proc.devRef .tc main_arg3) = m ((c : Thread nD τ).loc main_arg3) from
    (W3_of m c main_arg3 (by decide)).trans <| (W2_of m c main_arg3 (by decide)).trans <| (W1_of m c main_arg3 (by decide)).trans rfl]
  rfl

theorem E4_main_v5 (c : Dev nD) :
    (E4 m c main_v5 : S1x1024.Idx → EReal) = shapeCast S1x1024 (m ((c : Thread nD τ).loc main_arg4)) shapeCasts_S1024_S1x1024 := by
  show StableHlo.after hostOps2 (W3 m c) (Proc.devRef .tc main_v5) = _
  after_results
  rw [show W3 m c (Proc.devRef .tc main_arg4) = m ((c : Thread nD τ).loc main_arg4) from
    (W3_of m c main_arg4 (by decide)).trans <| (W2_of m c main_arg4 (by decide)).trans <| (W1_of m c main_arg4 (by decide)).trans rfl]
  rfl

/-! ## Read at an index -/

/-- The reshaped bias at (g, 0, d) is the bias at 64·g + d. -/
theorem bias_at (c : Dev nD) (g : Fin 48) (d : Fin 64) :
    (E1 m c main_v0 : S48x1x64.Idx → EReal) (ix3 g (0 : Fin 1) d)
      = (m ((c : Thread nD τ).loc main_arg2) : S3072.Idx → EReal) (ix1 (⟨g.val * 64 + d.val, by omega⟩ : Fin 3072)) := by
  rw [E1_main_v0]
  refine shapeCast_apply _ _ _ _ ?_
  show (S3072.rowMajor (ix1 (⟨g.val * 64 + d.val, by omega⟩ : Fin 3072))).val = (S48x1x64.rowMajor (ix3 g (0 : Fin 1) d)).val
  rw [Shape.rowMajor_val_one, Shape.rowMajor_val_three]
  show g.val * 64 + d.val = (g.val * 1 + 0) * 64 + d.val
  omega

/-- The re-laid output weights at (h, n, d) are the weight (n, 64·h + d). -/
theorem wout_at (c : Dev nD) (h : Fin 16) (n : Fin 1024) (d : Fin 64) :
    (E4 m c main_v4 : S16x1024x64.Idx → EReal) (ix3 h n d)
      = (m ((c : Thread nD τ).loc main_arg3) : S1024x1024.Idx → EReal) (ix2 n (⟨h.val * 64 + d.val, by omega⟩ : Fin 1024)) := by
  rw [E4_main_v4]
  refine (transpose_apply _ _ _ (ix3 h n d) (ix3 n h d) (fun b => by match b with | ⟨0, _⟩ => rfl | ⟨1, _⟩ => rfl | ⟨2, _⟩ => rfl)).trans ?_
  refine shapeCast_apply _ _ _ _ ?_
  show (S1024x1024.rowMajor (ix2 n (⟨h.val * 64 + d.val, by omega⟩ : Fin 1024))).val = (S1024x16x64.rowMajor (ix3 n h d)).val
  rw [Shape.rowMajor_val_two, Shape.rowMajor_val_three]
  show n.val * 1024 + (h.val * 64 + d.val) = (n.val * 16 + h.val) * 64 + d.val
  omega

/-- The reshaped output bias at (0, n) is the bias at n. -/
theorem bout_at (c : Dev nD) (n : Fin 1024) :
    (E4 m c main_v5 : S1x1024.Idx → EReal) (ix2 (0 : Fin 1) n) = (m ((c : Thread nD τ).loc main_arg4) : S1024.Idx → EReal) (ix1 n) := by
  rw [E4_main_v5]
  refine shapeCast_apply _ _ _ _ ?_
  show (S1024.rowMajor (ix1 n)).val = (S1x1024.rowMajor (ix2 (0 : Fin 1) n)).val
  rw [Shape.rowMajor_val_one, Shape.rowMajor_val_two]
  show n.val = 0 * 1024 + n.val
  omega

/-! ## What the regions find -/

/-- The projection region finds the arguments as launched. -/
theorem E1_main_arg0 (c : Dev nD) : E1 m c main_arg0 = m ((c : Thread nD τ).loc main_arg0) := (W1_of m c main_arg0 (by decide)).trans rfl
theorem E1_main_arg1 (c : Dev nD) : E1 m c main_arg1 = m ((c : Thread nD τ).loc main_arg1) := (W1_of m c main_arg1 (by decide)).trans rfl
/-- The attention region finds the projection region's output array. -/
theorem E2_main_v1 (c : Dev nD) : E2 m c main_v1 = o1 m c := W2_self m c
/-- The output projection finds the attention region's output array (no host operation in between writes it). -/
theorem E4_main_v2 (c : Dev nD) : E4 m c main_v2 = o2 m c := (W4_of m c main_v2 (by decide)).trans (W3_self m c)

end Cert.KernelIdeal.Run

end
-- ==== Proof.LibRowsDot.lean ====
/-
  A matrix times the transpose of another, read at an index, over the extended reals.

  For dimension numbers that contract the left operand's axis 1 with the right operand's axis 1 and keep
  (left axis 0, right axis 0) as the result's axes — rows of the left against rows of the right, the form of
  queries against keys — the contraction at result index `(a, b)` is `Σ_{k < K} l(a, k) · r(b, k)`: the same plain sum for
  a `tpu.matmul` into a zero accumulator and for the host's `dot_general`, whatever the extents. The dimension record
  enters through four coordinate facts about how it reads its operands (for a printed record each holds by
  computation), so the lemmas serve every extent.
-/
import Idealize.ShloMosaic.Lib.ValueIdx
import Idealize.ShloMosaic.PureOps.Ideal.Laws

noncomputable section

namespace Cert.Lib.RowsDot

open Idealize.ShloMosaic Idealize.ShloMosaic.ValueIdx

variable {R K C : Nat} {φ₁ φ₂ : FTy}

/-- How a rows×inner by cols×inner dimension record reads its operands: one contracted axis of extent `K`; at result
    index `i` and contraction position `q` the left operand is read at `(i 0, q)` and the right at `(i 1, q)`. -/
structure Reads (d : DotDims (⟨2, ![R, K]⟩ : Shape) (⟨2, ![C, K]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (i 1).val
  rhs1 : ∀ (i : (⟨2, ![R, C]⟩ : Shape).Idx) (q : d.contr.Idx), (d.rhsIdx i q 1).val = (q ⟨0, by omega⟩).val

variable {d : DotDims (⟨2, ![R, K]⟩ : Shape) (⟨2, ![C, K]⟩ : Shape) (⟨2, ![R, C]⟩ : Shape)}

/-- The sum over the record's contraction index is the sum over the shared inner axis' coordinate. -/
theorem sum_contr (h : Reads d) (l : FVec Ideal (⟨2, ![R, K]⟩ : Shape) φ₁) (r : FVec Ideal (⟨2, ![C, K]⟩ : Shape) φ₂)
    (a : Fin R) (b : Fin C) :
    ∑ q : d.contr.Idx, l (d.lhsIdx (ix2 a b) q) * r (d.rhsIdx (ix2 a b) q) = ∑ k : Fin K, l (ix2 a k) * r (ix2 b k) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 b k := funext fun x => Fin.ext (by
    match x with
    | ⟨0, _⟩ => exact h.rhs0 _ _
    | ⟨1, _⟩ => exact (h.rhs1 _ _).trans hk)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![C, K]⟩ : Shape) φ₂) (a : Fin R) (b : Fin C) :
    FloatOps.matmul d prec l r (constant (⟨2, ![R, C]⟩ : Shape) .f32 0x00000000#32) (ix2 a b)
      = ∑ k : Fin K, l (ix2 a k) * r (ix2 b k) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![C, K]⟩ : Shape) φ₂) (a : Fin R) (b : Fin C) :
    FloatOps.dotGeneral d prec sched l r (ix2 a b) = ∑ k : Fin K, l (ix2 a k) * r (ix2 b k) :=
  (Ideal.dotGeneral_apply d prec sched l r (ix2 a b)).trans (sum_contr h l r a b)

end Cert.Lib.RowsDot

end
-- ==== Proof.IdealQkvValue.lean ====
/- What region 0 (the fused query/key/value projection) leaves in its output array, as ONE function of the region-entry
   arrays, on the extended reals: at index (g, b, s, d) of the head-major array [48, 4, 2048, 64],
   (Σ_{k < 1024} x(b, s, k) · W(64 g + d, k)) + bias(g, 0, d).
   The body's payload at an index (a changed float format is the identity, the matmul into the zero accumulator is
   the plain sum, the bias row is broadcast over the 2048 rows); then from blocks to the array: point t = 48 b + g
   writes block (g, b) of that function, and those blocks cover the array. -/
import proofs.«102473_j17867063951717_2_alg».proof.Proof.IdealQkvRegion
import proofs.«102473_j17867063951717_2_alg».proof.Proof.LibRowsDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.QkvValue

open Cert.KernelIdeal Cert.KernelIdeal.Gen Cert.KernelIdeal.Qkv
open Idealize.ShloMosaic Idealize.ShloMosaic.TcCoe Idealize.ShloMosaic.ValueIdx Idealize.SL.Sem
open Idealize.ShloMosaic.Pipeline (Dat)

/-! ## The specification of the region's result -/

/-- Row of the fused weight for head slot `g`, channel `d`: `64 g + d`. -/
def wrow (g : Fin 48) (d : Fin 64) : Fin 3072 := ⟨g.val * 64 + d.val, by omega⟩

/-- The projection at head slot `g`, batch `b`, position `s`, channel `d`. -/
def qkvAt (x : S4x2048x1024.Idx → EReal) (W : S3072x1024.Idx → EReal) (bq : S48x1x64.Idx → EReal)
    (g : Fin 48) (b : Fin 4) (s : Fin 2048) (d : Fin 64) : EReal :=
  (∑ k : Fin 1024, x (ix3 b s k) * W (ix2 (wrow g d) k)) + bq (ix3 g (0 : Fin 1) d)

/-- The head-major array of projections, index by index. -/
def qkvHeads (x : S4x2048x1024.Idx → EReal) (W : S3072x1024.Idx → EReal) (bq : S48x1x64.Idx → EReal) :
    S48x4x2048x64.Idx → EReal :=
  fun i => qkvAt x W bq (i 0) (i 1) (i 2) (i 3)

theorem qkvHeads_ix4 (x : S4x2048x1024.Idx → EReal) (W : S3072x1024.Idx → EReal) (bq : S48x1x64.Idx → EReal)
    (g : Fin 48) (b : Fin 4) (s : Fin 2048) (d : Fin 64) :
    qkvHeads x W bq (ix4 g b s d) = qkvAt x W bq g b s d := rfl

/-! ## The body's payload at an index -/

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- The matmul's dimension numbers contract the activations' axis 1 with the weight rows' axis 1. -/
theorem reads_qkv : Cert.Lib.RowsDot.Reads (R := 2048) (K := 1024) (C := 64) dot_S2048x1024_S64x1024_S2048x64_1_1_0_0_n_n where
  rank := rfl
  size := rfl
  lhs0 := fun i q => by
    unfold DotDims.lhsIdx
    rw [dif_neg (show ¬(0 : Fin S2048x1024.rank) ∈ dot_S2048x1024_S64x1024_S2048x64_1_1_0_0_n_n.lhsBatch by decide),
      dif_pos (show (0 : Fin S2048x1024.rank) ∈ dot_S2048x1024_S64x1024_S2048x64_1_1_0_0_n_n.lhsNonContracting by decide)]
    rfl
  lhs1 := fun i q => dot_S2048x1024_S64x1024_S2048x64_1_1_0_0_n_n.lhsIdx_val_of_single rfl i q
  rhs0 := fun i q => by
    unfold DotDims.rhsIdx
    rw [dif_neg (show ¬(0 : Fin S64x1024.rank) ∈ dot_S2048x1024_S64x1024_S2048x64_1_1_0_0_n_n.rhsBatch by decide),
      dif_pos (show (0 : Fin S64x1024.rank) ∈ dot_S2048x1024_S64x1024_S2048x64_1_1_0_0_n_n.rhsNonContracting by decide)]
    rfl
  rhs1 := fun i q => dot_S2048x1024_S64x1024_S2048x64_1_1_0_0_n_n.rhsIdx_val_of_single rfl i q

/-- The payload at row `s`, channel `d` of the block: the row of the activations against the weight row `d`, plus
    the bias at `d`. -/
theorem pay_apply (x0 : Vec Ideal S1x2048x1024 .f32) (x1 : Vec Ideal S64x1024 .f32) (x2 : Vec Ideal S1x1x64 .f32)
    (s : Fin 2048) (d : Fin 64) :
    k0_pay1 x0 x1 x2 (ix4 (0 : Fin 1) (0 : Fin 1) s d)
      = (∑ k : Fin 1024, x0 (ix3 (0 : Fin 1) s k) * x1 (ix2 d k)) + x2 (ix3 (0 : Fin 1) (0 : Fin 1) d) := by
  unfold k0_pay1
  rw [shapeCast_ab_11ab_apply, truncf_apply, addf_apply]
  refine congrArg₂ (· + ·) ?_ ?_
  · refine (Cert.Lib.RowsDot.matmul_zero_apply reads_qkv none _ _ s d).trans ?_
    refine Finset.sum_congr rfl fun k _ => ?_
    show shapeCast S2048x1024 x0 shapeCasts_S1x2048x1024_S2048x1024 (ix2 s k) * x1 (ix2 d k) = _
    rw [shapeCast_1ab_ab_apply]
  · rw [broadcastTo_1b_ab_apply, shapeCast_1ab_ab_apply]

/-! ## From blocks to the array -/

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: point `t` is batch `t / 48`, head slot `t % 48`. -/
theorem idx_facts : ∀ t : Fin cfg0.N,
    win0_3.index t (0 : Fin 4) = t.val % 48 ∧ win0_3.index t (1 : Fin 4) = t.val / 48
    ∧ win0_3.index t (2 : Fin 4) = 0 ∧ win0_3.index t (3 : Fin 4) = 0
    ∧ win0_0.index t (0 : Fin 3) = t.val / 48 ∧ win0_0.index t (1 : Fin 3) = 0 ∧ win0_0.index t (2 : Fin 3) = 0
    ∧ win0_1.index t (0 : Fin 2) = t.val % 48 ∧ win0_1.index t (1 : Fin 2) = 0
    ∧ win0_2.index t (0 : Fin 3) = t.val % 48 ∧ win0_2.index t (1 : Fin 3) = 0 ∧ win0_2.index t (2 : Fin 3) = 0 :=
  (by decide +kernel : ∀ t : Fin grid0.N, _)

/-- The payload of blocks that are the batch-`b` rows of the activations, the head-slot-`g` rows of the weight and
    of the bias is the projection at `(g, b)`. -/
theorem block_apply (x : S4x2048x1024.Idx → EReal) (W : S3072x1024.Idx → EReal) (bq : S48x1x64.Idx → EReal)
    (x0 : Vec Ideal S1x2048x1024 .f32) (x1 : Vec Ideal S64x1024 .f32) (x2 : Vec Ideal S1x1x64 .f32)
    (g : Fin 48) (b : Fin 4)
    (h0 : ∀ (s : Fin 2048) (k : Fin 1024), x0 (ix3 (0 : Fin 1) s k) = x (ix3 b s k))
    (h1 : ∀ (d : Fin 64) (k : Fin 1024), x1 (ix2 d k) = W (ix2 (wrow g d) k))
    (h2 : ∀ d : Fin 64, x2 (ix3 (0 : Fin 1) (0 : Fin 1) d) = bq (ix3 g (0 : Fin 1) d))
    (s : Fin 2048) (d : Fin 64) :
    k0_pay1 x0 x1 x2 (ix4 (0 : Fin 1) (0 : Fin 1) s d) = qkvAt x W bq g b s d := by
  rw [pay_apply, h2]
  unfold qkvAt
  refine congrArg₂ (· + ·) ?_ rfl
  exact Finset.sum_congr rfl fun k _ => by rw [h0, h1]

/-- WHAT POINT `t` WRITES BACK is block `t` of the projection of the arrays as the region finds them. -/
theorem flushed_eq (c : Dev nD) (t : Fin cfg0.N) :
    (dat0 V c).flushed 3 t = ((cfg0.win 3).blk t).view.read (Elt Ideal) (qkvHeads (V c main_arg0) (V c main_arg1) (V c main_v0)) := by
  show (cfg0.win 3).cut (grid0.coords t) ((dat0 V c).after 3 t) = _
  rw [after0_3]
  unfold out0_3
  rw [View.canon_unit_zero hz4]
  simp only [View.ld_unit_zero (S := S1x2048x1024) hz3, View.ld_unit_zero (S := S64x1024) hz2, View.ld_unit_zero (S := S1x1x64) hz3]
  obtain ⟨e30, e31, e32, e33, e00, e01, e02, e10, e11, e20, e21, e22⟩ := idx_facts t
  have htl : t.val < 192 := lt_of_lt_of_eq t.isLt N_0
  funext j
  obtain ⟨u, v, s, d, rfl⟩ : ∃ (u v : Fin 1) (s : Fin 2048) (d : Fin 64), j = ix4 u v s d := ⟨j 0, j 1, j 2, j 3, eq_ix4 j⟩
  obtain rfl : u = 0 := Subsingleton.elim _ _
  obtain rfl : v = 0 := Subsingleton.elim _ _
  show k0_pay1 (iblk0 V c 0 t) (iblk0 V c 1 t) (iblk0 V c 2 t) (ix4 (0 : Fin 1) (0 : Fin 1) s d)
    = qkvHeads (V c main_arg0) (V c main_arg1) (V c main_v0) (((cfg0.win 3).blk t).view.emb (ix4 (0 : Fin 1) (0 : Fin 1) s d))
  have eo : ((cfg0.win 3).blk t).view.emb (ix4 (0 : Fin 1) (0 : Fin 1) s d)
      = ix4 (⟨t.val % 48, by omega⟩ : Fin 48) (⟨t.val / 48, by omega⟩ : Fin 4) s d := by
    funext a; apply Fin.ext
    match a with
    | ⟨0, _⟩ => show win0_3.index t (0 : Fin 4) * 1 + 1 * 0 = t.val % 48; omega
    | ⟨1, _⟩ => show win0_3.index t (1 : Fin 4) * 1 + 1 * 0 = t.val / 48; omega
    | ⟨2, _⟩ => show win0_3.index t (2 : Fin 4) * 2048 + 1 * s.val = s.val; omega
    | ⟨3, _⟩ => show win0_3.index t (3 : Fin 4) * 64 + 1 * d.val = d.val; omega
  rw [eo, qkvHeads_ix4]
  refine block_apply _ _ _ _ _ _ _ _ (fun s k => ?_) (fun d k => ?_) (fun d => ?_) s d
  · show V c main_arg0 (((cfg0.win 0).blk t).view.emb (ix3 (0 : Fin 1) s k)) = V c main_arg0 (ix3 (⟨t.val / 48, by omega⟩ : Fin 4) s k)
    refine congrArg _ (funext fun a => Fin.ext ?_)
    match a with
    | ⟨0, _⟩ => show win0_0.index t (0 : Fin 3) * 1 + 1 * 0 = t.val / 48; omega
    | ⟨1, _⟩ => show win0_0.index t (1 : Fin 3) * 2048 + 1 * s.val = s.val; omega
    | ⟨2, _⟩ => show win0_0.index t (2 : Fin 3) * 1024 + 1 * k.val = k.val; omega
  · show V c main_arg1 (((cfg0.win 1).blk t).view.emb (ix2 d k)) = V c main_arg1 (ix2 (wrow (⟨t.val % 48, by omega⟩ : Fin 48) d) k)
    refine congrArg _ (funext fun a => Fin.ext ?_)
    match a with
    | ⟨0, _⟩ => show win0_1.index t (0 : Fin 2) * 64 + 1 * d.val = t.val % 48 * 64 + d.val; omega
    | ⟨1, _⟩ => show win0_1.index t (1 : Fin 2) * 1024 + 1 * k.val = k.val; omega
  · show V c main_v0 (((cfg0.win 2).blk t).view.emb (ix3 (0 : Fin 1) (0 : Fin 1) d)) = V c main_v0 (ix3 (⟨t.val % 48, by omega⟩ : Fin 48) (0 : Fin 1) d)
    refine congrArg _ (funext fun a => Fin.ext ?_)
    match a with
    | ⟨0, _⟩ => show win0_2.index t (0 : Fin 3) * 1 + 1 * 0 = t.val % 48; omega
    | ⟨1, _⟩ => show win0_2.index t (1 : Fin 3) * 1 + 1 * 0 = 0; omega
    | ⟨2, _⟩ => show win0_2.index t (2 : Fin 3) * 64 + 1 * d.val = d.val; omega

/-- An index of the array is in point `t`'s block iff each coordinate is in the block's range on its axis. -/
theorem mem_blk (t : Fin cfg0.N) (i : S48x4x2048x64.Idx) :
    i ∈ ((cfg0.win 3).blk t).view.set ↔ ∀ a : Fin 4, win0_3.index t a * S1x1x2048x64.size a ≤ (i a).val ∧ (i a).val < win0_3.index t a * S1x1x2048x64.size a + S1x1x2048x64.size a := by
  show i ∈ ((View.whole main_v1).slice (win0_3.rect t)).set ↔ _
  rw [View.set_slice_whole, Rect.mem_set_unit]
  exact Iff.rfl

/-- Every index of the array is in the block of the point of its batch and head slot. -/
theorem cover (i : S48x4x2048x64.Idx) :
    ∃ t : Fin cfg0.N, (cfg0.win 3).flush t = true ∧ i ∈ ((cfg0.win 3).blk t).view.set := by
  have h0 : (i 0).val < 48 := (i 0).isLt
  have h1 : (i 1).val < 4 := (i 1).isLt
  have h2 : (i 2).val < 2048 := (i 2).isLt
  have h3 : (i 3).val < 64 := (i 3).isLt
  have hN : cfg0.N = 192 := N_0
  obtain ⟨t, ht⟩ : ∃ t : Fin cfg0.N, t.val = (i 1).val * 48 + (i 0).val := ⟨⟨(i 1).val * 48 + (i 0).val, by rw [hN]; omega⟩, rfl⟩
  obtain ⟨e30, e31, e32, e33, -⟩ := idx_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 2048 ≤ (i 2).val ∧ (i 2).val < win0_3.index t (2 : Fin 4) * 2048 + 2048; omega
  | ⟨3, _⟩ => show win0_3.index t (3 : Fin 4) * 64 ≤ (i 3).val ∧ (i 3).val < win0_3.index t (3 : Fin 4) * 64 + 64; omega

/-- THE ARRAY after the region: the head-major projections of the arrays as the region finds them. -/
theorem qkv_final (c : Dev nD) :
    (dat0 V c).arrAt 3 cfg0.N = qkvHeads (V c main_arg0) (V c main_arg1) (V c main_v0) :=
  (dat0 V c).arrAt_eq_of_cover 3 (qkvHeads (V c main_arg0) (V c main_arg1) (V c main_v0)) (fun t _ => flushed_eq V c t) cover

end Cert.KernelIdeal.QkvValue

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibOnlineSoftmax.lean ====
/-
  The online (streaming) form of softmax-weighted averaging, on the extended reals.

  A row of J * B real scores S and real values V is walked in J consecutive blocks of B. A running state
  (m, l, a) -- the maximum seen so far, the normaliser and the accumulator, both taken relative to m -- is started
  at (-inf, 0, 0); folding in a block with block maximum m' replaces it by

      m_new = max m m',
      l_new = exp (m - m_new) * l + sum over the block of exp (s - m_new),
      a_new = exp (m - m_new) * a + sum over the block of exp (s - m_new) * v.

  Because exp (m - m_new) * exp (s - m) = exp (s - m_new) for real numbers, after j >= 1 blocks the state is
  (M_j, L_j, A_j) with M_j the maximum of the first j blocks, L_j the sum of exp (S - M_j) over them and
  A_j the sum of exp (S - M_j) * V over them. At the first block the old maximum is -inf and
  exp (-inf - m') = exp (-inf) = 0 kills the (zero) old normaliser and accumulator. Hence a / l after all J blocks
  is the plain softmax average: the sum over all entries of exp (S - max S) / (sum of exp (S - max S)) * V.

  The data are real (finite): the statement is false at infinite scores. Only the arithmetic is carried out on
  the extended reals, with exp (-inf) = 0 and division by a nonzero real being multiplication by its reciprocal.

  Also here: a sum, and a supremum, over Fin (J * B) regrouped into J consecutive blocks of B.
-/
import Idealize.ShloMosaic.PureOps.Ideal

noncomputable section

namespace Cert.Lib.OnlineSoftmax

open Idealize.ShloMosaic
open scoped BigOperators

/-- one key block folded into the running (max, normaliser, accumulator) -/
def step {B : ℕ} (s v : Fin B → EReal) (σ : EReal × EReal × EReal) : EReal × EReal × EReal :=
  (max σ.1 (Finset.univ.sup s),
   Ideal.exp (σ.1 - max σ.1 (Finset.univ.sup s)) * σ.2.1 + ∑ n, Ideal.exp (s n - max σ.1 (Finset.univ.sup s)),
   Ideal.exp (σ.1 - max σ.1 (Finset.univ.sup s)) * σ.2.2 + ∑ n, Ideal.exp (s n - max σ.1 (Finset.univ.sup s)) * v n)

/-- the state after the first j blocks -/
def run {B : ℕ} (s v : ℕ → Fin B → EReal) : ℕ → EReal × EReal × EReal
  | 0 => (⊥, 0, 0)
  | j + 1 => step (s j) (v j) (run s v j)

/-! ### Coercion of real sums, maxima and exponentials into the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion of a real maximum is the maximum of the coercions. -/
theorem coe_max (x y : ℝ) : ((max x y : ℝ) : EReal) = max (x : EReal) (y : EReal) :=
  EReal.coe_strictMono.monotone.map_max

/-- A supremum of real numbers over a nonempty finite set is attained, so it is a real number. -/
theorem exists_sup_coe {ι : Type*} {s : Finset ι} (hs : s.Nonempty) (f : ι → ℝ) :
    ∃ m : ℝ, s.sup (fun i => (f i : EReal)) = (m : EReal) := by
  obtain ⟨i, _, hi⟩ := Finset.exists_mem_eq_sup s hs (fun i => (f i : EReal))
  exact ⟨f i, hi⟩

/-- exp of a difference of reals is the real exponential of the difference. -/
theorem exp_coe_sub (a b : ℝ) :
    Ideal.exp ((a : EReal) - (b : EReal)) = ((Real.exp (a - b) : ℝ) : EReal) := by
  rw [← EReal.coe_sub, Ideal.exp_coe]

/-! ### One step on real data -/

/-- The first block: from (-inf, 0, 0) the state becomes the block's own maximum, normaliser and accumulator. -/
theorem step_bot {B : ℕ} (s v : Fin B → ℝ) (m : ℝ)
    (hm : Finset.univ.sup (fun n => (s n : EReal)) = (m : EReal)) :
    step (fun n => (s n : EReal)) (fun n => (v n : EReal)) (⊥, 0, 0)
      = ((m : EReal), ((∑ n, Real.exp (s n - m) : ℝ) : EReal),
          ((∑ n, Real.exp (s n - m) * v n : ℝ) : EReal)) := by
  simp only [step, hm, max_bot_left, EReal.bot_sub, Ideal.exp_bot, mul_zero, zero_add, exp_coe_sub,
    coe_sum, EReal.coe_mul]

/-- A later block: from a real state the new state is real, rescaled by exp (old max - new max). -/
theorem step_coe {B : ℕ} (s v : Fin B → ℝ) (m M L A : ℝ)
    (hm : Finset.univ.sup (fun n => (s n : EReal)) = (m : EReal)) :
    step (fun n => (s n : EReal)) (fun n => (v n : EReal)) ((M : EReal), (L : EReal), (A : EReal))
      = (((max M m : ℝ) : EReal),
          ((Real.exp (M - max M m) * L + ∑ n, Real.exp (s n - max M m) : ℝ) : EReal),
          ((Real.exp (M - max M m) * A + ∑ n, Real.exp (s n - max M m) * v n : ℝ) : EReal)) := by
  simp only [step, hm, ← coe_max, exp_coe_sub, EReal.coe_add, EReal.coe_mul, coe_sum]

/-! ### Changing the reference point of the exponentials -/

/-- exp (M - M') * sum of exp (S - M) * W = sum of exp (S - M') * W. -/
theorem rescale {B : ℕ} (S W : ℕ → Fin B → ℝ) (k : ℕ) (M M' : ℝ) :
    Real.exp (M - M') * ∑ j ∈ Finset.range k, ∑ n, Real.exp (S j n - M) * W j n
      = ∑ j ∈ Finset.range k, ∑ n, Real.exp (S j n - M') * W j n := by
  rw [Finset.mul_sum]
  refine Finset.sum_congr rfl fun j _ => ?_
  rw [Finset.mul_sum]
  refine Finset.sum_congr rfl fun n _ => ?_
  rw [← mul_assoc, ← Real.exp_add]
  congr 2
  ring

/-- exp (M - M') * sum of exp (S - M) = sum of exp (S - M'). -/
theorem rescale_one {B : ℕ} (S : ℕ → Fin B → ℝ) (k : ℕ) (M M' : ℝ) :
    Real.exp (M - M') * ∑ j ∈ Finset.range k, ∑ n, Real.exp (S j n - M)
      = ∑ j ∈ Finset.range k, ∑ n, Real.exp (S j n - M') := by
  simpa using rescale S (fun _ _ => 1) k M M'

/-! ### The invariant -/

/-- After k + 1 blocks the state is (max, sum of exp (S - max), sum of exp (S - max) * V) over those blocks,
    all three real. -/
theorem run_succ {B : ℕ} (hB : 0 < B) (S V : ℕ → Fin B → ℝ) (k : ℕ) :
    ∃ M : ℝ,
      ((Finset.range (k + 1)).sup fun j' => Finset.univ.sup fun n' => (S j' n' : EReal)) = (M : EReal) ∧
      run (fun j n => (S j n : EReal)) (fun j n => (V j n : EReal)) (k + 1)
        = ((M : EReal),
            ((∑ j ∈ Finset.range (k + 1), ∑ n, Real.exp (S j n - M) : ℝ) : EReal),
            ((∑ j ∈ Finset.range (k + 1), ∑ n, Real.exp (S j n - M) * V j n : ℝ) : EReal)) := by
  haveI : Nonempty (Fin B) := ⟨⟨0, hB⟩⟩
  induction k with
  | zero =>
    obtain ⟨m, hm⟩ := exists_sup_coe (Finset.univ_nonempty (α := Fin B)) (S 0)
    refine ⟨m, ?_, ?_⟩
    · simpa using hm
    · show step _ _ (⊥, 0, 0) = _
      rw [step_bot (S 0) (V 0) m hm]
      simp
  | succ k ih =>
    obtain ⟨M, hM, hrun⟩ := ih
    obtain ⟨m, hm⟩ := exists_sup_coe (Finset.univ_nonempty (α := Fin B)) (S (k + 1))
    refine ⟨max M m, ?_, ?_⟩
    · rw [Finset.range_add_one, Finset.sup_insert, hM, hm, coe_max, sup_comm]
    · show step _ _ (run _ _ (k + 1)) = _
      rw [hrun, step_coe (S (k + 1)) (V (k + 1)) m M _ _ hm,
        rescale_one S (k + 1) M (max M m), rescale S V (k + 1) M (max M m),
        Finset.sum_range_succ (fun j => ∑ n, Real.exp (S j n - max M m)) (k + 1),
        Finset.sum_range_succ (fun j => ∑ n, Real.exp (S j n - max M m) * V j n) (k + 1)]

/-! ### The theorem -/

/-- The online recurrence over J >= 1 blocks of B >= 1 real scores and values ends with accumulator / normaliser
    equal to the softmax-weighted sum of the values over all J * B entries. -/
theorem run_eq_softmax {B : ℕ} (hB : 0 < B) (S V : ℕ → Fin B → ℝ) (J : ℕ) (hJ : 0 < J) :
    Ideal.div (run (fun j n => (S j n : EReal)) (fun j n => (V j n : EReal)) J).2.2
              (run (fun j n => (S j n : EReal)) (fun j n => (V j n : EReal)) J).2.1
      = ∑ j ∈ Finset.range J, ∑ n : Fin B,
          Ideal.div (Ideal.exp ((S j n : EReal) - (Finset.range J).sup fun j' => Finset.univ.sup fun n' => (S j' n' : EReal)))
                    (∑ j' ∈ Finset.range J, ∑ n' : Fin B, Ideal.exp ((S j' n' : EReal) - (Finset.range J).sup fun j'' => Finset.univ.sup fun n'' => (S j'' n'' : EReal)))
            * (V j n : EReal) := by
  obtain ⟨k, rfl⟩ : ∃ k, J = k + 1 := ⟨J - 1, by omega⟩
  obtain ⟨M, hM, hrun⟩ := run_succ hB S V k
  haveI : Nonempty (Fin B) := ⟨⟨0, hB⟩⟩
  have hL : (∑ j ∈ Finset.range (k + 1), ∑ n : Fin B, Real.exp (S j n - M)) ≠ 0 :=
    ne_of_gt (Finset.sum_pos (fun j _ => Finset.sum_pos (fun n _ => Real.exp_pos _) Finset.univ_nonempty)
      Finset.nonempty_range_add_one)
  rw [hrun, hM]
  simp only [exp_coe_sub, ← coe_sum, Ideal.div_coe hL, ← EReal.coe_mul]
  congr 1
  rw [Finset.sum_mul]
  refine Finset.sum_congr rfl fun j _ => ?_
  rw [Finset.sum_mul]
  refine Finset.sum_congr rfl fun n _ => ?_
  ring

/-! ### A row of J * B entries as J consecutive blocks of B -/

/-- Entry n of block j sits below J * B. -/
theorem block_index_lt {J B j : ℕ} (hj : j < J) (n : Fin B) : j * B + n < J * B :=
  calc j * B + n < j * B + B := Nat.add_lt_add_left n.2 _
    _ = (j + 1) * B := (Nat.succ_mul j B).symm
    _ ≤ J * B := Nat.mul_le_mul_right _ hj

/-- A sum over Fin (J * B) is the sum over J consecutive blocks of B. -/
theorem regroup_sum {α : Type*} [AddCommMonoid α] {J B : ℕ} (f : Fin (J * B) → α) (f' : ℕ → Fin B → α)
    (h : ∀ (j : ℕ) (n : Fin B) (hjn : j * B + n < J * B), f ⟨j * B + n, hjn⟩ = f' j n) :
    ∑ i, f i = ∑ j ∈ Finset.range J, ∑ n, f' j n := by
  rw [← finProdFinEquiv.sum_comp, Fintype.sum_prod_type, Finset.sum_range]
  refine Finset.sum_congr rfl fun j _ => Finset.sum_congr rfl fun n _ => ?_
  rw [← h j n (block_index_lt j.2 n)]
  congr 1
  ext
  simp [Nat.mul_comm, Nat.add_comm]

/-- A supremum over Fin (J * B) is the supremum over J consecutive blocks of B. -/
theorem regroup_sup {α : Type*} [SemilatticeSup α] [OrderBot α] {J B : ℕ} (f : Fin (J * B) → α)
    (f' : ℕ → Fin B → α)
    (h : ∀ (j : ℕ) (n : Fin B) (hjn : j * B + n < J * B), f ⟨j * B + n, hjn⟩ = f' j n) :
    Finset.univ.sup f = (Finset.range J).sup fun j => Finset.univ.sup fun n => f' j n := by
  apply le_antisymm
  · refine Finset.sup_le fun i _ => ?_
    have hB : 0 < B := by
      rcases Nat.eq_zero_or_pos B with h0 | h0
      · subst h0
        exact absurd i.2 (by simp)
      · exact h0
    have hi : (i : ℕ) / B * B + (i : ℕ) % B = i := Nat.div_add_mod' _ _
    have hlt : (i : ℕ) / B * B + ((⟨(i : ℕ) % B, Nat.mod_lt _ hB⟩ : Fin B) : ℕ) < J * B := by
      show (i : ℕ) / B * B + (i : ℕ) % B < J * B
      rw [hi]
      exact i.2
    have hfi : f i = f' ((i : ℕ) / B) ⟨(i : ℕ) % B, Nat.mod_lt _ hB⟩ := by
      rw [← h ((i : ℕ) / B) ⟨(i : ℕ) % B, Nat.mod_lt _ hB⟩ hlt]
      congr 1
      ext
      exact hi.symm
    have hq : (i : ℕ) / B ∈ Finset.range J :=
      Finset.mem_range.2 (Nat.div_lt_of_lt_mul (lt_of_lt_of_eq i.2 (Nat.mul_comm J B)))
    rw [hfi]
    exact le_trans (Finset.le_sup (f := fun n => f' ((i : ℕ) / B) n) (Finset.mem_univ _))
      (Finset.le_sup (f := fun j => Finset.univ.sup fun n => f' j n) hq)
  · refine Finset.sup_le fun j hj => Finset.sup_le fun n _ => ?_
    rw [← h j n (block_index_lt (Finset.mem_range.1 hj) n)]
    exact Finset.le_sup (Finset.mem_univ _)

end Cert.Lib.OnlineSoftmax

end
-- ==== Proof.IdealAttnChunk.lean ====
/- One key chunk of the attention body folded into its running state, read at a row, on the extended reals.
   The body keeps, per query row, a running maximum m, a normaliser l and an accumulator a (one per channel). For a
   chunk of 256 keys with scores S (a [256, 256] array: query row by key) and values V ([256, 64]) it replaces them by
       m' = max m (max_n S(r, n)),
       l' = exp (m - m') * l + Σ_n exp (S(r, n) - m'),
       a' = exp (m - m') * a + Σ_n exp (S(r, n) - m') * V(n, d),
   which is one step of the streaming softmax recurrence on the row's 256 scores and the channel's 256 values.
   Here: the chunk's arithmetic as functions of the score array (the same for every chunk), each read at an index; the
   score array read at an index (the scaled product of the query row and the key row; on the diagonal chunk the keys
   after the query score -inf, the named constant's value on the extended reals); the initial state and the final division. -/
import proofs.«102473_j17867063951717_2_alg».proof.Proof.Gen.KernelIdeal.Skeleton
import proofs.«102473_j17867063951717_2_alg».proof.Proof.LibRowsDot
import proofs.«102473_j17867063951717_2_alg».proof.Proof.LibPlainDot
import proofs.«102473_j17867063951717_2_alg».proof.Proof.LibColumnLayout
import proofs.«102473_j17867063951717_2_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.Tactic

set_option maxRecDepth 16384

noncomputable section

open scoped BigOperators

namespace Cert.KernelIdeal.AttnValue

open Cert.KernelIdeal Cert.KernelIdeal.Gen
open Idealize.ShloMosaic Idealize.ShloMosaic.ValueIdx
open Cert.Lib.OnlineSoftmax

/-! ## The chunk's arithmetic as functions of the score array, at any float interpretation -/

section Generic
variable {F : FTy → Type} [FloatOps F] [Named F]

/-- The new running maximum: the old one against each row's largest score. -/
def cMax (S : FVec F S256x256 .f32) (m : Vec F S256x1 .f32) : FVec F S256x1 .f32 :=
  maximumf m (shapeCast S256x1 (multiReduction .maximumf [1] S256 S 0xFF800000#32 reduces_S256x256_S256 (.inl rfl) rfl) shapeCasts_S256_S256x1)

/-- The factor that moves the old state to the new maximum. -/
def cAlpha (S : FVec F S256x256 .f32) (m : Vec F S256x1 .f32) : FVec F S256x1 .f32 :=
  exp (subf m (cMax S m))

/-- The chunk's exponentials. -/
def cP (S : FVec F S256x256 .f32) (m : Vec F S256x1 .f32) : FVec F S256x256 .f32 :=
  exp (subf S (broadcastTo S256x256 (cMax S m) broadcasts_S256x1_S256x256))

/-- The new normaliser. -/
def cL (S : FVec F S256x256 .f32) (m l : Vec F S256x1 .f32) : FVec F S256x1 .f32 :=
  shapeCast S256x1 (addf (mulf (cAlpha S m) l) (shapeCast S256x1 (multiReduction .add [1] S256 (cP S m) 0x00000000#32 reduces_S256x256_S256 (.inl rfl) rfl) shapeCasts_S256_S256x1)) shapeCasts_S256x1_S256x1

/-- The scaled products of the query rows with the chunk's key rows. -/
def cRaw (q : FVec F S256x64 .bf16) (k : Vec F S1x1x256x64 .bf16) : FVec F S256x256 .f32 :=
  mulf (matmul dot_S256x64_S256x64_S256x256_1_1_0_0_n_n none q (shapeCast S256x64 k shapeCasts_S1x1x256x64_S256x64) (constant S256x256 .f32 0x00000000#32))
    (broadcast S256x256 (Scalar.ofBits .f32 0x3E000000#32))

/-- Key column (offset by `off`) not after query row (offset by 256 times the query block's index `arg2`). -/
def cMask (off arg2 : BitVec 32) : IVec S256x256 1 :=
  cmpi .sge
    (broadcastTo S256x256 (addi (iota .tc S256x1 32 [0] iota_S256x1_d0_w32) (broadcast S256x1 (Scalar.muli arg2 256#32))) broadcasts_S256x1_S256x256)
    (broadcastTo S256x256 (addi (iota .tc S1x256 32 [1] iota_S1x256_d1_w32) (broadcast S1x256 off)) broadcasts_S1x256_S256x256)

/-- The chunk's scores: the scaled products, masked on the diagonal chunk (the chunk whose index `cc` is the query
    block's) by the named stand-in where the key is after the query. -/
def cScores (cc off arg2 : BitVec 32) (q : FVec F S256x64 .bf16) (k : Vec F S1x1x256x64 .bf16) : FVec F S256x256 .f32 :=
  Scalar.select (Scalar.cmpi .eq arg2 cc)
    (select (cMask off arg2) (cRaw q k) (broadcast S256x256 (Named.named κ "neg_big" 0xFF333332#32 : F .f32)))
    (cRaw q k)

end Generic

/-! ## Read at an index, on the extended reals -/

theorem ofBits_neg_inf : Ideal.ofBits .f32 0xFF800000#32 = ⊥ := by simp [Ideal.ofBits, Ideal.ieee]

/-- The index of row `r` with the dropped key coordinate `k` put back is `(r, k)`. -/
theorem lift_row (r : Fin 256) (k : Fin 256) : reduces_S256x256_S256.lift (ix1 r) k = ix2 r k :=
  funext fun a => Fin.ext (by match a with | ⟨0, _⟩ => rfl | ⟨1, _⟩ => rfl)

theorem cMax_apply (S : FVec Ideal S256x256 .f32) (m : Vec Ideal S256x1 .f32) (r : Fin 256) :
    cMax S m (ix2 r (0 : Fin 1)) = max (m (ix2 r (0 : Fin 1))) (Finset.univ.sup fun n : Fin 256 => S (ix2 r n)) := by
  unfold cMax
  rw [maximumf_apply, Cert.ColumnLayout.shapeCast_a_a1_apply]
  refine congrArg (max _) ?_
  refine (Ideal.multiReduction_maximumf_single S _ reduces_S256x256_S256 _ _ (ix1 r)).trans ?_
  show (Finset.univ : Finset (Fin 256)).fold max (Ideal.ofBits .f32 0xFF800000#32) _ = _
  rw [ofBits_neg_inf]
  exact congrArg (fun f : Fin 256 → EReal => (Finset.univ : Finset (Fin 256)).fold max ⊥ f)
    (funext fun k => congrArg S (lift_row r k))

theorem cAlpha_apply (S : FVec Ideal S256x256 .f32) (m : Vec Ideal S256x1 .f32) (r : Fin 256) :
    cAlpha S m (ix2 r (0 : Fin 1)) = Ideal.exp (m (ix2 r (0 : Fin 1)) - cMax S m (ix2 r (0 : Fin 1))) := rfl

theorem cP_apply (S : FVec Ideal S256x256 .f32) (m : Vec Ideal S256x1 .f32) (r n : Fin 256) :
    cP S m (ix2 r n) = Ideal.exp (S (ix2 r n) - cMax S m (ix2 r (0 : Fin 1))) := by
  unfold cP
  show Ideal.exp (S (ix2 r n) - broadcastTo S256x256 (cMax S m) broadcasts_S256x1_S256x256 (ix2 r n)) = _
  rw [Cert.ColumnLayout.broadcastTo_a1_ab_apply]

theorem cL_apply (S : FVec Ideal S256x256 .f32) (m l : Vec Ideal S256x1 .f32) (r : Fin 256) :
    cL S m l (ix2 r (0 : Fin 1))
      = cAlpha S m (ix2 r (0 : Fin 1)) * l (ix2 r (0 : Fin 1)) + ∑ n : Fin 256, cP S m (ix2 r n) := by
  unfold cL
  rw [shapeCast_self, addf_apply, mulf_apply, Cert.ColumnLayout.shapeCast_a_a1_apply]
  refine congrArg (fun z : EReal => cAlpha S m (ix2 r (0 : Fin 1)) * l (ix2 r (0 : Fin 1)) + z) ?_
  refine (Ideal.multiReduction_add_single (cP S m) _ reduces_S256x256_S256 _ _ (ix1 r)).trans ?_
  exact Finset.sum_congr rfl fun k _ => congrArg (cP S m) (lift_row r k)

/-! ## The scores read at an index -/

/-- An `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- The score matmul contracts the queries' channel axis with the keys' channel axis. -/
theorem reads_qk : Cert.Lib.RowsDot.Reads (R := 256) (K := 64) (C := 256) dot_S256x64_S256x64_S256x256_1_1_0_0_n_n where
  rank := rfl
  size := rfl
  lhs0 := fun i q => by
    unfold DotDims.lhsIdx
    rw [dif_neg (show ¬(0 : Fin S256x64.rank) ∈ dot_S256x64_S256x64_S256x256_1_1_0_0_n_n.lhsBatch by decide),
      dif_pos (show (0 : Fin S256x64.rank) ∈ dot_S256x64_S256x64_S256x256_1_1_0_0_n_n.lhsNonContracting by decide)]
    rfl
  lhs1 := fun i q => dot_S256x64_S256x64_S256x256_1_1_0_0_n_n.lhsIdx_val_of_single rfl i q
  rhs0 := fun i q => by
    unfold DotDims.rhsIdx
    rw [dif_neg (show ¬(0 : Fin S256x64.rank) ∈ dot_S256x64_S256x64_S256x256_1_1_0_0_n_n.rhsBatch by decide),
      dif_pos (show (0 : Fin S256x64.rank) ∈ dot_S256x64_S256x64_S256x256_1_1_0_0_n_n.rhsNonContracting by decide)]
    rfl
  rhs1 := fun i q => dot_S256x64_S256x64_S256x256_1_1_0_0_n_n.rhsIdx_val_of_single rfl i q

/-- The weights-times-values matmul contracts the weights' key axis with the values' key axis. -/
theorem reads_pv : Cert.Lib.PlainDot.Reads (R := 256) (K := 256) (C := 64) dot_S256x256_S256x64_S256x64_1_0_0_1_n_n where
  rank := rfl
  size := rfl
  lhs0 := fun i q => by
    unfold DotDims.lhsIdx
    rw [dif_neg (show ¬(0 : Fin S256x256.rank) ∈ dot_S256x256_S256x64_S256x64_1_0_0_1_n_n.lhsBatch by decide),
      dif_pos (show (0 : Fin S256x256.rank) ∈ dot_S256x256_S256x64_S256x64_1_0_0_1_n_n.lhsNonContracting by decide)]
    rfl
  lhs1 := fun i q => dot_S256x256_S256x64_S256x64_1_0_0_1_n_n.lhsIdx_val_of_single rfl i q
  rhs0 := fun i q => dot_S256x256_S256x64_S256x64_1_0_0_1_n_n.rhsIdx_val_of_single rfl i q
  rhs1 := fun i q => by
    unfold DotDims.rhsIdx
    rw [dif_neg (show ¬(1 : Fin S256x64.rank) ∈ dot_S256x256_S256x64_S256x64_1_0_0_1_n_n.rhsBatch by decide),
      dif_pos (show (1 : Fin S256x64.rank) ∈ dot_S256x256_S256x64_S256x64_1_0_0_1_n_n.rhsNonContracting by decide)]
    rfl

theorem cRaw_apply (q : FVec Ideal S256x64 .bf16) (k : Vec Ideal S1x1x256x64 .bf16) (r n : Fin 256) :
    cRaw q k (ix2 r n)
      = (∑ d : Fin 64, q (ix2 r d) * k (ix4 (0 : Fin 1) (0 : Fin 1) n d)) * Ideal.ofBits .f32 0x3E000000#32 := by
  unfold cRaw
  rw [mulf_apply, broadcast_apply]
  refine congrArg₂ (· * ·) ?_ rfl
  refine (Cert.Lib.RowsDot.matmul_zero_apply reads_qk none _ _ r n).trans ?_
  refine Finset.sum_congr rfl fun d _ => ?_
  rw [shapeCast_11ab_ab_apply]

theorem cMask_apply (off arg2 : BitVec 32) (r n : Fin 256) :
    cMask off arg2 (ix2 r n)
      = IntOp.cmpi .sge (IntOp.addi (BitVec.ofNat 32 r.val) (IntOp.muli arg2 256#32)) (IntOp.addi (BitVec.ofNat 32 n.val) off) := by
  unfold cMask
  show IntOp.cmpi .sge (broadcastTo S256x256 _ broadcasts_S256x1_S256x256 (ix2 r n)) (broadcastTo S256x256 _ broadcasts_S1x256_S256x256 (ix2 r n)) = _
  rw [Cert.ColumnLayout.broadcastTo_a1_ab_apply, broadcastTo_1b_ab_apply]
  show IntOp.cmpi .sge (IntOp.addi (iota .tc S256x1 32 [0] iota_S256x1_d0_w32 (ix2 r (0 : Fin 1))) _)
    (IntOp.addi (iota .tc S1x256 32 [1] iota_S1x256_d1_w32 (ix2 (0 : Fin 1) n)) _) = _
  rw [iota_single_apply, iota_single_apply]
  rfl

theorem ofNat_toInt_small (a : ℕ) (h : a < 2147483648) : (BitVec.ofNat 32 a).toInt = (a : Int) := by
  rw [BitVec.toInt_eq_toNat_cond, BitVec.toNat_ofNat]
  have : a % 2 ^ 32 = a := Nat.mod_eq_of_lt (by omega)
  rw [this]
  split
  · rfl
  · omega

/-- On the diagonal chunk the comparison of the offset row and column numbers is the comparison inside the chunk. -/
theorem mask_diag (q r n : ℕ) (hq : q < 8) (hr : r < 256) (hn : n < 256) :
    IntOp.cmpi .sge (IntOp.addi (BitVec.ofNat 32 r) (IntOp.muli (BitVec.ofNat 32 q) 256#32))
      (IntOp.addi (BitVec.ofNat 32 n) (BitVec.ofNat 32 (256 * q))) = if n ≤ r then 1#1 else 0#1 := by
  have e1 : IntOp.addi (BitVec.ofNat 32 r) (IntOp.muli (BitVec.ofNat 32 q) 256#32) = BitVec.ofNat 32 (r + q * 256) := by
    apply BitVec.eq_of_toNat_eq
    simp only [IntOp.addi, IntOp.muli, BitVec.toNat_add, BitVec.toNat_mul, BitVec.toNat_ofNat]
    omega
  have e2 : IntOp.addi (BitVec.ofNat 32 n) (BitVec.ofNat 32 (256 * q)) = BitVec.ofNat 32 (n + q * 256) := by
    apply BitVec.eq_of_toNat_eq
    simp only [IntOp.addi, BitVec.toNat_add, BitVec.toNat_ofNat]
    omega
  rw [e1, e2]
  unfold IntOp.cmpi
  dsimp only
  unfold BitVec.sle
  rw [ofNat_toInt_small _ (by omega), ofNat_toInt_small _ (by omega)]
  by_cases h : n ≤ r
  · rw [if_pos h, decide_eq_true (by omega)]; rfl
  · rw [if_neg h, decide_eq_false (by omega)]; rfl

theorem cmpi_eq_ne (q c : ℕ) (hq : q < 8) (hc : c < 8) (h : q ≠ c) :
    Scalar.cmpi .eq (BitVec.ofNat 32 q) (BitVec.ofNat 32 c) = 0#1 := by
  interval_cases q <;> interval_cases c <;> first | (exact absurd rfl h) | decide
theorem cmpi_eq_self (q : ℕ) : Scalar.cmpi .eq (BitVec.ofNat 32 q) (BitVec.ofNat 32 q) = 1#1 := by
  simp [Scalar.cmpi, IntOp.cmpi]

/-- The kernel's finite stand-in for -inf is named: on the extended reals it is -inf. -/
theorem neg_big : Named.named (F := Ideal) κ "neg_big" (φ := .f32) 0xFF333332#32 = ⊥ :=
  IdealRules.named_const.ideal_named_scalar _ _ _ _ rfl

/-- A chunk before the diagonal: every key is before every query, the scores are the scaled products. -/
theorem cScores_off (cc off arg2 : BitVec 32) (q : FVec Ideal S256x64 .bf16) (k : Vec Ideal S1x1x256x64 .bf16)
    (h : Scalar.cmpi .eq arg2 cc = 0#1) (r n : Fin 256) :
    cScores cc off arg2 q k (ix2 r n) = cRaw q k (ix2 r n) := by
  unfold cScores
  rw [h, select_zero]

/-- The diagonal chunk: a key after the query scores -inf. -/
theorem cScores_diag (qi : ℕ) (hq : qi < 8) (q : FVec Ideal S256x64 .bf16) (k : Vec Ideal S1x1x256x64 .bf16) (r n : Fin 256) :
    cScores (BitVec.ofNat 32 qi) (BitVec.ofNat 32 (256 * qi)) (BitVec.ofNat 32 qi) q k (ix2 r n)
      = if n.val ≤ r.val then cRaw q k (ix2 r n) else ⊥ := by
  unfold cScores
  rw [cmpi_eq_self, select_one, select_apply, cMask_apply, mask_diag qi r.val n.val hq r.isLt n.isLt]
  by_cases h : n.val ≤ r.val
  · rw [if_pos h, if_pos h, select_one]
  · rw [if_neg h, if_neg h, select_zero, broadcast_apply]
    exact neg_big

/-! ## The state's start, its update and the final division, read at an index -/

theorem pay59_apply (r : Fin 256) : k1_pay59 (F := Ideal) (ix2 r (0 : Fin 1)) = ⊥ := by
  unfold k1_pay59
  rw [shapeCast_self, broadcast_apply]
  exact ofBits_neg_inf

theorem pay60_apply (r : Fin 256) : k1_pay60 (F := Ideal) (ix2 r (0 : Fin 1)) = 0 := by
  unfold k1_pay60
  rw [shapeCast_self, broadcast_apply]
  exact Ideal.ofBits_zero_f32

theorem pay61_apply (r : Fin 256) (d : Fin 64) : k1_pay61 (F := Ideal) (ix2 r d) = 0 := by
  unfold k1_pay61
  rw [shapeCast_self, broadcast_apply]
  exact Ideal.ofBits_zero_f32

theorem pay2_eq {F : FTy → Type} [FloatOps F] [Named F] (v : FVec F S256x1 .f32) : k1_pay2 v = v := by
  unfold k1_pay2
  rw [shapeCast_self]

theorem pay10_apply (v : Vec Ideal S1x1x256x64 .bf16) (n : Fin 256) (d : Fin 64) :
    k1_pay10 v (ix2 n d) = v (ix4 (0 : Fin 1) (0 : Fin 1) n d) := by
  unfold k1_pay10
  rw [shapeCast_11ab_ab_apply]

theorem pay58_apply (v : Vec Ideal S1x1x256x64 .bf16) (r : Fin 256) (d : Fin 64) :
    k1_pay58 v (ix2 r d) = v (ix4 (0 : Fin 1) (0 : Fin 1) r d) := by
  unfold k1_pay58
  rw [shapeCast_11ab_ab_apply]

theorem pay1_apply (v49 : FVec Ideal S256x64 .bf16) (v72 : FVec Ideal S256x1 .f32) (v75 : FVec Ideal S256x256 .f32)
    (v84 : Vec Ideal S256x64 .f32) (r : Fin 256) (d : Fin 64) :
    k1_pay1 v49 v72 v75 v84 (ix2 r d)
      = v72 (ix2 r (0 : Fin 1)) * v84 (ix2 r d) + ∑ n : Fin 256, v75 (ix2 r n) * v49 (ix2 n d) := by
  unfold k1_pay1
  rw [shapeCast_self, addf_apply, mulf_apply, Cert.ColumnLayout.broadcastTo_a1_ab_apply]
  refine congrArg (fun z : EReal => v72 (ix2 r (0 : Fin 1)) * v84 (ix2 r d) + z) ?_
  exact (Cert.Lib.PlainDot.matmul_zero_apply reads_pv none _ _ r d).trans (Finset.sum_congr rfl fun n _ => rfl)

theorem pay9_apply (a : Vec Ideal S256x64 .f32) (l : Vec Ideal S256x1 .f32) (r : Fin 256) (d : Fin 64) :
    k1_pay9 a l (ix4 (0 : Fin 1) (0 : Fin 1) r d) = Ideal.div (a (ix2 r d)) (l (ix2 r (0 : Fin 1))) := by
  unfold k1_pay9
  rw [shapeCast_ab_11ab_apply, truncf_apply, divf_apply, Cert.ColumnLayout.broadcastTo_a1_ab_apply]

/-- ONE CHUNK: the new maximum, normaliser and accumulator at a row (and channel) are one step of the streaming
    softmax recurrence on the row's 256 scores and the channel's 256 values. -/
theorem chunk_step (S : FVec Ideal S256x256 .f32) (Vc : FVec Ideal S256x64 .bf16) (m l : Vec Ideal S256x1 .f32)
    (a : Vec Ideal S256x64 .f32) (r : Fin 256) (d : Fin 64) :
    (k1_pay2 (cMax S m) (ix2 r (0 : Fin 1)), cL S m l (ix2 r (0 : Fin 1)), k1_pay1 Vc (cAlpha S m) (cP S m) a (ix2 r d))
      = step (fun n : Fin 256 => S (ix2 r n)) (fun n : Fin 256 => Vc (ix2 n d))
          (m (ix2 r (0 : Fin 1)), l (ix2 r (0 : Fin 1)), a (ix2 r d)) := by
  rw [pay2_eq, pay1_apply, cL_apply]
  simp only [step, cAlpha_apply, cP_apply, cMax_apply]

end Cert.KernelIdeal.AttnValue

end
-- ==== Proof.IdealAttnCases.lean ====
/- The attention body's result in each of its eight cases as ONE term over its input blocks, at any float
   interpretation: the state (maximum, normaliser, accumulator) after the chunks 0..qi, folded chunk by chunk from the
   initial state, and the final division. -/
import proofs.«102473_j17867063951717_2_alg».proof.Proof.IdealAttnRegion
import proofs.«102473_j17867063951717_2_alg».proof.Proof.IdealAttnChunk
import Idealize.ShloMosaic.Lib.Pipeline.Value
import Idealize.ShloMosaic.Lib.Tactic

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx Idealize.SL.Sem

variable {F : FTy → Type} [FloatOps F] [Named F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Chunk `p` of a key (or value) block: its rows 256 p … 256 p + 255. -/
def kc (x : Vec F S1x1x2048x64 .bf16) : ℕ → Vec F S1x1x256x64 .bf16
  | 0 => View.ld x (Rect.unit (s := S1x1x2048x64) ![0, 0, 0, 0] S1x1x256x64.size inb_S1x1x2048x64_S1x1x256x64_0_0_0_0)
  | 1 => View.ld x (Rect.unit (s := S1x1x2048x64) ![0, 0, 256, 0] S1x1x256x64.size inb_S1x1x2048x64_S1x1x256x64_0_0_256_0)
  | 2 => View.ld x (Rect.unit (s := S1x1x2048x64) ![0, 0, 512, 0] S1x1x256x64.size inb_S1x1x2048x64_S1x1x256x64_0_0_512_0)
  | 3 => View.ld x (Rect.unit (s := S1x1x2048x64) ![0, 0, 768, 0] S1x1x256x64.size inb_S1x1x2048x64_S1x1x256x64_0_0_768_0)
  | 4 => View.ld x (Rect.unit (s := S1x1x2048x64) ![0, 0, 1024, 0] S1x1x256x64.size inb_S1x1x2048x64_S1x1x256x64_0_0_1024_0)
  | 5 => View.ld x (Rect.unit (s := S1x1x2048x64) ![0, 0, 1280, 0] S1x1x256x64.size inb_S1x1x2048x64_S1x1x256x64_0_0_1280_0)
  | 6 => View.ld x (Rect.unit (s := S1x1x2048x64) ![0, 0, 1536, 0] S1x1x256x64.size inb_S1x1x2048x64_S1x1x256x64_0_0_1536_0)
  | 7 => View.ld x (Rect.unit (s := S1x1x2048x64) ![0, 0, 1792, 0] S1x1x256x64.size inb_S1x1x2048x64_S1x1x256x64_0_0_1792_0)
  | _ + 8 => View.ld x (Rect.unit (s := S1x1x2048x64) ![0, 0, 0, 0] S1x1x256x64.size inb_S1x1x2048x64_S1x1x256x64_0_0_0_0)

/-- The scores of chunk `p` at a point whose query block index is the word `a2`. -/
def Sf (a2 : BitVec 32) (x0 : Vec F S1x1x256x64 .bf16) (x1 : Vec F S1x1x2048x64 .bf16) (p : ℕ) : FVec F S256x256 .f32 :=
  cScores (BitVec.ofNat 32 p) (BitVec.ofNat 32 (256 * p)) a2 (k1_pay58 x0) (kc x1 p)

/-- The values of chunk `p`. -/
def Vf (x2 : Vec F S1x1x2048x64 .bf16) (p : ℕ) : FVec F S256x64 .bf16 := k1_pay10 (kc x2 p)

/-- The state after the first `p` chunks: running maximum, normaliser, accumulator. -/
def vrun (S : ℕ → FVec F S256x256 .f32) (Vv : ℕ → FVec F S256x64 .bf16) :
    ℕ → FVec F S256x1 .f32 × FVec F S256x1 .f32 × FVec F S256x64 .f32
  | 0 => (k1_pay59, k1_pay60, k1_pay61)
  | p + 1 => (k1_pay2 (cMax (S p) (vrun S Vv p).1), cL (S p) (vrun S Vv p).1 (vrun S Vv p).2.1,
      k1_pay1 (Vv p) (cAlpha (S p) (vrun S Vv p).1) (cP (S p) (vrun S Vv p).1) (vrun S Vv p).2.2)

/-- A load through the whole-buffer rectangle of what stores through it left, the LAST first, reads the last payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 2000000 in
/-- Query block index 0: the output block after the body is the final division of the state after chunks 0..0. -/
theorem out1_A_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    out1_A_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 1).2.2 (vrun (Sf (BitVec.ofNat 32 (i 2).val) x0 x1) (Vf x2) 1).2.1 := by
  unfold out1_A_3
  rw [View.read_writes_eq_canon _ _ _ (cover1_A_3 c i arg3 harg3 arg4 harg4 arg5 harg5 arg6 harg6 arg7 harg7 arg8 harg8 arg9 harg9 hc0 hc1 hc2 hc3 hc4 hc5 hc6 hc7 x0 x1 x2)]
  unfold kernelRun1_A
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

set_option maxHeartbeats 2000000 in
/-- Query block index 1: the output block after the body is the final division of the state after chunks 0..1. -/
theorem out1_B_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    out1_B_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 2).2.2 (vrun (Sf (BitVec.ofNat 32 (i 2).val) x0 x1) (Vf x2) 2).2.1 := by
  unfold out1_B_3
  rw [View.read_writes_eq_canon _ _ _ (cover1_B_3 c i arg3 harg3 arg4 harg4 arg5 harg5 arg6 harg6 arg7 harg7 arg8 harg8 arg9 harg9 hc0 hc1 hc2 hc3 hc4 hc5 hc6 hc7 x0 x1 x2)]
  unfold kernelRun1_B
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

set_option maxHeartbeats 2000000 in
/-- Query block index 2: the output block after the body is the final division of the state after chunks 0..2. -/
theorem out1_C_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    out1_C_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 3).2.2 (vrun (Sf (BitVec.ofNat 32 (i 2).val) x0 x1) (Vf x2) 3).2.1 := by
  unfold out1_C_3
  rw [View.read_writes_eq_canon _ _ _ (cover1_C_3 c i arg3 harg3 arg4 harg4 arg5 harg5 arg6 harg6 arg7 harg7 arg8 harg8 arg9 harg9 hc0 hc1 hc2 hc3 hc4 hc5 hc6 hc7 x0 x1 x2)]
  unfold kernelRun1_C
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

set_option maxHeartbeats 2000000 in
/-- Query block index 3: the output block after the body is the final division of the state after chunks 0..3. -/
theorem out1_D_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    out1_D_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 4).2.2 (vrun (Sf (BitVec.ofNat 32 (i 2).val) x0 x1) (Vf x2) 4).2.1 := by
  unfold out1_D_3
  rw [View.read_writes_eq_canon _ _ _ (cover1_D_3 c i arg3 harg3 arg4 harg4 arg5 harg5 arg6 harg6 arg7 harg7 arg8 harg8 arg9 harg9 hc0 hc1 hc2 hc3 hc4 hc5 hc6 hc7 x0 x1 x2)]
  unfold kernelRun1_D
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

set_option maxHeartbeats 2000000 in
/-- Query block index 4: the output block after the body is the final division of the state after chunks 0..4. -/
theorem out1_E_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x1x256x64 .bf16) (x1 : Vec F S1x1x2048x64 .bf16) (x2 : Vec F S1x1x2048x64 .bf16) :
    out1_E_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 5).2.2 (vrun (Sf (BitVec.ofNat 32 (i 2).val) x0 x1) (Vf x2) 5).2.1 := by
  unfold out1_E_3
  rw [View.read_writes_eq_canon _ _ _ (cover1_E_3 c i arg3 harg3 arg4 harg4 arg5 harg5 arg6 harg6 arg7 harg7 arg8 harg8 arg9 harg9 hc0 hc1 hc2 hc3 hc4 hc5 hc6 hc7 x0 x1 x2)]
  unfold kernelRun1_E
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

set_option maxHeartbeats 2000000 in
/-- Query block index 5: the output block after the body is the final division of the state after chunks 0..5. -/
theorem out1_F_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x1x256x64 .bf16) (x1 : Vec F S1x1x2048x64 .bf16) (x2 : Vec F S1x1x2048x64 .bf16) :
    out1_F_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 6).2.2 (vrun (Sf (BitVec.ofNat 32 (i 2).val) x0 x1) (Vf x2) 6).2.1 := by
  unfold out1_F_3
  rw [View.read_writes_eq_canon _ _ _ (cover1_F_3 c i arg3 harg3 arg4 harg4 arg5 harg5 arg6 harg6 arg7 harg7 arg8 harg8 arg9 harg9 hc0 hc1 hc2 hc3 hc4 hc5 hc6 hc7 x0 x1 x2)]
  unfold kernelRun1_F
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

set_option maxHeartbeats 2000000 in
/-- Query block index 6: the output block after the body is the final division of the state after chunks 0..6. -/
theorem out1_G_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x1x256x64 .bf16) (x1 : Vec F S1x1x2048x64 .bf16) (x2 : Vec F S1x1x2048x64 .bf16) :
    out1_G_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 7).2.2 (vrun (Sf (BitVec.ofNat 32 (i 2).val) x0 x1) (Vf x2) 7).2.1 := by
  unfold out1_G_3
  rw [View.read_writes_eq_canon _ _ _ (cover1_G_3 c i arg3 harg3 arg4 harg4 arg5 harg5 arg6 harg6 arg7 harg7 arg8 harg8 arg9 harg9 hc0 hc1 hc2 hc3 hc4 hc5 hc6 hc7 x0 x1 x2)]
  unfold kernelRun1_G
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

set_option maxHeartbeats 2000000 in
/-- Query block index 7: the output block after the body is the final division of the state after chunks 0..7. -/
theorem out1_H_eq (c : Dev nD) (i : grid1.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
    (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x1x256x64 .bf16) (x1 : Vec F S1x1x2048x64 .bf16) (x2 : Vec F S1x1x2048x64 .bf16) :
    out1_H_3 c i arg3 harg3 arg4 harg4 arg5 harg5 arg6 harg6 arg7 harg7 arg8 harg8 arg9 harg9 hc0 hc1 hc2 hc3 hc4 hc5 hc6 hc7 x0 x1 x2
      = k1_pay9 (vrun (Sf (BitVec.ofNat 32 (i 2).val) x0 x1) (Vf x2) 8).2.2 (vrun (Sf (BitVec.ofNat 32 (i 2).val) x0 x1) (Vf x2) 8).2.1 := by
  unfold out1_H_3
  rw [View.read_writes_eq_canon _ _ _ (cover1_H_3 c i arg3 harg3 arg4 harg4 arg5 harg5 arg6 harg6 arg7 harg7 arg8 harg8 arg9 harg9 hc0 hc1 hc2 hc3 hc4 hc5 hc6 hc7 x0 x1 x2)]
  unfold kernelRun1_H
  dsimp only
  sl_unfold_words
  rw [View.canon_unit_zero hz4]
  simp only [View.readAt_eq_ld, harg3.read_unread, harg4.read_unread, harg5.read_unread, View.ld_unit_zero (S := S1x1x256x64) hz4,
    readCov_cons_unit_zero (S := S256x64) _ hz2, readCov_cons_unit_zero (S := S256x1) _ hz2]
  rfl

end Cert.KernelIdeal.AttnValue

end
-- ==== Proof.AttnHeadsSpec.lean ====
/- The attention region's result as ONE function of the head-major projection array P : [48, 4, 2048, 64] (head slots
   0..15 the queries, 16..31 the keys, 32..47 the values, by head), on the extended reals: at (h, b, i, d) the causal
   softmax row of query i of head h, batch b, applied to channel d of the values. -/
import Idealize.ShloMosaic.PureOps.Ideal
import Idealize.ShloMosaic.Lib.ValueIdx

noncomputable section

open scoped BigOperators

namespace Cert.AttnHeads

open Idealize.ShloMosaic Idealize.ShloMosaic.ValueIdx

/-- Head slot of head `h`'s queries, keys, values in the head-major projection. -/
def hq (h : Fin 16) : Fin 48 := ⟨h.val, by omega⟩
def hk (h : Fin 16) : Fin 48 := ⟨16 + h.val, by omega⟩
def hv (h : Fin 16) : Fin 48 := ⟨32 + h.val, by omega⟩

section
variable (P : (⟨4, ![48, 4, 2048, 64]⟩ : Shape).Idx → EReal)

/-- The masked scaled score of query `i` against key `j`: keys after the query score `⊥`. -/
def rowScore (h : Fin 16) (b : Fin 4) (i j : Fin 2048) : EReal :=
  if j ≤ i then (∑ d : Fin 64, P (ix4 (hq h) b i d) * P (ix4 (hk h) b j d)) * Ideal.ofBits .f32 0x3E000000#32 else ⊥

/-- The attention output at head `h`, batch `b`, query `i`, channel `d`. -/
def attnAt (h : Fin 16) (b : Fin 4) (i : Fin 2048) (d : Fin 64) : EReal :=
  ∑ j : Fin 2048,
    Ideal.div (Ideal.exp (rowScore P h b i j - Finset.univ.sup (rowScore P h b i)))
        (∑ j' : Fin 2048, Ideal.exp (rowScore P h b i j' - Finset.univ.sup (rowScore P h b i)))
      * P (ix4 (hv h) b j d)

/-- The head-major array of attention outputs [16, 4, 2048, 64], index by index. -/
def attnHeads : (⟨4, ![16, 4, 2048, 64]⟩ : Shape).Idx → EReal :=
  fun i => attnAt P (i 0) (i 1) (i 2) (i 3)

theorem attnHeads_ix4 (h : Fin 16) (b : Fin 4) (i : Fin 2048) (d : Fin 64) :
    attnHeads P (ix4 h b i d) = attnAt P h b i d := rfl

end

end Cert.AttnHeads

end
-- ==== Proof.AttnSpec.lean ====
/-
  The specification of causal multi-head self-attention over the extended reals, on literal index
  types: batch `Fin 4`, sequence `Fin 2048`, model width `Fin 1024`, fused projection width
  `Fin 3072`, `Fin 16` heads of `Fin 64` channels.

  * `qkv b s o = (∑ k, x b s k * Wqkv o k) + bqkv o` — the fused projection;
  * `qh`, `kh`, `vh` — its three thirds split into heads: column `h * 64 + d` of the first, second
    and third block of 1024 columns;
  * `score b h i j = (∑ d, qh b h i d * kh b h j d) * scale`, with `scale` the extended real the
    `f32` word `0x3E000000` denotes (one eighth; never evaluated);
  * `masked` — the score where key `j` is not after query `i`, `⊥` elsewhere;
  * `rowMax` — the largest masked score of a row; `e` — the exponential of the masked score minus that
    maximum; `denom` — the row's sum of those; `w = e / denom` — the attention weights;
  * `y b h i d = ∑ j, w b h i j * vh b h j d`; `ymerged` — the heads laid side by side again;
  * `out b s n = (∑ c, ymerged b s c * Wout n c) + bout n` — the output projection.
-/
import Idealize.ShloMosaic.PureOps.Ideal
import Idealize.ShloMosaic.Lib.ValueIdx

noncomputable section

open scoped BigOperators

namespace Cert.AttnSpec

open Idealize.ShloMosaic

/-- The softmax scale: the extended real denoted by the `f32` word `0x3E000000`. -/
def scale : EReal := Ideal.ofBits .f32 0x3E000000#32

/-- Column of head `h`, channel `d` in a width-1024 array: `h * 64 + d`. -/
def hcol (h : Fin 16) (d : Fin 64) : Fin 1024 := ⟨h.val * 64 + d.val, by omega⟩
/-- Column of the query of head `h`, channel `d` in the fused projection: `h * 64 + d`. -/
def qcol (h : Fin 16) (d : Fin 64) : Fin 3072 := ⟨h.val * 64 + d.val, by omega⟩
/-- Column of the key of head `h`, channel `d` in the fused projection: `1024 + h * 64 + d`. -/
def kcol (h : Fin 16) (d : Fin 64) : Fin 3072 := ⟨1024 + h.val * 64 + d.val, by omega⟩
/-- Column of the value of head `h`, channel `d` in the fused projection: `2048 + h * 64 + d`. -/
def vcol (h : Fin 16) (d : Fin 64) : Fin 3072 := ⟨2048 + h.val * 64 + d.val, by omega⟩
/-- The head of a column of a width-1024 array. -/
def colHead (c : Fin 1024) : Fin 16 := ⟨c.val / 64, by omega⟩
/-- The channel of a column of a width-1024 array. -/
def colChan (c : Fin 1024) : Fin 64 := ⟨c.val % 64, Nat.mod_lt _ (by decide)⟩

@[simp] theorem colHead_hcol (h : Fin 16) (d : Fin 64) : colHead (hcol h d) = h := by
  apply Fin.ext; simp only [colHead, hcol]; omega
@[simp] theorem colChan_hcol (h : Fin 16) (d : Fin 64) : colChan (hcol h d) = d := by
  apply Fin.ext; simp only [colChan, hcol]; omega
@[simp] theorem hcol_colHead_colChan (c : Fin 1024) : hcol (colHead c) (colChan c) = c := by
  apply Fin.ext; simp only [colHead, colChan, hcol]; omega

section
variable (x : Fin 4 → Fin 2048 → Fin 1024 → EReal) (Wqkv : Fin 3072 → Fin 1024 → EReal)
  (bqkv : Fin 3072 → EReal) (Wout : Fin 1024 → Fin 1024 → EReal) (bout : Fin 1024 → EReal)

/-- The fused query/key/value projection. -/
def qkv (b : Fin 4) (s : Fin 2048) (o : Fin 3072) : EReal := (∑ k : Fin 1024, x b s k * Wqkv o k) + bqkv o

/-- Queries, by head. -/
def qh (b : Fin 4) (h : Fin 16) (s : Fin 2048) (d : Fin 64) : EReal := qkv x Wqkv bqkv b s (qcol h d)
/-- Keys, by head. -/
def kh (b : Fin 4) (h : Fin 16) (s : Fin 2048) (d : Fin 64) : EReal := qkv x Wqkv bqkv b s (kcol h d)
/-- Values, by head. -/
def vh (b : Fin 4) (h : Fin 16) (s : Fin 2048) (d : Fin 64) : EReal := qkv x Wqkv bqkv b s (vcol h d)

/-- The scaled score of query `i` against key `j`. -/
def score (b : Fin 4) (h : Fin 16) (i j : Fin 2048) : EReal :=
  (∑ d : Fin 64, qh x Wqkv bqkv b h i d * kh x Wqkv bqkv b h j d) * scale

/-- The causal mask: keys after the query score `⊥`. -/
def masked (b : Fin 4) (h : Fin 16) (i j : Fin 2048) : EReal :=
  if j ≤ i then score x Wqkv bqkv b h i j else ⊥

/-- The largest masked score of a row. -/
def rowMax (b : Fin 4) (h : Fin 16) (i : Fin 2048) : EReal :=
  Finset.univ.sup (masked x Wqkv bqkv b h i)

/-- The exponential of a masked score less the row's maximum. -/
def e (b : Fin 4) (h : Fin 16) (i j : Fin 2048) : EReal :=
  Ideal.exp (masked x Wqkv bqkv b h i j - rowMax x Wqkv bqkv b h i)

/-- The row's sum of exponentials. -/
def denom (b : Fin 4) (h : Fin 16) (i : Fin 2048) : EReal := ∑ j : Fin 2048, e x Wqkv bqkv b h i j

/-- The attention weight of key `j` for query `i`. -/
def w (b : Fin 4) (h : Fin 16) (i j : Fin 2048) : EReal :=
  Ideal.div (e x Wqkv bqkv b h i j) (denom x Wqkv bqkv b h i)

/-- The attention output, by head. -/
def y (b : Fin 4) (h : Fin 16) (i : Fin 2048) (d : Fin 64) : EReal :=
  ∑ j : Fin 2048, w x Wqkv bqkv b h i j * vh x Wqkv bqkv b h j d

/-- The heads side by side: column `h * 64 + d` is head `h`, channel `d`. -/
def ymerged (b : Fin 4) (s : Fin 2048) (c : Fin 1024) : EReal :=
  y x Wqkv bqkv b (colHead c) s (colChan c)

theorem ymerged_hcol (b : Fin 4) (s : Fin 2048) (h : Fin 16) (d : Fin 64) :
    ymerged x Wqkv bqkv b s (hcol h d) = y x Wqkv bqkv b h s d := by
  simp only [ymerged, colHead_hcol, colChan_hcol]

/-- The output projection: the whole computation's result. -/
def out (b : Fin 4) (s : Fin 2048) (n : Fin 1024) : EReal :=
  (∑ c : Fin 1024, ymerged x Wqkv bqkv b s c * Wout n c) + bout n

end

end Cert.AttnSpec

end
-- ==== Proof.LibCausalOnlineSoftmax.lean ====
/-
  The online (streaming) softmax-weighted average over a row whose scores may be -inf, on the extended reals.

  A row of Jt * B keys carries scores f (each a real number or -inf, never +inf) and real values g. The
  streaming recurrence (`Cert.Lib.OnlineSoftmax.step` / `run`: running maximum m, normaliser l, accumulator a,
  started at (-inf, 0, 0)) is run over the FIRST J blocks of B keys only. If block 0 holds at least one real
  score and every key past the first J blocks scores -inf (a causal mask: the blocks wholly above the
  diagonal are skipped, and inside the diagonal block the masked keys score -inf), then accumulator / normaliser
  is the plain softmax average over ALL Jt * B keys:

      a / l = sum over all keys i of  exp (f i - max f) / (sum over all keys i' of exp (f i' - max f)) * g i.

  Why: with the running maximum M real (it is, from block 0 on), exp (-inf - M) = exp (-inf) = 0, so a masked
  key adds nothing to the normaliser nor to the accumulator, whether it is walked (inside the diagonal block) or
  skipped (past it); and exp (M - M') * exp (s - M) = exp (s - M') holds for s real or -inf, which is all the
  rescaling step needs. The arithmetic is done on real numbers through `ex s M`, the real number
  exp (s - M) (0 at s = -inf).

  `run_succ_bot` is the invariant, `run_eq_softmax_bot` the statement over the walked blocks alone, and
  `causal_run_eq_softmax` / `causal_run_eq_softmax_of_finite` the statement over the whole row.
-/
import Idealize.ShloMosaic.PureOps.Ideal
import proofs.«102473_j17867063951717_2_alg».proof.Proof.LibOnlineSoftmax

noncomputable section

namespace Cert.Lib.CausalOnlineSoftmax

open Idealize.ShloMosaic
open Cert.Lib.OnlineSoftmax
open scoped BigOperators

/-! ### exp (s - M) as a real number, for s real or -inf -/

/-- The real number exp (s - M): 0 at s = -inf. -/
def ex (s : EReal) (M : ℝ) : ℝ := if s = ⊥ then 0 else Real.exp (s.toReal - M)

theorem ex_bot (M : ℝ) : ex ⊥ M = 0 := if_pos rfl

theorem ex_nonneg (s : EReal) (M : ℝ) : 0 ≤ ex s M := by
  unfold ex; split_ifs
  · exact le_rfl
  · exact (Real.exp_pos _).le

theorem ex_pos {s : EReal} (hs : s ≠ ⊥) (M : ℝ) : 0 < ex s M := by
  unfold ex; rw [if_neg hs]; exact Real.exp_pos _

/-- On the extended reals exp (s - M) is that real number, for every s but +inf. -/
theorem exp_sub_coe {s : EReal} (hs : s ≠ ⊤) (M : ℝ) : Ideal.exp (s - (M : EReal)) = (ex s M : EReal) := by
  induction s using EReal.rec with
  | bot => rw [EReal.bot_sub, Ideal.exp_bot, ex_bot, EReal.coe_zero]
  | coe r => rw [exp_coe_sub, ex, if_neg (EReal.coe_ne_bot r), EReal.toReal_coe]
  | top => exact absurd rfl hs

/-- Moving the reference point: exp (M - M') * exp (s - M) = exp (s - M'). -/
theorem ex_rescale (s : EReal) (M M' : ℝ) : Real.exp (M - M') * ex s M = ex s M' := by
  unfold ex; split_ifs
  · exact mul_zero _
  · rw [← Real.exp_add]; congr 1; ring

/-! ### Suprema of scores that are real or -inf -/

theorem sup_ne_top {ι : Type*} (t : Finset ι) (s : ι → EReal) (hs : ∀ n, s n ≠ ⊤) : t.sup s ≠ ⊤ :=
  ne_of_lt ((Finset.sup_lt_iff (bot_lt_top)).2 fun n _ => lt_top_iff_ne_top.2 (hs n))

/-- The maximum of a real number and an extended real that is not +inf is a real number. -/
theorem exists_max_coe (M : ℝ) {x : EReal} (hx : x ≠ ⊤) : ∃ M' : ℝ, max (M : EReal) x = (M' : EReal) := by
  induction x using EReal.rec with
  | bot => exact ⟨M, max_eq_left bot_le⟩
  | coe r => exact ⟨max M r, (coe_max M r).symm⟩
  | top => exact absurd rfl hx

/-- A block with a real score and no +inf has a real maximum. -/
theorem exists_sup_coe_of_ne_bot {B : ℕ} (s : Fin B → EReal) (hs : ∀ n, s n ≠ ⊤) (h0 : ∃ n, s n ≠ ⊥) :
    ∃ m : ℝ, Finset.univ.sup s = (m : EReal) := by
  obtain ⟨n, hn⟩ := h0
  have h1 : Finset.univ.sup s ≠ ⊤ := sup_ne_top _ s hs
  have h2 : Finset.univ.sup s ≠ ⊥ := fun h =>
    hn (le_bot_iff.1 (h ▸ Finset.le_sup (f := s) (Finset.mem_univ n)))
  exact ⟨(Finset.univ.sup s).toReal, (EReal.coe_toReal h1 h2).symm⟩

/-! ### One step -/

/-- The first block: from (-inf, 0, 0) the state becomes the block's own maximum, normaliser and accumulator. -/
theorem step_bot' {B : ℕ} (s : Fin B → EReal) (v : Fin B → ℝ) (hs : ∀ n, s n ≠ ⊤) (m : ℝ)
    (hm : Finset.univ.sup s = (m : EReal)) :
    step s (fun n => (v n : EReal)) (⊥, 0, 0)
      = ((m : EReal), ((∑ n, ex (s n) m : ℝ) : EReal), ((∑ n, ex (s n) m * v n : ℝ) : EReal)) := by
  have he : ∀ n, Ideal.exp (s n - (m : EReal)) = (ex (s n) m : EReal) := fun n => exp_sub_coe (hs n) m
  simp only [step, hm, max_bot_left, EReal.bot_sub, Ideal.exp_bot, mul_zero, zero_add, he, coe_sum, EReal.coe_mul]

/-- A later block: from a real state the new state is real, rescaled by exp (old max - new max). -/
theorem step_coe' {B : ℕ} (s : Fin B → EReal) (v : Fin B → ℝ) (hs : ∀ n, s n ≠ ⊤) (M M' L A : ℝ)
    (hM' : max (M : EReal) (Finset.univ.sup s) = (M' : EReal)) :
    step s (fun n => (v n : EReal)) ((M : EReal), (L : EReal), (A : EReal))
      = ((M' : EReal),
          ((Real.exp (M - M') * L + ∑ n, ex (s n) M' : ℝ) : EReal),
          ((Real.exp (M - M') * A + ∑ n, ex (s n) M' * v n : ℝ) : EReal)) := by
  have he : ∀ n, Ideal.exp (s n - (M' : EReal)) = (ex (s n) M' : EReal) := fun n => exp_sub_coe (hs n) M'
  simp only [step, hM', exp_coe_sub, he, EReal.coe_add, EReal.coe_mul, coe_sum]

/-- exp (M - M') * sum of exp (S - M) * W = sum of exp (S - M') * W. -/
theorem rescale' {B : ℕ} (S : ℕ → Fin B → EReal) (W : ℕ → Fin B → ℝ) (k : ℕ) (M M' : ℝ) :
    Real.exp (M - M') * ∑ j ∈ Finset.range k, ∑ n, ex (S j n) M * W j n
      = ∑ j ∈ Finset.range k, ∑ n, ex (S j n) M' * W j n := by
  rw [Finset.mul_sum]
  refine Finset.sum_congr rfl fun j _ => ?_
  rw [Finset.mul_sum]
  refine Finset.sum_congr rfl fun n _ => ?_
  rw [← mul_assoc, ex_rescale]

theorem rescale_one' {B : ℕ} (S : ℕ → Fin B → EReal) (k : ℕ) (M M' : ℝ) :
    Real.exp (M - M') * ∑ j ∈ Finset.range k, ∑ n, ex (S j n) M
      = ∑ j ∈ Finset.range k, ∑ n, ex (S j n) M' := by
  simpa using rescale' S (fun _ _ => 1) k M M'

/-! ### The invariant -/

/-- After k + 1 blocks of scores that are real or -inf, block 0 holding a real one, the state is
    (max, sum of exp (S - max), sum of exp (S - max) * V) over those blocks, all three real. -/
theorem run_succ_bot {B : ℕ} (S : ℕ → Fin B → EReal) (V : ℕ → Fin B → ℝ) (hS : ∀ j n, S j n ≠ ⊤)
    (h0 : ∃ n, S 0 n ≠ ⊥) (k : ℕ) :
    ∃ M : ℝ,
      ((Finset.range (k + 1)).sup fun j' => Finset.univ.sup (S j')) = (M : EReal) ∧
      run S (fun j n => (V j n : EReal)) (k + 1)
        = ((M : EReal),
            ((∑ j ∈ Finset.range (k + 1), ∑ n, ex (S j n) M : ℝ) : EReal),
            ((∑ j ∈ Finset.range (k + 1), ∑ n, ex (S j n) M * V j n : ℝ) : EReal)) := by
  induction k with
  | zero =>
    obtain ⟨m, hm⟩ := exists_sup_coe_of_ne_bot (S 0) (hS 0) h0
    refine ⟨m, ?_, ?_⟩
    · simpa using hm
    · show step _ _ (⊥, 0, 0) = _
      rw [step_bot' (S 0) (V 0) (hS 0) m hm]
      simp
  | succ k ih =>
    obtain ⟨M, hM, hrun⟩ := ih
    obtain ⟨M', hM'⟩ := exists_max_coe M (sup_ne_top Finset.univ (S (k + 1)) (hS (k + 1)))
    refine ⟨M', ?_, ?_⟩
    · rw [Finset.range_add_one, Finset.sup_insert, hM, sup_comm]
      exact hM'
    · show step _ _ (run _ _ (k + 1)) = _
      rw [hrun, step_coe' (S (k + 1)) (V (k + 1)) (hS (k + 1)) M M' _ _ hM',
        rescale_one' S (k + 1) M M', rescale' S V (k + 1) M M',
        Finset.sum_range_succ (fun j => ∑ n, ex (S j n) M') (k + 1),
        Finset.sum_range_succ (fun j => ∑ n, ex (S j n) M' * V j n) (k + 1)]

/-- The normaliser after k + 1 blocks is positive. -/
theorem norm_pos {B : ℕ} (S : ℕ → Fin B → EReal) (h0 : ∃ n, S 0 n ≠ ⊥) (k : ℕ) (M : ℝ) :
    0 < ∑ j ∈ Finset.range (k + 1), ∑ n, ex (S j n) M := by
  obtain ⟨n, hn⟩ := h0
  refine Finset.sum_pos' (fun j _ => Finset.sum_nonneg fun n _ => ex_nonneg _ _)
    ⟨0, Finset.mem_range.2 (Nat.succ_pos k), ?_⟩
  exact Finset.sum_pos' (fun n _ => ex_nonneg _ _) ⟨n, Finset.mem_univ n, ex_pos hn M⟩

/-! ### Over the walked blocks -/

/-- The recurrence over J >= 1 blocks of scores that are real or -inf (block 0 holding a real one) and real
    values ends with accumulator / normaliser equal to the softmax-weighted sum of the values over those blocks. -/
theorem run_eq_softmax_bot {B : ℕ} (S : ℕ → Fin B → EReal) (V : ℕ → Fin B → ℝ) (hS : ∀ j n, S j n ≠ ⊤)
    (h0 : ∃ n, S 0 n ≠ ⊥) (J : ℕ) (hJ : 0 < J) :
    Ideal.div (run S (fun j n => (V j n : EReal)) J).2.2 (run S (fun j n => (V j n : EReal)) J).2.1
      = ∑ j ∈ Finset.range J, ∑ n : Fin B,
          Ideal.div (Ideal.exp (S j n - (Finset.range J).sup fun j' => Finset.univ.sup (S j')))
                    (∑ j' ∈ Finset.range J, ∑ n' : Fin B,
                      Ideal.exp (S j' n' - (Finset.range J).sup fun j'' => Finset.univ.sup (S j'')))
            * (V j n : EReal) := by
  obtain ⟨k, rfl⟩ : ∃ k, J = k + 1 := ⟨J - 1, by omega⟩
  obtain ⟨M, hM, hrun⟩ := run_succ_bot S V hS h0 k
  have hL : (∑ j ∈ Finset.range (k + 1), ∑ n : Fin B, ex (S j n) M) ≠ 0 := ne_of_gt (norm_pos S h0 k M)
  have he : ∀ j n, Ideal.exp (S j n - (M : EReal)) = (ex (S j n) M : EReal) := fun j n => exp_sub_coe (hS j n) M
  rw [hrun, hM]
  simp only [he, ← coe_sum, Ideal.div_coe hL, ← EReal.coe_mul]
  congr 1
  rw [Finset.sum_mul]
  refine Finset.sum_congr rfl fun j _ => ?_
  rw [Finset.sum_mul]
  refine Finset.sum_congr rfl fun n _ => ?_
  ring

/-! ### Over the whole row -/

/-- The recurrence reads only the blocks it walks. -/
theorem run_congr {B : ℕ} (S S' V V' : ℕ → Fin B → EReal) (J : ℕ)
    (hS : ∀ j, j < J → S j = S' j) (hV : ∀ j, j < J → V j = V' j) : run S V J = run S' V' J := by
  induction J with
  | zero => rfl
  | succ J ih =>
    show step (S J) (V J) (run S V J) = step (S' J) (V' J) (run S' V' J)
    rw [hS J (Nat.lt_succ_self J), hV J (Nat.lt_succ_self J),
      ih (fun j hj => hS j (Nat.lt_succ_of_lt hj)) (fun j hj => hV j (Nat.lt_succ_of_lt hj))]

/-- A row of Jt * B scores cut into blocks of B: -inf past the row's end. -/
def cut {Jt B : ℕ} (f : Fin (Jt * B) → EReal) (j : ℕ) (n : Fin B) : EReal :=
  if h : j * B + n < Jt * B then f ⟨j * B + n, h⟩ else ⊥

/-- A row of Jt * B real values cut into blocks of B: 0 past the row's end. -/
def cutR {Jt B : ℕ} (g : Fin (Jt * B) → ℝ) (j : ℕ) (n : Fin B) : ℝ :=
  if h : j * B + n < Jt * B then g ⟨j * B + n, h⟩ else 0

theorem cut_eq {Jt B : ℕ} (f : Fin (Jt * B) → EReal) (j : ℕ) (n : Fin B) (h : j * B + n < Jt * B) :
    f ⟨j * B + n, h⟩ = cut f j n := by unfold cut; rw [dif_pos h]

theorem cutR_eq {Jt B : ℕ} (g : Fin (Jt * B) → ℝ) (j : ℕ) (n : Fin B) (h : j * B + n < Jt * B) :
    g ⟨j * B + n, h⟩ = cutR g j n := by unfold cutR; rw [dif_pos h]

theorem cut_ne_top {Jt B : ℕ} (f : Fin (Jt * B) → EReal) (hf : ∀ i, f i ≠ ⊤) (j : ℕ) (n : Fin B) :
    cut f j n ≠ ⊤ := by
  unfold cut; split_ifs
  · exact hf _
  · exact bot_ne_top

/-- Past block J the cut row is -inf, when every key from J * B on scores -inf. -/
theorem cut_eq_bot {Jt B : ℕ} (f : Fin (Jt * B) → EReal) (J : ℕ)
    (hbot : ∀ i : Fin (Jt * B), J * B ≤ (i : ℕ) → f i = ⊥) (j : ℕ) (hj : J ≤ j) (n : Fin B) :
    cut f j n = ⊥ := by
  unfold cut; split_ifs with h
  · exact hbot _ (le_trans (Nat.mul_le_mul_right B hj) (Nat.le_add_right _ _))
  · rfl

/-- THE CAUSAL ROW. Scores f (real or -inf) and real values g on Jt * B keys; the recurrence walks the first
    J blocks of B (S, V: what it reads there); block 0 holds a real score; every key past the walked blocks
    scores -inf. Then accumulator / normaliser is the softmax-weighted sum of g over all Jt * B keys. -/
theorem causal_run_eq_softmax {Jt B : ℕ} (f : Fin (Jt * B) → EReal) (g : Fin (Jt * B) → ℝ)
    (hf : ∀ i, f i ≠ ⊤) (J : ℕ) (hJ : 0 < J) (hJt : J ≤ Jt)
    (h0 : ∃ i : Fin (Jt * B), (i : ℕ) < B ∧ f i ≠ ⊥)
    (hbot : ∀ i : Fin (Jt * B), J * B ≤ (i : ℕ) → f i = ⊥)
    (S V : ℕ → Fin B → EReal)
    (hS : ∀ (j : ℕ) (n : Fin B) (h : j * B + n < Jt * B), j < J → S j n = f ⟨j * B + n, h⟩)
    (hV : ∀ (j : ℕ) (n : Fin B) (h : j * B + n < Jt * B), j < J → V j n = (g ⟨j * B + n, h⟩ : EReal)) :
    Ideal.div (run S V J).2.2 (run S V J).2.1
      = ∑ i, Ideal.div (Ideal.exp (f i - Finset.univ.sup f)) (∑ i', Ideal.exp (f i' - Finset.univ.sup f))
              * (g i : EReal) := by
  have hlt : ∀ j, j < J → ∀ n : Fin B, j * B + n < Jt * B := fun j hj n =>
    block_index_lt (lt_of_lt_of_le hj hJt) n
  have h0' : ∃ n, cut f 0 n ≠ ⊥ := by
    obtain ⟨i, hiB, hi⟩ := h0
    refine ⟨⟨i, hiB⟩, ?_⟩
    have h : 0 * B + ((⟨i, hiB⟩ : Fin B) : ℕ) < Jt * B := by simpa using i.2
    rw [← cut_eq f 0 ⟨i, hiB⟩ h]
    have : (⟨0 * B + ((⟨i, hiB⟩ : Fin B) : ℕ), h⟩ : Fin (Jt * B)) = i := Fin.ext (by simp)
    rw [this]; exact hi
  -- the recurrence on the cut row
  have hrunEq : run S V J = run (cut f) (fun j n => (cutR g j n : EReal)) J := by
    refine run_congr _ _ _ _ J (fun j hj => funext fun n => ?_) (fun j hj => funext fun n => ?_)
    · rw [hS j n (hlt j hj n) hj, cut_eq f j n (hlt j hj n)]
    · rw [hV j n (hlt j hj n) hj, cutR_eq g j n (hlt j hj n)]
  obtain ⟨k, rfl⟩ : ∃ k, J = k + 1 := ⟨J - 1, by omega⟩
  obtain ⟨M, hM, hrun⟩ := run_succ_bot (cut f) (cutR g) (cut_ne_top f hf) h0' k
  have hL : (∑ j ∈ Finset.range (k + 1), ∑ n : Fin B, ex (cut f j n) M) ≠ 0 :=
    ne_of_gt (norm_pos (cut f) h0' k M)
  have hsub : Finset.range (k + 1) ⊆ Finset.range Jt := Finset.range_mono hJt
  have hpast : ∀ j, j ∉ Finset.range (k + 1) → ∀ n : Fin B, cut f j n = ⊥ := fun j hj n =>
    cut_eq_bot f (k + 1) hbot j (not_lt.1 fun h => hj (Finset.mem_range.2 h)) n
  -- the row's maximum is the walked blocks' maximum
  have hsup : Finset.univ.sup f = (M : EReal) := by
    rw [regroup_sup f (cut f) (cut_eq f), ← hM]
    apply le_antisymm
    · refine Finset.sup_le fun j _ => ?_
      by_cases hj : j ∈ Finset.range (k + 1)
      · exact Finset.le_sup (f := fun j' => Finset.univ.sup (cut f j')) hj
      · refine le_trans (Finset.sup_le fun n _ => ?_) bot_le
        rw [hpast j hj n]
    · exact Finset.sup_mono hsub
  have he : ∀ i, Ideal.exp (f i - (M : EReal)) = (ex (f i) M : EReal) := fun i => exp_sub_coe (hf i) M
  -- sums over the row are sums over the walked blocks
  have hsumL : ∑ i, ex (f i) M = ∑ j ∈ Finset.range (k + 1), ∑ n : Fin B, ex (cut f j n) M := by
    rw [regroup_sum (fun i => ex (f i) M) (fun j n => ex (cut f j n) M) (fun j n hjn => by simp only [cut_eq f j n hjn])]
    refine (Finset.sum_subset hsub fun j _ hj => ?_).symm
    refine Finset.sum_eq_zero fun n _ => ?_
    rw [hpast j hj n, ex_bot]
  rw [hrunEq, hrun, hsup]
  simp only [he, ← coe_sum, hsumL, Ideal.div_coe hL, ← EReal.coe_mul]
  congr 1
  rw [regroup_sum
    (fun i => ex (f i) M * (1 / ∑ j ∈ Finset.range (k + 1), ∑ n : Fin B, ex (cut f j n) M) * g i)
    (fun j n => ex (cut f j n) M * (1 / ∑ j ∈ Finset.range (k + 1), ∑ n : Fin B, ex (cut f j n) M) * cutR g j n)
    (fun j n hjn => by simp only [cut_eq f j n hjn, cutR_eq g j n hjn])]
  rw [← Finset.sum_subset hsub (fun j _ hj => Finset.sum_eq_zero fun n _ => by
    rw [hpast j hj n, ex_bot, zero_mul, zero_mul])]
  rw [Finset.sum_mul]
  refine Finset.sum_congr rfl fun j _ => ?_
  rw [Finset.sum_mul]
  refine Finset.sum_congr rfl fun n _ => ?_
  ring

/-- The same with the values given as extended reals that are finite. -/
theorem causal_run_eq_softmax_of_finite {Jt B : ℕ} (f g : Fin (Jt * B) → EReal)
    (hf : ∀ i, f i ≠ ⊤) (hg : ∀ i, g i ≠ ⊤ ∧ g i ≠ ⊥) (J : ℕ) (hJ : 0 < J) (hJt : J ≤ Jt)
    (h0 : ∃ i : Fin (Jt * B), (i : ℕ) < B ∧ f i ≠ ⊥)
    (hbot : ∀ i : Fin (Jt * B), J * B ≤ (i : ℕ) → f i = ⊥)
    (S V : ℕ → Fin B → EReal)
    (hS : ∀ (j : ℕ) (n : Fin B) (h : j * B + n < Jt * B), j < J → S j n = f ⟨j * B + n, h⟩)
    (hV : ∀ (j : ℕ) (n : Fin B) (h : j * B + n < Jt * B), j < J → V j n = g ⟨j * B + n, h⟩) :
    Ideal.div (run S V J).2.2 (run S V J).2.1
      = ∑ i, Ideal.div (Ideal.exp (f i - Finset.univ.sup f)) (∑ i', Ideal.exp (f i' - Finset.univ.sup f))
              * g i := by
  have hg' : ∀ i, ((g i).toReal : EReal) = g i := fun i => EReal.coe_toReal (hg i).1 (hg i).2
  rw [causal_run_eq_softmax f (fun i => (g i).toReal) hf J hJ hJt h0 hbot S V hS
    (fun j n h hj => by rw [hV j n h hj, hg'])]
  simp only [hg']

end Cert.Lib.CausalOnlineSoftmax

end
-- ==== Proof.AttnSpecOnline.lean ====
/-
  The attention output of the specification as the streaming recurrence: for finite inputs, row `i` of head
  `(b, h)`, channel `d`, is accumulator / normaliser of the online-softmax recurrence walked over the first
  `i / 256 + 1` blocks of 256 keys — the blocks not wholly after the query — with the masked scores of the row
  and the values' channel `d` as its data.

  What makes the general statement apply: every quantity up to the scores is a real number when the inputs are
  (sums and products of reals; the scale is the real 1/8); a masked score is therefore real or minus infinity; key 0
  is never masked; and every key from block `i / 256 + 1` on is after the query, so masked.
-/
import proofs.«102473_j17867063951717_2_alg».proof.Proof.AttnSpec
import proofs.«102473_j17867063951717_2_alg».proof.Proof.LibCausalOnlineSoftmax

noncomputable section

open scoped BigOperators

namespace Cert.AttnSpec

open Idealize.ShloMosaic Cert.Lib.OnlineSoftmax Cert.Lib.CausalOnlineSoftmax

/-! ## Real numbers among the extended reals -/

/-- An extended real that is a real number. -/
def IsReal (x : EReal) : Prop := ∃ r : ℝ, x = (r : EReal)

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (h1 : x ≠ ⊤) (h2 : x ≠ ⊥) : IsReal x :=
  ⟨x.toReal, (EReal.coe_toReal h1 h2).symm⟩
theorem isReal_iff {x : EReal} : IsReal x ↔ x ≠ ⊤ ∧ x ≠ ⊥ :=
  ⟨fun h => ⟨h.ne_top, h.ne_bot⟩, fun h => isReal_of_ne h.1 h.2⟩
theorem IsReal.add {x y : EReal} (hx : IsReal x) (hy : IsReal y) : IsReal (x + y) := by
  obtain ⟨r, rfl⟩ := hx; obtain ⟨r', rfl⟩ := hy; exact ⟨r + r', (EReal.coe_add r r').symm⟩
theorem IsReal.mul {x y : EReal} (hx : IsReal x) (hy : IsReal y) : IsReal (x * y) := by
  obtain ⟨r, rfl⟩ := hx; obtain ⟨r', rfl⟩ := hy; exact ⟨r * r', (EReal.coe_mul r r').symm⟩
theorem isReal_sum {ι : Type*} [Fintype ι] (f : ι → EReal) (hf : ∀ i, IsReal (f i)) : IsReal (∑ i, f i) := by
  choose r hr using hf
  exact ⟨∑ i, r i, by rw [coe_sum]; exact Finset.sum_congr rfl fun i _ => hr i⟩

/-- The scale is the real number one eighth. -/
theorem scale_eq : scale = (((1 : ℝ) / 8 : ℝ) : EReal) := by
  simp [scale, Ideal.ofBits, Ideal.ieee, -EReal.coe_mul]; norm_num

theorem scale_isReal : IsReal scale := ⟨1 / 8, scale_eq⟩

/-! ## Finite inputs give real projections and scores -/

section
variable (x : Fin 4 → Fin 2048 → Fin 1024 → EReal) (Wqkv : Fin 3072 → Fin 1024 → EReal)
  (bqkv : Fin 3072 → EReal)
  (hx : ∀ b s k, IsReal (x b s k)) (hW : ∀ o k, IsReal (Wqkv o k)) (hb : ∀ o, IsReal (bqkv o))

include hx hW hb

theorem qkv_isReal (b : Fin 4) (s : Fin 2048) (o : Fin 3072) : IsReal (qkv x Wqkv bqkv b s o) :=
  (isReal_sum _ fun k => (hx b s k).mul (hW o k)).add (hb o)

theorem qh_isReal (b : Fin 4) (h : Fin 16) (s : Fin 2048) (d : Fin 64) : IsReal (qh x Wqkv bqkv b h s d) :=
  qkv_isReal x Wqkv bqkv hx hW hb b s _
theorem kh_isReal (b : Fin 4) (h : Fin 16) (s : Fin 2048) (d : Fin 64) : IsReal (kh x Wqkv bqkv b h s d) :=
  qkv_isReal x Wqkv bqkv hx hW hb b s _
theorem vh_isReal (b : Fin 4) (h : Fin 16) (s : Fin 2048) (d : Fin 64) : IsReal (vh x Wqkv bqkv b h s d) :=
  qkv_isReal x Wqkv bqkv hx hW hb b s _

theorem score_isReal (b : Fin 4) (h : Fin 16) (i j : Fin 2048) : IsReal (score x Wqkv bqkv b h i j) :=
  (isReal_sum _ fun d => (qh_isReal x Wqkv bqkv hx hW hb b h i d).mul
    (kh_isReal x Wqkv bqkv hx hW hb b h j d)).mul scale_isReal

/-- A masked score is a real number or minus infinity. -/
theorem masked_ne_top (b : Fin 4) (h : Fin 16) (i j : Fin 2048) : masked x Wqkv bqkv b h i j ≠ ⊤ := by
  unfold masked; split_ifs
  · exact (score_isReal x Wqkv bqkv hx hW hb b h i j).ne_top
  · exact bot_ne_top

/-- A key not after the query keeps its real score. -/
theorem masked_ne_bot_of_le (b : Fin 4) (h : Fin 16) (i j : Fin 2048) (hji : j ≤ i) :
    masked x Wqkv bqkv b h i j ≠ ⊥ := by
  unfold masked; rw [if_pos hji]
  exact (score_isReal x Wqkv bqkv hx hW hb b h i j).ne_bot

omit hx hW hb in
/-- A key after the query is masked. -/
theorem masked_eq_bot_of_lt (b : Fin 4) (h : Fin 16) (i j : Fin 2048) (hij : i < j) :
    masked x Wqkv bqkv b h i j = ⊥ := by
  unfold masked; rw [if_neg (not_le.2 hij)]

/-! ## The attention output as the streaming recurrence -/

/-- Row `i`'s output at channel `d` is accumulator / normaliser of the recurrence over the first `i / 256 + 1`
    blocks of 256 keys, fed the row's masked scores and the values' channel `d`. -/
theorem y_eq_online (b : Fin 4) (h : Fin 16) (i : Fin 2048) (d : Fin 64) (S V : ℕ → Fin 256 → EReal)
    (hS : ∀ (j : ℕ) (n : Fin 256) (hjn : j * 256 + n < 2048), j < i.val / 256 + 1 →
      S j n = masked x Wqkv bqkv b h i ⟨j * 256 + n, hjn⟩)
    (hV : ∀ (j : ℕ) (n : Fin 256) (hjn : j * 256 + n < 2048), j < i.val / 256 + 1 →
      V j n = vh x Wqkv bqkv b h ⟨j * 256 + n, hjn⟩ d) :
    Ideal.div (run S V (i.val / 256 + 1)).2.2 (run S V (i.val / 256 + 1)).2.1 = y x Wqkv bqkv b h i d := by
  have hi := i.isLt
  have key := causal_run_eq_softmax_of_finite (Jt := 8) (B := 256)
    (fun j : Fin (8 * 256) => masked x Wqkv bqkv b h i j) (fun j : Fin (8 * 256) => vh x Wqkv bqkv b h j d)
    (fun j => masked_ne_top x Wqkv bqkv hx hW hb b h i j)
    (fun j => ⟨(vh_isReal x Wqkv bqkv hx hW hb b h j d).ne_top, (vh_isReal x Wqkv bqkv hx hW hb b h j d).ne_bot⟩)
    (i.val / 256 + 1) (Nat.succ_pos _) (by omega)
    ⟨⟨0, by decide⟩, by decide, masked_ne_bot_of_le x Wqkv bqkv hx hW hb b h i ⟨0, by decide⟩ (Fin.mk_le_of_le_val (Nat.zero_le _))⟩
    (fun j hj => masked_eq_bot_of_lt x Wqkv bqkv b h i j (by
      show i.val < j.val
      have := Nat.lt_succ_of_le (Nat.le_refl (i.val / 256)); omega))
    S V hS hV
  rw [key]
  rfl

end

end Cert.AttnSpec

end
-- ==== Proof.IdealAttnValue.lean ====
/- What the attention region leaves in its output array, as ONE function of the head-major projection array it reads,
   on the extended reals: each row is the causal softmax average of the values. A point (batch, head, query block qi)
   folds the key chunks 0..qi into the running state; read at a query row and a channel that is the streaming softmax
   recurrence over the first qi + 1 blocks of the row's masked scores, whose quotient accumulator / normaliser is the
   softmax average over ALL keys (the keys of the later chunks score -inf). Then from blocks to the array. -/
import proofs.«102473_j17867063951717_2_alg».proof.Proof.IdealAttnCases
import proofs.«102473_j17867063951717_2_alg».proof.Proof.AttnHeadsSpec
import proofs.«102473_j17867063951717_2_alg».proof.Proof.AttnSpecOnline
import proofs.«102473_j17867063951717_2_alg».proof.Proof.LibCausalOnlineSoftmax
import Idealize.ShloMosaic.Lib.Pipeline.Value
import Idealize.ShloMosaic.Lib.ValueIdx
import Idealize.ShloMosaic.Lib.Tactic

set_option maxRecDepth 16384

noncomputable section

open scoped BigOperators

namespace Cert.KernelIdeal.AttnValue

open Cert.KernelIdeal Cert.KernelIdeal.Gen Cert.KernelIdeal.Attn Cert.AttnHeads
open Idealize.ShloMosaic Idealize.ShloMosaic.TcCoe Idealize.ShloMosaic.ValueIdx Idealize.SL.Sem
open Idealize.ShloMosaic.Pipeline (Dat)
open Cert.Lib.OnlineSoftmax

/-! ## The state after p chunks, read at a row: the streaming recurrence -/

theorem vrun_row (S : ℕ → FVec Ideal S256x256 .f32) (Vv : ℕ → FVec Ideal S256x64 .bf16) (r : Fin 256) (d : Fin 64) (p : ℕ) :
    ((vrun S Vv p).1 (ix2 r (0 : Fin 1)), (vrun S Vv p).2.1 (ix2 r (0 : Fin 1)), (vrun S Vv p).2.2 (ix2 r d))
      = run (fun j (n : Fin 256) => S j (ix2 r n)) (fun j (n : Fin 256) => Vv j (ix2 n d)) p := by
  induction p with
  | zero =>
    show (k1_pay59 (F := Ideal) (ix2 r (0 : Fin 1)), k1_pay60 (F := Ideal) (ix2 r (0 : Fin 1)), k1_pay61 (F := Ideal) (ix2 r d)) = (⊥, 0, 0)
    rw [pay59_apply, pay60_apply, pay61_apply]
  | succ p ih =>
    show (k1_pay2 (cMax (S p) (vrun S Vv p).1) (ix2 r (0 : Fin 1)), cL (S p) (vrun S Vv p).1 (vrun S Vv p).2.1 (ix2 r (0 : Fin 1)),
        k1_pay1 (Vv p) (cAlpha (S p) (vrun S Vv p).1) (cP (S p) (vrun S Vv p).1) (vrun S Vv p).2.2 (ix2 r d))
      = step _ _ (run _ _ p)
    rw [chunk_step, ih]

/-- Chunk `p` of a key (or value) block at row `n` is the block's row `256 p + n`. -/
theorem kc_apply (x : Vec Ideal S1x1x2048x64 .bf16) (p : ℕ) (hp : p < 8) (n : Fin 256) (d : Fin 64) (j : Fin 2048)
    (hj : j.val = p * 256 + n.val) : kc x p (ix4 (0 : Fin 1) (0 : Fin 1) n d) = x (ix4 (0 : Fin 1) (0 : Fin 1) j d) := by
  interval_cases p
  · show x ((Rect.unit (s := S1x1x2048x64) ![0, 0, 0, 0] S1x1x256x64.size inb_S1x1x2048x64_S1x1x256x64_0_0_0_0).emb (ix4 (0 : Fin 1) (0 : Fin 1) n d)) = _
    refine congrArg x (funext fun a => Fin.ext ?_)
    match a with
    | ⟨0, _⟩ => rfl
    | ⟨1, _⟩ => rfl
    | ⟨2, _⟩ => show 0 + 1 * n.val = j.val; omega
    | ⟨3, _⟩ => show 0 + 1 * d.val = d.val; omega
  · show x ((Rect.unit (s := S1x1x2048x64) ![0, 0, 256, 0] S1x1x256x64.size inb_S1x1x2048x64_S1x1x256x64_0_0_256_0).emb (ix4 (0 : Fin 1) (0 : Fin 1) n d)) = _
    refine congrArg x (funext fun a => Fin.ext ?_)
    match a with
    | ⟨0, _⟩ => rfl
    | ⟨1, _⟩ => rfl
    | ⟨2, _⟩ => show 256 + 1 * n.val = j.val; omega
    | ⟨3, _⟩ => show 0 + 1 * d.val = d.val; omega
  · show x ((Rect.unit (s := S1x1x2048x64) ![0, 0, 512, 0] S1x1x256x64.size inb_S1x1x2048x64_S1x1x256x64_0_0_512_0).emb (ix4 (0 : Fin 1) (0 : Fin 1) n d)) = _
    refine congrArg x (funext fun a => Fin.ext ?_)
    match a with
    | ⟨0, _⟩ => rfl
    | ⟨1, _⟩ => rfl
    | ⟨2, _⟩ => show 512 + 1 * n.val = j.val; omega
    | ⟨3, _⟩ => show 0 + 1 * d.val = d.val; omega
  · show x ((Rect.unit (s := S1x1x2048x64) ![0, 0, 768, 0] S1x1x256x64.size inb_S1x1x2048x64_S1x1x256x64_0_0_768_0).emb (ix4 (0 : Fin 1) (0 : Fin 1) n d)) = _
    refine congrArg x (funext fun a => Fin.ext ?_)
    match a with
    | ⟨0, _⟩ => rfl
    | ⟨1, _⟩ => rfl
    | ⟨2, _⟩ => show 768 + 1 * n.val = j.val; omega
    | ⟨3, _⟩ => show 0 + 1 * d.val = d.val; omega
  · show x ((Rect.unit (s := S1x1x2048x64) ![0, 0, 1024, 0] S1x1x256x64.size inb_S1x1x2048x64_S1x1x256x64_0_0_1024_0).emb (ix4 (0 : Fin 1) (0 : Fin 1) n d)) = _
    refine congrArg x (funext fun a => Fin.ext ?_)
    match a with
    | ⟨0, _⟩ => rfl
    | ⟨1, _⟩ => rfl
    | ⟨2, _⟩ => show 1024 + 1 * n.val = j.val; omega
    | ⟨3, _⟩ => show 0 + 1 * d.val = d.val; omega
  · show x ((Rect.unit (s := S1x1x2048x64) ![0, 0, 1280, 0] S1x1x256x64.size inb_S1x1x2048x64_S1x1x256x64_0_0_1280_0).emb (ix4 (0 : Fin 1) (0 : Fin 1) n d)) = _
    refine congrArg x (funext fun a => Fin.ext ?_)
    match a with
    | ⟨0, _⟩ => rfl
    | ⟨1, _⟩ => rfl
    | ⟨2, _⟩ => show 1280 + 1 * n.val = j.val; omega
    | ⟨3, _⟩ => show 0 + 1 * d.val = d.val; omega
  · show x ((Rect.unit (s := S1x1x2048x64) ![0, 0, 1536, 0] S1x1x256x64.size inb_S1x1x2048x64_S1x1x256x64_0_0_1536_0).emb (ix4 (0 : Fin 1) (0 : Fin 1) n d)) = _
    refine congrArg x (funext fun a => Fin.ext ?_)
    match a with
    | ⟨0, _⟩ => rfl
    | ⟨1, _⟩ => rfl
    | ⟨2, _⟩ => show 1536 + 1 * n.val = j.val; omega
    | ⟨3, _⟩ => show 0 + 1 * d.val = d.val; omega
  · show x ((Rect.unit (s := S1x1x2048x64) ![0, 0, 1792, 0] S1x1x256x64.size inb_S1x1x2048x64_S1x1x256x64_0_0_1792_0).emb (ix4 (0 : Fin 1) (0 : Fin 1) n d)) = _
    refine congrArg x (funext fun a => Fin.ext ?_)
    match a with
    | ⟨0, _⟩ => rfl
    | ⟨1, _⟩ => rfl
    | ⟨2, _⟩ => show 1792 + 1 * n.val = j.val; omega
    | ⟨3, _⟩ => show 0 + 1 * d.val = d.val; omega

/-! ## A row of the projection: real scores, -inf after the query -/

section Row
variable (P : S48x4x2048x64.Idx → EReal) (hreal : ∀ i, P i ≠ ⊤ ∧ P i ≠ ⊥)
include hreal

theorem real_of (i : S48x4x2048x64.Idx) : Cert.AttnSpec.IsReal (P i) := Cert.AttnSpec.isReal_of_ne (hreal i).1 (hreal i).2

theorem dot_real (h : Fin 16) (b : Fin 4) (i j : Fin 2048) :
    Cert.AttnSpec.IsReal ((∑ d : Fin 64, P (ix4 (hq h) b i d) * P (ix4 (hk h) b j d)) * Ideal.ofBits .f32 0x3E000000#32) :=
  (Cert.AttnSpec.isReal_sum _ fun d => (real_of P hreal _).mul (real_of P hreal _)).mul Cert.AttnSpec.scale_isReal

theorem rowScore_ne_top (h : Fin 16) (b : Fin 4) (i j : Fin 2048) : rowScore P h b i j ≠ ⊤ := by
  unfold rowScore
  split
  · exact (dot_real P hreal h b i j).ne_top
  · exact bot_ne_top

/-- THE ROW: the final division of the state after the chunks 0..qi, at row `r` of query block `qi` and channel
    `d`, is the causal softmax average of the values' channel `d` for query `256 qi + r`. -/
theorem row_eq (h : Fin 16) (b : Fin 4) (qi : ℕ) (hqi : qi < 8) (r : Fin 256) (d : Fin 64) (i : Fin 2048)
    (hi : i.val = qi * 256 + r.val)
    (x0 : Vec Ideal S1x1x256x64 .bf16) (x1 x2 : Vec Ideal S1x1x2048x64 .bf16)
    (h0 : ∀ d' : Fin 64, x0 (ix4 (0 : Fin 1) (0 : Fin 1) r d') = P (ix4 (hq h) b i d'))
    (h1 : ∀ (j : Fin 2048) (d' : Fin 64), x1 (ix4 (0 : Fin 1) (0 : Fin 1) j d') = P (ix4 (hk h) b j d'))
    (h2 : ∀ j : Fin 2048, x2 (ix4 (0 : Fin 1) (0 : Fin 1) j d) = P (ix4 (hv h) b j d)) :
    k1_pay9 (F := Ideal) (vrun (Sf (BitVec.ofNat 32 qi) x0 x1) (Vf x2) (qi + 1)).2.2 (vrun (Sf (BitVec.ofNat 32 qi) x0 x1) (Vf x2) (qi + 1)).2.1
        (ix4 (0 : Fin 1) (0 : Fin 1) r d)
      = attnAt P h b i d := by
  rw [pay9_apply]
  have hrow := vrun_row (Sf (BitVec.ofNat 32 qi) x0 x1) (Vf x2) r d (qi + 1)
  rw [show (vrun (Sf (BitVec.ofNat 32 qi) x0 x1) (Vf x2) (qi + 1)).2.2 (ix2 r d) = _ from congrArg (fun σ => σ.2.2) hrow,
    show (vrun (Sf (BitVec.ofNat 32 qi) x0 x1) (Vf x2) (qi + 1)).2.1 (ix2 r (0 : Fin 1)) = _ from congrArg (fun σ => σ.2.1) hrow]
  unfold attnAt
  refine Cert.Lib.CausalOnlineSoftmax.causal_run_eq_softmax_of_finite (Jt := 8) (B := 256)
    (rowScore P h b i) (fun j => P (ix4 (hv h) b j d)) (rowScore_ne_top P hreal h b i) (fun j => hreal _)
    (qi + 1) (Nat.succ_pos _) (by omega) ?h0 ?hbot _ _ ?hS ?hV
  case h0 =>
    refine ⟨⟨0, by omega⟩, by show (0 : ℕ) < 256; omega, ?_⟩
    have hle : (⟨0, by omega⟩ : Fin 2048) ≤ i := Nat.zero_le _
    show rowScore P h b i ⟨0, _⟩ ≠ ⊥
    unfold rowScore
    rw [if_pos hle]
    exact (dot_real P hreal h b i _).ne_bot
  case hbot =>
    intro j hj
    have hnle : ¬ ((j : Fin 2048) ≤ i) := by
      show ¬ (j.val ≤ i.val)
      omega
    show rowScore P h b i j = ⊥
    unfold rowScore
    rw [if_neg hnle]
  case hS =>
    intro j n hjn hj
    have hj8 : j < 8 := by omega
    have hjn' : j * 256 + n.val < 2048 := hjn
    show Sf (BitVec.ofNat 32 qi) x0 x1 j (ix2 r n) = rowScore P h b i ⟨j * 256 + n.val, hjn'⟩
    unfold Sf
    have hraw : cRaw (k1_pay58 x0) (kc x1 j) (ix2 r n)
        = (∑ d' : Fin 64, P (ix4 (hq h) b i d') * P (ix4 (hk h) b ⟨j * 256 + n.val, hjn'⟩ d')) * Ideal.ofBits .f32 0x3E000000#32 := by
      rw [cRaw_apply]
      refine congrArg₂ (· * ·) (Finset.sum_congr rfl fun d' _ => ?_) rfl
      rw [pay58_apply, h0, kc_apply x1 j hj8 n d' ⟨j * 256 + n.val, hjn'⟩ rfl, h1]
    unfold rowScore
    rcases Nat.lt_or_ge j qi with hlt | hge
    · rw [cScores_off _ _ _ _ _ (cmpi_eq_ne qi j hqi hj8 (by omega)), hraw]
      have hle : (⟨j * 256 + n.val, hjn'⟩ : Fin 2048) ≤ i := by
        show j * 256 + n.val ≤ i.val
        have := n.isLt
        omega
      rw [if_pos hle]
    · obtain rfl : j = qi := by omega
      rw [cScores_diag j hqi, hraw]
      by_cases hnr : n.val ≤ r.val
      · have hle : (⟨j * 256 + n.val, hjn'⟩ : Fin 2048) ≤ i := by
          show j * 256 + n.val ≤ i.val
          omega
        rw [if_pos hnr, if_pos hle]
      · have hnle : ¬ ((⟨j * 256 + n.val, hjn'⟩ : Fin 2048) ≤ i) := by
          show ¬ (j * 256 + n.val ≤ i.val)
          omega
        rw [if_neg hnr, if_neg hnle]
  case hV =>
    intro j n hjn hj
    have hj8 : j < 8 := by omega
    have hjn' : j * 256 + n.val < 2048 := hjn
    show Vf x2 j (ix2 n d) = P (ix4 (hv h) b ⟨j * 256 + n.val, hjn'⟩ d)
    unfold Vf
    rw [pay10_apply, kc_apply x2 j hj8 n d ⟨j * 256 + n.val, hjn'⟩ rfl, h2]

end Row

/-! ## From blocks to the array -/

section
-- the TensorCore's buffer contents when the region is entered
variable (V : (c : Dev nD) → (b : Ref sig .tc) → Buf (Elt Ideal) ((c : Thread nD τ).loc b))

/-- The printed index maps, decided over the grid: point `t` is batch `t / 128`, head `t / 8 mod 16`, query block
    `t mod 8`; the key and value windows read the whole sequence of the head's key and value slots. -/
theorem idx_facts1 : ∀ t : Fin cfg1.N,
    win1_3.index t (0 : Fin 4) = t.val / 8 % 16 ∧ win1_3.index t (1 : Fin 4) = t.val / 128
    ∧ win1_3.index t (2 : Fin 4) = t.val % 8 ∧ win1_3.index t (3 : Fin 4) = 0
    ∧ win1_0.index t (0 : Fin 4) = t.val / 8 % 16 ∧ win1_0.index t (1 : Fin 4) = t.val / 128
    ∧ win1_0.index t (2 : Fin 4) = t.val % 8 ∧ win1_0.index t (3 : Fin 4) = 0
    ∧ win1_1.index t (0 : Fin 4) = 16 + t.val / 8 % 16 ∧ win1_1.index t (1 : Fin 4) = t.val / 128
    ∧ win1_1.index t (2 : Fin 4) = 0 ∧ win1_1.index t (3 : Fin 4) = 0
    ∧ win1_2.index t (0 : Fin 4) = 32 + t.val / 8 % 16 ∧ win1_2.index t (1 : Fin 4) = t.val / 128
    ∧ win1_2.index t (2 : Fin 4) = 0 ∧ win1_2.index t (3 : Fin 4) = 0
    ∧ ((grid1.coords t) 2).val = t.val % 8 :=
  (by decide +kernel : ∀ t : Fin grid1.N, _)

/-- What a point whose query block index is `qi` leaves in the output block is block `t` of the attention outputs. -/
theorem point_eq (c : Dev nD)
    (hreal : ∀ i : S48x4x2048x64.Idx, (V c main_v1 : S48x4x2048x64.Idx → EReal) i ≠ (⊤ : EReal) ∧ (V c main_v1 : S48x4x2048x64.Idx → EReal) i ≠ (⊥ : EReal))
    (t : Fin cfg1.N) (qi : ℕ) (hqi : t.val % 8 = qi) :
    (cfg1.win 3).cut (grid1.coords t)
        (k1_pay9 (F := Ideal) (vrun (Sf (BitVec.ofNat 32 ((grid1.coords t) 2).val) (iblk1 V c 0 t) (iblk1 V c 1 t)) (Vf (iblk1 V c 2 t)) (qi + 1)).2.2
          (vrun (Sf (BitVec.ofNat 32 ((grid1.coords t) 2).val) (iblk1 V c 0 t) (iblk1 V c 1 t)) (Vf (iblk1 V c 2 t)) (qi + 1)).2.1)
      = ((cfg1.win 3).blk t).view.read (Elt Ideal) (attnHeads (V c main_v1)) := by
  obtain ⟨e30, e31, e32, e33, e00, e01, e02, e03, e10, e11, e12, e13, e20, e21, e22, e23, ec⟩ := idx_facts1 t
  have htl : t.val < 512 := lt_of_lt_of_eq t.isLt N_1
  have hq8 : qi < 8 := by omega
  rw [ec, hqi]
  funext j
  obtain ⟨u, v, r, d, rfl⟩ : ∃ (u v : Fin 1) (r : Fin 256) (d : Fin 64), j = ix4 u v r d := ⟨j 0, j 1, j 2, j 3, eq_ix4 j⟩
  obtain rfl : u = 0 := Subsingleton.elim _ _
  obtain rfl : v = 0 := Subsingleton.elim _ _
  show k1_pay9 (F := Ideal) _ _ (ix4 (0 : Fin 1) (0 : Fin 1) r d)
    = attnHeads (V c main_v1) (((cfg1.win 3).blk t).view.emb (ix4 (0 : Fin 1) (0 : Fin 1) r d))
  have eo : ((cfg1.win 3).blk t).view.emb (ix4 (0 : Fin 1) (0 : Fin 1) r d)
      = ix4 (⟨t.val / 8 % 16, by omega⟩ : Fin 16) (⟨t.val / 128, by omega⟩ : Fin 4) (⟨qi * 256 + r.val, by omega⟩ : Fin 2048) d := by
    funext a; apply Fin.ext
    match a with
    | ⟨0, _⟩ => show win1_3.index t (0 : Fin 4) * 1 + 1 * 0 = t.val / 8 % 16; omega
    | ⟨1, _⟩ => show win1_3.index t (1 : Fin 4) * 1 + 1 * 0 = t.val / 128; omega
    | ⟨2, _⟩ => show win1_3.index t (2 : Fin 4) * 256 + 1 * r.val = qi * 256 + r.val; omega
    | ⟨3, _⟩ => show win1_3.index t (3 : Fin 4) * 64 + 1 * d.val = d.val; omega
  rw [eo, attnHeads_ix4]
  refine row_eq _ hreal _ _ qi hq8 r d _ rfl _ _ _ (fun d' => ?_) (fun j d' => ?_) (fun j => ?_)
  · show V c main_v1 (((cfg1.win 0).blk t).view.emb (ix4 (0 : Fin 1) (0 : Fin 1) r d'))
      = V c main_v1 (ix4 (hq (⟨t.val / 8 % 16, by omega⟩ : Fin 16)) (⟨t.val / 128, by omega⟩ : Fin 4) (⟨qi * 256 + r.val, by omega⟩ : Fin 2048) d')
    refine congrArg _ (funext fun a => Fin.ext ?_)
    match a with
    | ⟨0, _⟩ => show win1_0.index t (0 : Fin 4) * 1 + 1 * 0 = t.val / 8 % 16; omega
    | ⟨1, _⟩ => show win1_0.index t (1 : Fin 4) * 1 + 1 * 0 = t.val / 128; omega
    | ⟨2, _⟩ => show win1_0.index t (2 : Fin 4) * 256 + 1 * r.val = qi * 256 + r.val; omega
    | ⟨3, _⟩ => show win1_0.index t (3 : Fin 4) * 64 + 1 * d'.val = d'.val; omega
  · show V c main_v1 (((cfg1.win 1).blk t).view.emb (ix4 (0 : Fin 1) (0 : Fin 1) j d'))
      = V c main_v1 (ix4 (hk (⟨t.val / 8 % 16, by omega⟩ : Fin 16)) (⟨t.val / 128, by omega⟩ : Fin 4) j d')
    refine congrArg _ (funext fun a => Fin.ext ?_)
    match a with
    | ⟨0, _⟩ => show win1_1.index t (0 : Fin 4) * 1 + 1 * 0 = 16 + t.val / 8 % 16; omega
    | ⟨1, _⟩ => show win1_1.index t (1 : Fin 4) * 1 + 1 * 0 = t.val / 128; omega
    | ⟨2, _⟩ => show win1_1.index t (2 : Fin 4) * 2048 + 1 * j.val = j.val; omega
    | ⟨3, _⟩ => show win1_1.index t (3 : Fin 4) * 64 + 1 * d'.val = d'.val; omega
  · show V c main_v1 (((cfg1.win 2).blk t).view.emb (ix4 (0 : Fin 1) (0 : Fin 1) j d))
      = V c main_v1 (ix4 (hv (⟨t.val / 8 % 16, by omega⟩ : Fin 16)) (⟨t.val / 128, by omega⟩ : Fin 4) j d)
    refine congrArg _ (funext fun a => Fin.ext ?_)
    match a with
    | ⟨0, _⟩ => show win1_2.index t (0 : Fin 4) * 1 + 1 * 0 = 32 + t.val / 8 % 16; omega
    | ⟨1, _⟩ => show win1_2.index t (1 : Fin 4) * 1 + 1 * 0 = t.val / 128; omega
    | ⟨2, _⟩ => show win1_2.index t (2 : Fin 4) * 2048 + 1 * j.val = j.val; omega
    | ⟨3, _⟩ => show win1_2.index t (3 : Fin 4) * 64 + 1 * d.val = d.val; omega

/-- WHAT POINT `t` WRITES BACK is block `t` of the attention outputs of the projection array as the region finds it. -/
theorem flushed_eq1 (c : Dev nD)
    (hreal : ∀ i : S48x4x2048x64.Idx, (V c main_v1 : S48x4x2048x64.Idx → EReal) i ≠ (⊤ : EReal) ∧ (V c main_v1 : S48x4x2048x64.Idx → EReal) i ≠ (⊥ : EReal))
    (t : Fin cfg1.N) :
    (dat1 V c).flushed 3 t = ((cfg1.win 3).blk t).view.read (Elt Ideal) (attnHeads (V c main_v1)) := by
  show (cfg1.win 3).cut (grid1.coords t) ((dat1 V c).after 3 t) = _
  rw [after1_3]
  have h8 := lt8 t.val
  obtain ⟨qi, hqi⟩ : ∃ qi, t.val % 8 = qi := ⟨_, rfl⟩
  have hq8 : qi < 8 := by omega
  interval_cases qi
  · rw [outAt1_A V c t hqi, out1_A_eq]; exact point_eq V c hreal t 0 hqi
  · rw [outAt1_B V c t hqi, out1_B_eq]; exact point_eq V c hreal t 1 hqi
  · rw [outAt1_C V c t hqi, out1_C_eq]; exact point_eq V c hreal t 2 hqi
  · rw [outAt1_D V c t hqi, out1_D_eq]; exact point_eq V c hreal t 3 hqi
  · rw [outAt1_E V c t hqi, out1_E_eq]; exact point_eq V c hreal t 4 hqi
  · rw [outAt1_F V c t hqi, out1_F_eq]; exact point_eq V c hreal t 5 hqi
  · rw [outAt1_G V c t hqi, out1_G_eq]; exact point_eq V c hreal t 6 hqi
  · rw [outAt1_H V c t hqi, out1_H_eq]; exact point_eq V c hreal t 7 hqi

/-- An index of the array is in point `t`'s block iff each coordinate is in the block's range on its axis. -/
theorem mem_blk1 (t : Fin cfg1.N) (i : S16x4x2048x64.Idx) :
    i ∈ ((cfg1.win 3).blk t).view.set ↔ ∀ a : Fin 4, win1_3.index t a * S1x1x256x64.size a ≤ (i a).val ∧ (i a).val < win1_3.index t a * S1x1x256x64.size a + S1x1x256x64.size a := by
  show i ∈ ((View.whole main_v2).slice (win1_3.rect t)).set ↔ _
  rw [View.set_slice_whole, Rect.mem_set_unit]
  exact Iff.rfl

/-- Every index of the array is in the block of the point of its batch, head and query block. -/
theorem cover1 (i : S16x4x2048x64.Idx) :
    ∃ t : Fin cfg1.N, (cfg1.win 3).flush t = true ∧ i ∈ ((cfg1.win 3).blk t).view.set := by
  have h0 : (i 0).val < 16 := (i 0).isLt
  have h1 : (i 1).val < 4 := (i 1).isLt
  have h2 : (i 2).val < 2048 := (i 2).isLt
  have h3 : (i 3).val < 64 := (i 3).isLt
  have hN : cfg1.N = 512 := N_1
  obtain ⟨t, ht⟩ : ∃ t : Fin cfg1.N, t.val = ((i 1).val * 16 + (i 0).val) * 8 + (i 2).val / 256 :=
    ⟨⟨((i 1).val * 16 + (i 0).val) * 8 + (i 2).val / 256, by rw [hN]; omega⟩, rfl⟩
  obtain ⟨e30, e31, e32, e33, -⟩ := idx_facts1 t
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 256 ≤ (i 2).val ∧ (i 2).val < win1_3.index t (2 : Fin 4) * 256 + 256; omega
  | ⟨3, _⟩ => show win1_3.index t (3 : Fin 4) * 64 ≤ (i 3).val ∧ (i 3).val < win1_3.index t (3 : Fin 4) * 64 + 64; omega

/-- THE ARRAY after the region: the attention outputs of the projection array as the region finds it, when that array
    holds real numbers. -/
theorem attn_final (c : Dev nD)
    (hreal : ∀ i : S48x4x2048x64.Idx, (V c main_v1 : S48x4x2048x64.Idx → EReal) i ≠ (⊤ : EReal) ∧ (V c main_v1 : S48x4x2048x64.Idx → EReal) i ≠ (⊥ : EReal)) :
    (dat1 V c).arrAt 3 cfg1.N = attnHeads (V c main_v1) :=
  (dat1 V c).arrAt_eq_of_cover 3 (attnHeads (V c main_v1)) (fun t _ => flushed_eq1 V c hreal t) cover1

end

end Cert.KernelIdeal.AttnValue

end
-- ==== Proof.IdealOutProjValue.lean ====
import proofs.«102473_j17867063951717_2_alg».proof.Proof.IdealOutProjRegion
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.OutProjValue

open Cert.KernelIdeal Cert.KernelIdeal.Gen Cert.KernelIdeal.OutProj
open Idealize.ShloMosaic Idealize.ShloMosaic.TcCoe Idealize.ShloMosaic.Tactic Idealize.SL.Sem
open Idealize.ShloMosaic.Pipeline (Dat)

variable {F : FTy → Type} [FloatOps F] [Named F]

/-! # The output projection's value: what its result array ends holding

Read off the region's frame half: what each control case leaves in the accumulator and in the output block, as the
body's payloads of the point's blocks; the accumulator after each point as a fold over the heads of one output block;
and, at the ideal values, the result array as one function of the region's three input arrays. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What each case leaves, as payloads -/

/-- CASE B (0 < h < 15): the accumulator holding `xs0` is left at `xs0` plus this head's product — the one covering
    store's payload, its loads reading the whole buffers. -/
theorem sout_B (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : ¬cond2_1 i)
    (x0 : Vec F S1x1x1024x64 .bf16) (x1 : Vec F S1x1024x64 .f32) (x2 : Vec F S1x1024 .f32) (xs0 : Vec F S1024x1024 .f32) :
    sout2_B_0 c i arg3 harg3 arg4 harg4 arg5 harg5 arg6 harg6 arg7 harg7 hc0 hc1 x0 x1 x2 xs0 = k2_pay2 x0 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  rw [View.canon_unit_zero hz2]
  simp only [View.readAt_eq_ld, harg3.read_unread, harg4.read_unread, harg5.read_unread, harg7.read_unread, View.ld_unit_zero (S := S1x1x1024x64) hz4, View.ld_unit_zero (S := S1x1024x64) hz3, View.ld_unit_zero (S := S1x1024) hz2, View.ld_unit_zero (S := S1024x1024) hz2]

/-- CASE C (h = 15): the accumulator likewise, -/
theorem sout_C (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) :
    sout2_C_0 c i arg3 harg3 arg4 harg4 arg5 harg5 arg6 harg6 arg7 harg7 hc0 hc1 x0 x1 x2 xs0 = k2_pay2 x0 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg3.read_unread, harg4.read_unread, harg5.read_unread, harg7.read_unread, View.ld_unit_zero (S := S1x1x1024x64) hz4, View.ld_unit_zero (S := S1x1024x64) hz3, View.ld_unit_zero (S := S1x1024) hz2, View.ld_unit_zero (S := S1024x1024) hz2]

/-- and the output block is left at the bias row added to every row of what the accumulator then holds. -/
theorem out_C (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond2_0 i) (hc1 : cond2_1 i)
    (x0 : Vec F S1x1x1024x64 .bf16) (x1 : Vec F S1x1024x64 .f32) (x2 : Vec F S1x1024 .f32) (xs0 : Vec F S1024x1024 .f32) :
    out2_C_3 c i arg3 harg3 arg4 harg4 arg5 harg5 arg6 harg6 arg7 harg7 hc0 hc1 x0 x1 x2 xs0 = k2_pay3 (k2_pay2 x0 x1 xs0) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero hz3, View.readCov_unit_zero (S := S1024x1024) _ hz2]
  simp only [View.readAt_eq_ld, harg3.read_unread, harg4.read_unread, harg5.read_unread, harg7.read_unread, View.ld_unit_zero (S := S1x1x1024x64) hz4, View.ld_unit_zero (S := S1x1024x64) hz3, View.ld_unit_zero (S := S1x1024) hz2, View.ld_unit_zero (S := S1024x1024) hz2]

/-- CASE A (h = 0): the accumulator is zeroed, read back, and left at zero plus the first head's product. -/
theorem sout_A (c : Dev nD) (i : grid2.Coords) (arg3 : Memref sig .tc .vmem S1x1x1024x64 .bf16) (harg3 : arg3.IsWhole) (arg4 : Memref sig .tc .vmem S1x1024x64 .f32) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : cond2_0 i) (hc1 : ¬cond2_1 i)
    (x0 : Vec F S1x1x1024x64 .bf16) (x1 : Vec F S1x1024x64 .f32) (x2 : Vec F S1x1024 .f32) :
    sout2_A_0 c i arg3 harg3 arg4 harg4 arg5 harg5 arg6 harg6 arg7 harg7 hc0 hc1 x0 x1 x2 = k2_pay2 x0 x1 k2_pay1 := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg7.read_unread, View.ld_unit_zero (S := S1x1x1024x64) hz4, View.ld_unit_zero (S := S1x1024x64) hz3, View.ld_unit_zero (S := S1x1024) hz2, View.ld_unit_zero (S := S1024x1024) hz2]

/-! ## The accumulator after each point: a fold over the heads of one output block -/

variable (V : (c : Dev nD) → (b : Ref sig .tc) → Buf (Elt F) ((c : Thread nD τ).loc b))

/-- What a point with h = 0 leaves in the accumulator: zero plus the product of its attention block and weight slice. -/
def accReset (c : Dev nD) (n : ℕ) (h : n < cfg2.N) : Vec F S1024x1024 .f32 :=
  k2_pay2 (iblk2 V c 0 ⟨n, h⟩) (iblk2 V c 1 ⟨n, h⟩) k2_pay1

/-- What any other point leaves in it, over what it found there. -/
def accStep (c : Dev nD) (n : ℕ) (h : n < cfg2.N) (acc : Vec F S1024x1024 .f32) : Vec F S1024x1024 .f32 :=
  k2_pay2 (iblk2 V c 0 ⟨n, h⟩) (iblk2 V c 1 ⟨n, h⟩) acc

theorem acc_reset (c : Dev nD) (n : ℕ) (h : n < cfg2.N) (h0 : n % 16 = 0) :
    (outsAt2 V c n h).2 = accReset V c n h := by
  have h1 : ¬(⟨n, h⟩ : Fin cfg2.N).val % 16 = 15 := by dsimp only; omega
  refine (congrArg Prod.snd (outsAt2_A V c ⟨n, h⟩ h0 h1)).trans ?_
  unfold caseA accReset
  dsimp only
  rw [sout_A]

theorem acc_step (c : Dev nD) (n : ℕ) (h : n + 1 < cfg2.N) (h0 : ¬(n + 1) % 16 = 0) :
    (outsAt2 V c (n + 1) h).2 = accStep V c (n + 1) h (outsAt2 V c n (Nat.lt_of_succ_lt h)).2 := by
  by_cases h1 : (n + 1) % 16 = 15
  · refine (congrArg Prod.snd (outsAt2_C V c ⟨n + 1, h⟩ h0 h1)).trans ?_
    unfold caseC accStep
    dsimp only
    rw [sout_C]
    rfl
  · refine (congrArg Prod.snd (outsAt2_B V c ⟨n + 1, h⟩ h0 h1)).trans ?_
    unfold caseB accStep
    dsimp only
    rw [sout_B]
    rfl

/-- THE FOLD. After any point `t` the accumulator holds the fold over the points of `t`'s output block up to `t`:
    the reset value at the block's first point (h = 0), stepped through the later heads. -/
theorem acc_eq (c : Dev nD) (t : ℕ) (ht : t < cfg2.N) (h' : 16 * (t / 16) + t % 16 < cfg2.N) :
    (outsAt2 V c t ht).2 = Pipeline.accAt (accReset V c) (accStep V c) (16 * (t / 16)) (t % 16) h' :=
  Pipeline.eq_accAt_of_mod (fun n h => (outsAt2 V c n h).2) 16 (accReset V c) (accStep V c)
    (acc_reset V c) (acc_step V c) (by decide) t ht h'

/-- At a point with h = 15 the output block is left at the bias row added to what the accumulator then holds, -/
theorem out_eq_acc (c : Dev nD) (t : Fin cfg2.N) (h1 : t.val % 16 = 15) :
    (outsAt2 V c t.val t.isLt).1 = k2_pay3 (outsAt2 V c t.val t.isLt).2 (iblk2 V c 2 t) := by
  have h0 : ¬t.val % 16 = 0 := by omega
  rw [outsAt2_C V c t h0 h1]
  unfold caseC
  dsimp only
  rw [out_C, sout_C]

/-- that is: to the accumulator's fold over the sixteen heads of the block. -/
theorem out_eq (c : Dev nD) (t : Fin cfg2.N) (h1 : t.val % 16 = 15) (h' : 16 * (t.val / 16) + t.val % 16 < cfg2.N) :
    (outsAt2 V c t.val t.isLt).1
      = k2_pay3 (Pipeline.accAt (accReset V c) (accStep V c) (16 * (t.val / 16)) (t.val % 16) h') (iblk2 V c 2 t) := by
  rw [out_eq_acc V c t h1, acc_eq V c t.val t.isLt h']

/-! ## Where a point's blocks sit in their arrays -/

open Idealize.ShloMosaic.ValueIdx

/-- The block indices of the four windows at point `t` = 32 b + 16 si + h: the attention output's block (h, b, si, 0),
    the weight's (h, 0, 0), the bias's (0, 0), the result's (b, si, 0). -/
theorem index2_0 : ∀ t : Fin cfg2.N, win2_0.index t 0 = t.val % 16 ∧ win2_0.index t 1 = t.val / 32 ∧ win2_0.index t 2 = t.val / 16 % 2 ∧ win2_0.index t 3 = 0 :=
  (by decide +kernel : ∀ t : Fin grid2.N, win2_0.index t 0 = t.val % 16 ∧ win2_0.index t 1 = t.val / 32 ∧ win2_0.index t 2 = t.val / 16 % 2 ∧ win2_0.index t 3 = 0)
theorem index2_1 : ∀ t : Fin cfg2.N, win2_1.index t 0 = t.val % 16 ∧ win2_1.index t 1 = 0 ∧ win2_1.index t 2 = 0 :=
  (by decide +kernel : ∀ t : Fin grid2.N, win2_1.index t 0 = t.val % 16 ∧ win2_1.index t 1 = 0 ∧ win2_1.index t 2 = 0)
theorem index2_2 : ∀ t : Fin cfg2.N, win2_2.index t 0 = 0 ∧ win2_2.index t 1 = 0 :=
  (by decide +kernel : ∀ t : Fin grid2.N, win2_2.index t 0 = 0 ∧ win2_2.index t 1 = 0)
theorem index2_3 : ∀ t : Fin cfg2.N, win2_3.index t 0 = t.val / 32 ∧ win2_3.index t 1 = t.val / 16 % 2 ∧ win2_3.index t 2 = 0 :=
  (by decide +kernel : ∀ t : Fin grid2.N, win2_3.index t 0 = t.val / 32 ∧ win2_3.index t 1 = t.val / 16 % 2 ∧ win2_3.index t 2 = 0)

theorem lt128 (t : Fin cfg2.N) : t.val < 128 := lt_of_lt_of_eq t.isLt (show cfg2.N = 128 from N_2)

/-- The attention-output block at point `t`, at row `r` and lane `d`: head t % 16, batch t / 32, row
    1024 (t / 16 % 2) + r of the region's first input array. -/
theorem iblk0_apply (c : Dev nD) (t : Fin cfg2.N) (r : Fin 1024) (d : Fin 64) :
    (iblk2 V c 0 t : Vec F S1x1x1024x64 .bf16) (ix4 (0 : Fin 1) (0 : Fin 1) r d)
      = V c main_v2 (ix4 (⟨t.val % 16, Nat.mod_lt _ (by decide)⟩ : Fin 16) (⟨t.val / 32, by have := lt128 t; omega⟩ : Fin 4)
          (⟨t.val / 16 % 2 * 1024 + r.val, by have := r.isLt; have : t.val / 16 % 2 < 2 := Nat.mod_lt _ (by decide); omega⟩ : Fin 2048) d) := by
  unfold iblk2
  rw [View.read_apply]
  show V c main_v2 _ = V c main_v2 _
  congr 1
  funext a
  apply Fin.ext
  match a with
  | ⟨0, _⟩ => show win2_0.index t 0 * 1 + 1 * 0 = t.val % 16; rw [(index2_0 t).1]; omega
  | ⟨1, _⟩ => show win2_0.index t 1 * 1 + 1 * 0 = t.val / 32; rw [(index2_0 t).2.1]; omega
  | ⟨2, _⟩ => show win2_0.index t 2 * 1024 + 1 * r.val = t.val / 16 % 2 * 1024 + r.val; rw [(index2_0 t).2.2.1]; omega
  | ⟨3, _⟩ => show win2_0.index t 3 * 64 + 1 * d.val = d.val; rw [(index2_0 t).2.2.2]; omega

/-- The weight block at point `t`: the slice of head t % 16. -/
theorem iblk1_apply (c : Dev nD) (t : Fin cfg2.N) (n : Fin 1024) (d : Fin 64) :
    (iblk2 V c 1 t : Vec F S1x1024x64 .f32) (ix3 (0 : Fin 1) n d)
      = V c main_v4 (ix3 (⟨t.val % 16, Nat.mod_lt _ (by decide)⟩ : Fin 16) n d) := by
  unfold iblk2
  rw [View.read_apply]
  show V c main_v4 _ = V c main_v4 _
  congr 1
  funext a
  apply Fin.ext
  match a with
  | ⟨0, _⟩ => show win2_1.index t 0 * 1 + 1 * 0 = t.val % 16; rw [(index2_1 t).1]; omega
  | ⟨1, _⟩ => show win2_1.index t 1 * 1024 + 1 * n.val = n.val; rw [(index2_1 t).2.1]; omega
  | ⟨2, _⟩ => show win2_1.index t 2 * 64 + 1 * d.val = d.val; rw [(index2_1 t).2.2]; omega

/-- The bias block at any point: the bias row. -/
theorem iblkb_apply (c : Dev nD) (t : Fin cfg2.N) (n : Fin 1024) :
    (iblk2 V c 2 t : Vec F S1x1024 .f32) (ix2 (0 : Fin 1) n) = V c main_v5 (ix2 (0 : Fin 1) n) := by
  unfold iblk2
  rw [View.read_apply]
  show V c main_v5 _ = V c main_v5 _
  congr 1
  funext a
  apply Fin.ext
  match a with
  | ⟨0, _⟩ => show win2_2.index t 0 * 1 + 1 * 0 = 0; rw [(index2_2 t).1]
  | ⟨1, _⟩ => show win2_2.index t 1 * 1024 + 1 * n.val = n.val; rw [(index2_2 t).2]; omega

/-! ## The payloads at an index, at the ideal values -/

abbrev DD := dot_S1024x64_S1024x64_S1024x1024_1_1_0_0_n_n

theorem DD_rank : DD.contr.rank = 1 := by decide
theorem DD_size : DD.contr.size ⟨0, by rw [DD_rank]; exact Nat.one_pos⟩ = 64 := by decide

/-- The product's operand indices at output position (r, n) and contraction position d: (r, d) and (n, d). -/
theorem DD_lhs (r n : Fin 1024) (d : Fin 64) :
    DD.lhsIdx (ix2 r n) ((contrEquiv1 DD 64 DD_rank DD_size).symm d) = ix2 r d := by
  funext a
  apply Fin.ext
  match a with
  | ⟨0, _⟩ => simp [DotDims.lhsIdx, DD, dot_S1024x64_S1024x64_S1024x1024_1_1_0_0_n_n]; rfl
  | ⟨1, _⟩ => simp [DotDims.lhsIdx, DD, dot_S1024x64_S1024x64_S1024x1024_1_1_0_0_n_n, contrEquiv1]; rfl
theorem DD_rhs (r n : Fin 1024) (d : Fin 64) :
    DD.rhsIdx (ix2 r n) ((contrEquiv1 DD 64 DD_rank DD_size).symm d) = ix2 n d := by
  funext a
  apply Fin.ext
  match a with
  | ⟨0, _⟩ => simp [DotDims.rhsIdx, DD, dot_S1024x64_S1024x64_S1024x1024_1_1_0_0_n_n]; rfl
  | ⟨1, _⟩ => simp [DotDims.rhsIdx, DD, dot_S1024x64_S1024x64_S1024x1024_1_1_0_0_n_n, contrEquiv1]; rfl

/-- The attention block cast to rows × lanes reads it at its two leading unit coordinates. -/
theorem cast_o {α : Type} (x : S1x1x1024x64.Idx → α) (r : Fin 1024) (d : Fin 64) :
    shapeCast S1024x64 x shapeCasts_S1x1x1024x64_S1024x64 (ix2 r d) = x (ix4 (0 : Fin 1) (0 : Fin 1) r d) :=
  shapeCast_apply x _ _ _ (by
    rw [Shape.rowMajor_val_four, Shape.rowMajor_val_two]
    show ((0 * 1 + 0) * 1024 + r.val) * 64 + d.val = r.val * 64 + d.val
    omega)

/-- The weight block cast to columns × lanes likewise. -/
theorem cast_w {α : Type} (x : S1x1024x64.Idx → α) (n : Fin 1024) (d : Fin 64) :
    shapeCast S1024x64 x shapeCasts_S1x1024x64_S1024x64 (ix2 n d) = x (ix3 (0 : Fin 1) n d) :=
  shapeCast_1ab_ab_apply x _ n d

/-- The zeroing store's payload is zero everywhere. -/
theorem pay1_apply (j : S1024x1024.Idx) : k2_pay1 (F := Ideal) j = (0 : EReal) := by
  unfold k2_pay1
  rw [shapeCast_self]
  exact Ideal.ofBits_zero_f32

/-- THE ACCUMULATING STORE at (r, n): what the accumulator held there plus the inner product, over the 64 lanes, of row
    `r` of the attention block with row `n` of the weight slice (the conversions to bf16 are the identity here). -/
theorem pay2_apply (x0 : Vec Ideal S1x1x1024x64 .bf16) (x1 : Vec Ideal S1x1024x64 .f32) (acc : Vec Ideal S1024x1024 .f32)
    (r n : Fin 1024) :
    k2_pay2 (F := Ideal) x0 x1 acc (ix2 r n)
      = (acc (ix2 r n) : EReal) + ∑ d : Fin 64, (x0 (ix4 (0 : Fin 1) (0 : Fin 1) r d) : EReal) * (x1 (ix3 (0 : Fin 1) n d) : EReal) := by
  unfold k2_pay2
  rw [shapeCast_self]
  refine (addf_apply _ _ _).trans ?_
  congr 1
  refine (Ideal.matmul_constant_zero_apply DD none _ _ (ix2 r n)).trans ?_
  rw [← Equiv.sum_comp (contrEquiv1 DD 64 DD_rank DD_size).symm]
  refine Finset.sum_congr rfl fun d _ => ?_
  rw [DD_lhs, DD_rhs, cast_o, truncf_apply, cast_w]

/-- THE OUTPUT STORE at (0, r, n): the accumulator there plus the bias at column `n`. -/
theorem pay3_apply (acc : Vec Ideal S1024x1024 .f32) (b : Vec Ideal S1x1024 .f32) (r n : Fin 1024) :
    k2_pay3 (F := Ideal) acc b (ix3 (0 : Fin 1) r n) = (acc (ix2 r n) : EReal) + (b (ix2 (0 : Fin 1) n) : EReal) := by
  unfold k2_pay3
  rw [shapeCast_self]
  refine (shapeCast_ab_1ab_apply _ _ (0 : Fin 1) r n).trans ?_
  refine (addf_apply _ _ _).trans ?_
  congr 1
  exact broadcastTo_1b_ab_apply _ _ r n

/-! ## The result array, at the ideal values -/

/-- Head `h`'s term of the projection at (b, s, n): the inner product over the 64 lanes of the head's attention output
    at batch `b`, row `s` with row `n` of the head's weight slice. -/
def headTerm (o : Vec Ideal S16x4x2048x64 .bf16) (Wr : Vec Ideal S16x1024x64 .f32) (h : Fin 16) (b : Fin 4) (s : Fin 2048)
    (n : Fin 1024) : EReal :=
  ∑ d : Fin 64, (o (ix4 h b s d) : EReal) * (Wr (ix3 h n d) : EReal)

/-- THE OUTPUT PROJECTION as one function of the region's three input arrays: at (b, s, n) the sum over the sixteen
    heads of the heads' terms, plus the bias at column `n`. -/
def outProj (o : Vec Ideal S16x4x2048x64 .bf16) (Wr : Vec Ideal S16x1024x64 .f32) (bo : Vec Ideal S1x1024 .f32) :
    Vec Ideal S4x2048x1024 .f32 :=
  fun i => (∑ h : Fin 16, headTerm o Wr h (i 0) (i 1) (i 2)) + (bo (ix2 (0 : Fin 1) (i 2)) : EReal)

theorem outProj_apply (o : Vec Ideal S16x4x2048x64 .bf16) (Wr : Vec Ideal S16x1024x64 .f32) (bo : Vec Ideal S1x1024 .f32)
    (b : Fin 4) (s : Fin 2048) (n : Fin 1024) :
    (outProj o Wr bo (ix3 b s n) : EReal)
      = (∑ h : Fin 16, ∑ d : Fin 64, (o (ix4 h b s d) : EReal) * (Wr (ix3 h n d) : EReal)) + (bo (ix2 (0 : Fin 1) n) : EReal) := rfl

section AtIdeal

variable (W : (c : Dev nD) → (b : Ref sig .tc) → Buf (Elt Ideal) ((c : Thread nD τ).loc b))

/-- Point `n`'s addend at accumulator position (r, col): the inner product over the 64 lanes of row `r` of the
    point's attention block with row `col` of its weight slice (zero past the grid: never used). -/
def addend (c : Dev nD) (n : ℕ) (i : S1024x1024.Idx) : EReal :=
  if h : n < cfg2.N then
    ∑ d : Fin 64, (@id (Vec Ideal S1x1x1024x64 .bf16) (iblk2 W c 0 ⟨n, h⟩) (ix4 (0 : Fin 1) (0 : Fin 1) (i 0) d) : EReal)
      * (@id (Vec Ideal S1x1024x64 .f32) (iblk2 W c 1 ⟨n, h⟩) (ix3 (0 : Fin 1) (i 1) d) : EReal)
  else 0

theorem reset_apply (c : Dev nD) (n : ℕ) (h : n < cfg2.N) (i : S1024x1024.Idx) :
    (accReset W c n h i : EReal) = (0 : EReal) + addend W c n i := by
  obtain ⟨a, b, rfl⟩ : ∃ (a b : Fin 1024), i = ix2 a b := ⟨i 0, i 1, eq_ix2 i⟩
  unfold accReset addend
  rw [dif_pos h]
  refine (pay2_apply _ _ _ a b).trans ?_
  rw [pay1_apply]
  rfl

theorem step_apply (c : Dev nD) (n : ℕ) (h : n < cfg2.N) (acc : Vec Ideal S1024x1024 .f32) (i : S1024x1024.Idx) :
    (accStep W c n h acc i : EReal) = (acc i : EReal) + addend W c n i := by
  obtain ⟨a, b, rfl⟩ : ∃ (a b : Fin 1024), i = ix2 a b := ⟨i 0, i 1, eq_ix2 i⟩
  unfold accStep addend
  rw [dif_pos h]
  refine (pay2_apply _ _ _ a b).trans ?_
  rfl

/-- The accumulator's fold after `j + 1` heads of output block `q`, at a position: the sum of the heads' addends. -/
theorem fold_apply (c : Dev nD) (q j : ℕ) (hj : j ≤ 15) (h : 16 * q + j < cfg2.N) (i : S1024x1024.Idx) :
    (Pipeline.accAt (accReset W c) (accStep W c) (16 * q) j h i : EReal)
      = (0 : EReal) + ∑ s ∈ Finset.range (j + 1), addend W c (16 * q + s) i :=
  Pipeline.accAt_add_apply (β := EReal) (accReset W c) (accStep W c) (fun _ => (0 : EReal)) (addend W c) (16 * q) 15
    (fun h i => reset_apply W c _ h i) (fun n h acc i _ _ => step_apply W c n h acc i) j hj h i

/-- Head `s`'s addend in the output block of point `t`, read off the region's input arrays: the head's term at batch
    t / 32, row 1024 (t / 16 % 2) + r, column `n`. -/
theorem addend_eq (c : Dev nD) (t : Fin cfg2.N) (s : Fin 16) (r n : Fin 1024) :
    addend W c (16 * (t.val / 16) + s.val) (ix2 r n)
      = headTerm (W c main_v2) (W c main_v4) s (⟨t.val / 32, by have := lt128 t; omega⟩ : Fin 4)
          (⟨t.val / 16 % 2 * 1024 + r.val, by have := r.isLt; have : t.val / 16 % 2 < 2 := Nat.mod_lt _ (by decide); omega⟩ : Fin 2048) n := by
  have ht := lt128 t
  have hs := s.isLt
  have hn : 16 * (t.val / 16) + s.val < cfg2.N :=
    lt_of_lt_of_eq (by omega : 16 * (t.val / 16) + s.val < 128) (show 128 = cfg2.N from N_2.symm)
  unfold addend headTerm
  rw [dif_pos hn]
  refine Finset.sum_congr rfl fun d _ => ?_
  have e0 := iblk0_apply W c ⟨16 * (t.val / 16) + s.val, hn⟩ r d
  have e1 := iblk1_apply W c ⟨16 * (t.val / 16) + s.val, hn⟩ n d
  refine (congrArg₂ (fun (x y : EReal) => x * y) e0 e1).trans ?_
  refine congrArg₂ (fun (x y : EReal) => x * y) (congrArg (W c main_v2) ?_) (congrArg (W c main_v4) ?_)
  · funext a
    apply Fin.ext
    match a with
    | ⟨0, _⟩ => show (16 * (t.val / 16) + s.val) % 16 = s.val; omega
    | ⟨1, _⟩ => show (16 * (t.val / 16) + s.val) / 32 = t.val / 32; omega
    | ⟨2, _⟩ => show (16 * (t.val / 16) + s.val) / 16 % 2 * 1024 + r.val = t.val / 16 % 2 * 1024 + r.val; omega
    | ⟨3, _⟩ => rfl
  · funext a
    apply Fin.ext
    match a with
    | ⟨0, _⟩ => show (16 * (t.val / 16) + s.val) % 16 = s.val; omega
    | ⟨1, _⟩ => rfl
    | ⟨2, _⟩ => rfl

end AtIdeal

section Final

variable (W : (c : Dev nD) → (b : Ref sig .tc) → Buf (Elt Ideal) ((c : Thread nD τ).loc b))

/-- Where element (0, r, n) of the output block at point `t` sits in the result array: batch t / 32, row
    1024 (t / 16 % 2) + r, column `n`. -/
theorem emb3_apply (t : Fin cfg2.N) (r n : Fin 1024) :
    ((cfg2.win 3).blk t).view.emb (ix3 (0 : Fin 1) r n) = ix3 (⟨t.val / 32, by have := lt128 t; omega⟩ : Fin 4) (⟨t.val / 16 % 2 * 1024 + r.val, by have := r.isLt; have : t.val / 16 % 2 < 2 := Nat.mod_lt _ (by decide); omega⟩ : Fin 2048) n := by
  funext a
  apply Fin.ext
  match a with
  | ⟨0, _⟩ => show win2_3.index t 0 * 1 + 1 * 0 = t.val / 32; rw [(index2_3 t).1]; omega
  | ⟨1, _⟩ => show win2_3.index t 1 * 1024 + 1 * r.val = t.val / 16 % 2 * 1024 + r.val; rw [(index2_3 t).2.1]; omega
  | ⟨2, _⟩ => show win2_3.index t 2 * 1024 + 1 * n.val = n.val; rw [(index2_3 t).2.2]; omega

/-- At a point with h = 15 the accumulator's fold, at a position, is the sum over the sixteen heads of the heads' terms. -/
theorem fold15 (c : Dev nD) (t : Fin cfg2.N) (h15 : t.val % 16 = 15) (h' : 16 * (t.val / 16) + t.val % 16 < cfg2.N)
    (r n : Fin 1024) :
    (Pipeline.accAt (accReset W c) (accStep W c) (16 * (t.val / 16)) (t.val % 16) h' (ix2 r n) : EReal)
      = ∑ h : Fin 16, headTerm (W c main_v2) (W c main_v4) h (⟨t.val / 32, by have := lt128 t; omega⟩ : Fin 4) (⟨t.val / 16 % 2 * 1024 + r.val, by have := r.isLt; have : t.val / 16 % 2 < 2 := Nat.mod_lt _ (by decide); omega⟩ : Fin 2048) n := by
  have e16 : t.val % 16 + 1 = 16 := by omega
  refine (fold_apply W c (t.val / 16) (t.val % 16) (by omega) h' (ix2 r n)).trans ?_
  rw [e16, zero_add, Finset.sum_range]
  exact Finset.sum_congr rfl fun s _ => addend_eq W c t s r n

/-- What a write-back writes is the block of `outProj` of the region's input arrays. -/
theorem flushed_eq (c : Dev nD) (t : Fin cfg2.N) (hf : (cfg2.win 3).flush t = true) :
    (dat2 W c).flushed 3 t
      = ((cfg2.win 3).blk t).view.read (Elt Ideal) (outProj (W c main_v2) (W c main_v4) (W c main_v5)) := by
  have h15 : t.val % 16 = 15 := (flush2_3 t).mp hf
  have hN := lt128 t
  have h' : 16 * (t.val / 16) + t.val % 16 < cfg2.N :=
    lt_of_lt_of_eq (by omega : 16 * (t.val / 16) + t.val % 16 < 128) (show 128 = cfg2.N from N_2.symm)
  show (cfg2.win 3).cut (grid2.coords t) ((dat2 W c).after 3 t) = _
  rw [after2_3, out_eq W c t h15 h']
  funext y
  rw [View.read_apply]
  obtain ⟨u, r, n, rfl⟩ : ∃ (u : Fin 1) (r n : Fin 1024), y = ix3 u r n := ⟨y 0, y 1, y 2, eq_ix3 y⟩
  obtain rfl : u = 0 := Subsingleton.elim _ _
  rw [emb3_apply]
  show k2_pay3 (F := Ideal) _ _ (ix3 (0 : Fin 1) r n) = outProj _ _ _ (ix3 _ _ n)
  refine (pay3_apply _ _ r n).trans ?_
  refine (congrArg₂ (fun (x y : EReal) => x + y) (fold15 W c t h15 h' r n) (iblkb_apply W c t n)).trans ?_
  rfl

/-- THE RESULT: the region's output array ends holding `outProj` of its three input arrays — every position lies in the
    block of the one point with h = 15 of its batch and row half, which writes it back. -/
theorem final_out (c : Dev nD) :
    (dat2 W c).arrAt 3 cfg2.N = outProj (W c main_v2) (W c main_v4) (W c main_v5) :=
  (dat2 W c).arrAt_eq_of_cover 3 (outProj (W c main_v2) (W c main_v4) (W c main_v5)) (flushed_eq W c) fun i => by
    have h0 : (i 0 : Nat) < 4 := (i 0).isLt
    have h1 : (i 1 : Nat) < 2048 := (i 1).isLt
    have h2 : (i 2 : Nat) < 1024 := (i 2).isLt
    have hT : 32 * (i 0 : ℕ) + 16 * ((i 1 : ℕ) / 1024) + 15 < cfg2.N :=
      lt_of_lt_of_eq (by omega : 32 * (i 0 : ℕ) + 16 * ((i 1 : ℕ) / 1024) + 15 < 128) (show 128 = cfg2.N from N_2.symm)
    refine ⟨⟨32 * (i 0 : ℕ) + 16 * ((i 1 : ℕ) / 1024) + 15, hT⟩, (flush2_3 _).mpr (by dsimp only; omega), ?_⟩
    show i ∈ ((View.whole main_v6).slice (win2_3.rect ⟨32 * (i 0 : ℕ) + 16 * ((i 1 : ℕ) / 1024) + 15, hT⟩)).set
    rw [View.set_slice_whole, Rect.mem_set_unit]
    intro a
    have hx := index2_3 ⟨32 * (i 0 : ℕ) + 16 * ((i 1 : ℕ) / 1024) + 15, hT⟩
    dsimp only at hx
    match a with
    | ⟨0, _⟩ =>
      show win2_3.index ⟨32 * (i 0 : ℕ) + 16 * ((i 1 : ℕ) / 1024) + 15, hT⟩ 0 * 1 ≤ (i 0 : Nat)
        ∧ (i 0 : Nat) < win2_3.index ⟨32 * (i 0 : ℕ) + 16 * ((i 1 : ℕ) / 1024) + 15, hT⟩ 0 * 1 + 1
      rw [hx.1]; omega
    | ⟨1, _⟩ =>
      show win2_3.index ⟨32 * (i 0 : ℕ) + 16 * ((i 1 : ℕ) / 1024) + 15, hT⟩ 1 * 1024 ≤ (i 1 : Nat)
        ∧ (i 1 : Nat) < win2_3.index ⟨32 * (i 0 : ℕ) + 16 * ((i 1 : ℕ) / 1024) + 15, hT⟩ 1 * 1024 + 1024
      rw [hx.2.1]; omega
    | ⟨2, _⟩ =>
      show win2_3.index ⟨32 * (i 0 : ℕ) + 16 * ((i 1 : ℕ) / 1024) + 15, hT⟩ 2 * 1024 ≤ (i 2 : Nat)
        ∧ (i 2 : Nat) < win2_3.index ⟨32 * (i 0 : ℕ) + 16 * ((i 1 : ℕ) / 1024) + 15, hT⟩ 2 * 1024 + 1024
      rw [hx.2.2]; omega

end Final

end Cert.KernelIdeal.OutProjValue

end
-- ==== Proof.RefValue.lean ====
/-
  The reference computes the specification: read one operation at a time, its result array at
  `(b, s, n)` is `Cert.AttnSpec.out` of the argument arrays at `(b, s, n)`.

  Stages, in the reference's order: the fused projection (a contraction plus a broadcast bias); its three
  slices reshaped and transposed into heads (the index arithmetic `h * 64 + d` of the merged column);
  the scaled score (a batched contraction times a splat constant); the causal mask (two integer iotas
  compared, then a select against the `f32` word of minus infinity); the row maximum (a fold of `max` from
  minus infinity over the key axis, and one more `max` with minus infinity); the exponentials, their row sum
  from zero, the quotient; the weighted sum of the values; the heads merged back; the output projection.
-/
import proofs.«102473_j17867063951717_2_alg».proof.Proof.Gen.ReferenceIdeal.Read
import proofs.«102473_j17867063951717_2_alg».proof.Proof.AttnSpec

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The argument arrays as functions of their coordinates -/

/-- The input activations by (batch, position, channel). -/
def xOf (X0 : (⟨S4x2048x1024, .f32⟩ : BufTy).Contents (Elt Ideal)) : Fin 4 → Fin 2048 → Fin 1024 → EReal :=
  fun b s k => X0 (ix3 b s k)
/-- The fused projection's weights by (output column, input channel). -/
def wqkvOf (X1 : (⟨S3072x1024, .f32⟩ : BufTy).Contents (Elt Ideal)) : Fin 3072 → Fin 1024 → EReal :=
  fun o k => X1 (ix2 o k)
/-- The fused projection's bias. -/
def bqkvOf (X2 : (⟨S3072, .f32⟩ : BufTy).Contents (Elt Ideal)) : Fin 3072 → EReal := fun o => X2 (ix1 o)
/-- The output projection's weights by (output column, input channel). -/
def woutOf (X3 : (⟨S1024x1024, .f32⟩ : BufTy).Contents (Elt Ideal)) : Fin 1024 → Fin 1024 → EReal :=
  fun n c => X3 (ix2 n c)
/-- The output projection's bias. -/
def boutOf (X4 : (⟨S1024, .f32⟩ : BufTy).Contents (Elt Ideal)) : Fin 1024 → EReal := fun n => X4 (ix1 n)

variable (X0 : (⟨S4x2048x1024, .f32⟩ : BufTy).Contents (Elt Ideal))
  (X1 : (⟨S3072x1024, .f32⟩ : BufTy).Contents (Elt Ideal))
  (X2 : (⟨S3072, .f32⟩ : BufTy).Contents (Elt Ideal))
  (X3 : (⟨S1024x1024, .f32⟩ : BufTy).Contents (Elt Ideal))
  (X4 : (⟨S1024, .f32⟩ : BufTy).Contents (Elt Ideal))

/-! ## The fused projection -/

theorem qkv_stage (b : Fin 4) (s : Fin 2048) (o : Fin 3072) :
    val_main_v3 (F := Ideal) X0 X1 X2 (ix3 b s o)
      = AttnSpec.qkv (xOf X0) (wqkvOf X1) (bqkvOf X2) b s o := by
  rw [val_main_v3_apply, val_main_v0_apply, val_main_v2_apply, val_main_v1_apply]
  have hl : ∀ k, lidx_main_v0 (ix3 b s o) k = ix3 b s k := fun k => by
    funext a; match a with | ⟨0, _⟩ => rfl | ⟨1, _⟩ => rfl | ⟨2, _⟩ => rfl
  have hr : ∀ k, ridx_main_v0 (ix3 b s o) k = ix2 o k := fun k => by
    funext a; match a with | ⟨0, _⟩ => rfl | ⟨1, _⟩ => rfl
  have hb : idx_main_v1 (idx_main_v2 (ix3 b s o)) = ix1 o := by
    funext a; match a with | ⟨0, _⟩ => rfl
  simp only [hl, hr, hb]
  rfl

/-! ## The heads: a slice, a reshape and a transpose are index arithmetic -/

theorem q_stage (b : Fin 4) (h : Fin 16) (s : Fin 2048) (d : Fin 64) :
    val_main_v8 (F := Ideal) X0 X1 X2 (ix4 b h s d)
      = AttnSpec.qh (xOf X0) (wqkvOf X1) (bqkvOf X2) b h s d := by
  rw [val_main_v8_apply, val_main_v7_apply, val_main_v4_apply]
  have hi : idx_main_v4 (idx_main_v7 (idx_main_v8 (ix4 b h s d))) = ix3 b s (AttnSpec.qcol h d) := by
    have hb := b.isLt; have hh := h.isLt; have hs := s.isLt; have hd := d.isLt
    funext a; apply Fin.ext
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega
  rw [hi, qkv_stage]
  rfl

theorem k_stage (b : Fin 4) (h : Fin 16) (s : Fin 2048) (d : Fin 64) :
    val_main_v10 (F := Ideal) X0 X1 X2 (ix4 b h s d)
      = AttnSpec.kh (xOf X0) (wqkvOf X1) (bqkvOf X2) b h s d := by
  rw [val_main_v10_apply, val_main_v9_apply, val_main_v5_apply]
  have hi : idx_main_v5 (idx_main_v9 (idx_main_v10 (ix4 b h s d))) = ix3 b s (AttnSpec.kcol h d) := by
    have hb := b.isLt; have hh := h.isLt; have hs := s.isLt; have hd := d.isLt
    funext a; apply Fin.ext
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ =>
      show 1024 + (((b.val * 2048 + s.val) * 16 + h.val) * 64 + d.val) % 1024 = 1024 + h.val * 64 + d.val; omega
  rw [hi, qkv_stage]
  rfl

theorem v_stage (b : Fin 4) (h : Fin 16) (s : Fin 2048) (d : Fin 64) :
    val_main_v12 (F := Ideal) X0 X1 X2 (ix4 b h s d)
      = AttnSpec.vh (xOf X0) (wqkvOf X1) (bqkvOf X2) b h s d := by
  rw [val_main_v12_apply, val_main_v11_apply, val_main_v6_apply]
  have hi : idx_main_v6 (idx_main_v11 (idx_main_v12 (ix4 b h s d))) = ix3 b s (AttnSpec.vcol h d) := by
    have hb := b.isLt; have hh := h.isLt; have hs := s.isLt; have hd := d.isLt
    funext a; apply Fin.ext
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ =>
      show 2048 + (((b.val * 2048 + s.val) * 16 + h.val) * 64 + d.val) % 1024 = 2048 + h.val * 64 + d.val; omega
  rw [hi, qkv_stage]
  rfl

/-! ## The scaled score -/

theorem score_stage (b : Fin 4) (h : Fin 16) (i j : Fin 2048) :
    val_main_v15 (F := Ideal) X0 X1 X2 (ix4 b h i j)
      = AttnSpec.score (xOf X0) (wqkvOf X1) (bqkvOf X2) b h i j := by
  rw [val_main_v15_apply, val_main_v13_apply, val_main_v14_apply, val_main_cst_apply]
  have hl : ∀ k, lidx_main_v13 (ix4 b h i j) k = ix4 b h i k := fun k => by
    funext a; match a with | ⟨0, _⟩ => rfl | ⟨1, _⟩ => rfl | ⟨2, _⟩ => rfl | ⟨3, _⟩ => rfl
  have hr : ∀ k, ridx_main_v13 (ix4 b h i j) k = ix4 b h j k := fun k => by
    funext a; match a with | ⟨0, _⟩ => rfl | ⟨1, _⟩ => rfl | ⟨2, _⟩ => rfl | ⟨3, _⟩ => rfl
  simp only [hl, hr, q_stage, k_stage]
  rfl

/-! ## The causal mask -/

/-- Below 2048 the signed comparison of two 32-bit words is the comparison of the numbers. -/
theorem sle_ofNat (j i : ℕ) (hj : j < 2048) (hi : i < 2048) :
    (BitVec.ofNat 32 j).sle (BitVec.ofNat 32 i) = decide (j ≤ i) := by
  have e : ∀ n : ℕ, n < 2048 → (BitVec.ofNat 32 n).toInt = (n : Int) := fun n hn => by
    rw [BitVec.toInt_eq_toNat_cond, BitVec.toNat_ofNat]
    have : n % 2 ^ 32 = n := Nat.mod_eq_of_lt (by omega)
    rw [this, if_pos (by omega)]
  unfold BitVec.sle
  rw [e j hj, e i hi]
  exact decide_eq_decide.2 Int.ofNat_le

/-- The lower-triangle bit: 1 where the key is not after the query. -/
theorem mask_bit (i j : Fin 2048) :
    val_main_v17 (F := Ideal) (ix2 i j) = if j ≤ i then 1#1 else 0#1 := by
  rw [val_main_v17_apply, val_main_call0_v4_apply, val_main_call0_v2_apply, val_main_call0_v0_apply,
    val_main_call0_v1_apply, val_main_call0_c_apply, val_main_call0_v3_apply, val_main_v16_apply,
    val_main_c_apply, val_main_call0_v5_apply, val_main_call0_c_0_apply]
  show Scalar.select (BitVec.ofBool ((BitVec.ofNat 32 j.val).sle (BitVec.ofNat 32 i.val + 0#32))) 1#1 0#1 = _
  rw [BitVec.add_zero, sle_ofNat j.val i.val j.isLt i.isLt]
  by_cases hji : j ≤ i
  · have : (j : ℕ) ≤ i := hji
    rw [if_pos hji, decide_eq_true this]; rfl
  · have : ¬ (j : ℕ) ≤ i := hji
    rw [if_neg hji, decide_eq_false this]; rfl

/-- The `f32` word of minus infinity denotes the bottom element. -/
theorem neg_inf : FloatOps.ofBits (F := Ideal) .f32 0xFF800000#32 = (⊥ : EReal) := by
  simp [Ideal.ofBits, Ideal.ieee]

theorem masked_stage (b : Fin 4) (h : Fin 16) (i j : Fin 2048) :
    val_main_v19 (F := Ideal) X0 X1 X2 (ix4 b h i j)
      = AttnSpec.masked (xOf X0) (wqkvOf X1) (bqkvOf X2) b h i j := by
  rw [val_main_v19_apply, val_main_call1_v1_apply, val_main_v18_apply, val_main_call1_v2_apply,
    val_main_call1_v0_apply, val_main_cst_0_apply, score_stage]
  have hi : idx_main_v18 (idx_main_call1_v1 (ix4 b h i j)) = ix2 i j := by
    funext a; match a with | ⟨0, _⟩ => rfl | ⟨1, _⟩ => rfl
  rw [hi, mask_bit, neg_inf]
  unfold AttnSpec.masked
  by_cases hji : j ≤ i
  · rw [if_pos hji, if_pos hji]; rfl
  · rw [if_neg hji, if_neg hji]; rfl

/-! ## The row maximum: a fold of `max` from minus infinity over the keys -/

/-- The reduced index `(b, h, i)` with key `k` put back on the last axis is `(b, h, i, k)`. -/
theorem lift_ix3 (hred : S4x16x2048x2048.Reduces [3] S4x16x2048) (b : Fin 4) (h : Fin 16) (i : Fin 2048)
    (k : Fin (S4x16x2048x2048.size 3)) :
    hred.lift (ix3 b h i) k = ix4 b h i (⟨k.val, k.isLt⟩ : Fin 2048) := by
  funext c; apply Fin.ext
  fin_cases c <;> rfl

theorem rowMax_stage (b : Fin 4) (h : Fin 16) (i : Fin 2048) :
    val_main_v22 (F := Ideal) X0 X1 X2 (ix3 b h i)
      = AttnSpec.rowMax (xOf X0) (wqkvOf X1) (bqkvOf X2) b h i := by
  have hred : S4x16x2048x2048.Reduces [3] S4x16x2048 := by decide
  rw [val_main_v22_apply, val_main_v21_apply, val_main_cst_2_apply, neg_inf]
  show max (⊥ : EReal) (val_main_v20 (F := Ideal) X0 X1 X2 (ix3 b h i)) = _
  rw [max_bot_left]
  unfold val_main_v20
  rw [Host.reduce_eq_fold_single (α := Ideal .f32) (s := S4x16x2048x2048) (t := S4x16x2048) (u := S_)
    (FloatOps.maximumf (F := Ideal) (φ := .f32)) (val_main_v19 (F := Ideal) X0 X1 X2)
    (val_main_cst_1 (F := Ideal)) reducesTo_S4x16x2048x2048_S4x16x2048_d3 hred h_S_ (ix3 b h i)]
  rw [val_main_cst_1_apply, neg_inf]
  have hf : (val_main_v19 (F := Ideal) X0 X1 X2 ∘ hred.lift (ix3 b h i))
      = fun k : Fin 2048 => AttnSpec.masked (xOf X0) (wqkvOf X1) (bqkvOf X2) b h i k := funext fun k => by
    show val_main_v19 (F := Ideal) X0 X1 X2 (hred.lift (ix3 b h i) k) = _
    rw [lift_ix3, masked_stage]
    rfl
  rw [hf]
  rfl

/-! ## The exponentials, their sum, the weights -/

theorem e_stage (b : Fin 4) (h : Fin 16) (i j : Fin 2048) :
    val_main_v26 (F := Ideal) X0 X1 X2 (ix4 b h i j)
      = AttnSpec.e (xOf X0) (wqkvOf X1) (bqkvOf X2) b h i j := by
  rw [val_main_v26_apply, val_main_v25_apply, val_main_v24_apply, val_main_v23_apply, masked_stage]
  have hi : idx_main_v23 (idx_main_v24 (ix4 b h i j)) = ix3 b h i := by
    funext a; match a with | ⟨0, _⟩ => rfl | ⟨1, _⟩ => rfl | ⟨2, _⟩ => rfl
  rw [hi, rowMax_stage]
  rfl

theorem denom_stage (b : Fin 4) (h : Fin 16) (i : Fin 2048) :
    val_main_v27 (F := Ideal) X0 X1 X2 (ix3 b h i)
      = AttnSpec.denom (xOf X0) (wqkvOf X1) (bqkvOf X2) b h i := by
  rw [val_main_v27_apply, val_main_cst_3_apply]
  have hi : ∀ k, idx_main_v27 (ix3 b h i) k = ix4 b h i k := fun k => by
    funext a; match a with | ⟨0, _⟩ => rfl | ⟨1, _⟩ => rfl | ⟨2, _⟩ => rfl | ⟨3, _⟩ => rfl
  simp only [hi, e_stage]
  show Ideal.ofBits .f32 0x00000000#32 + _ = _
  rw [Ideal.ofBits_zero_f32, zero_add]
  rfl

theorem w_stage (b : Fin 4) (h : Fin 16) (i j : Fin 2048) :
    val_main_v30 (F := Ideal) X0 X1 X2 (ix4 b h i j)
      = AttnSpec.w (xOf X0) (wqkvOf X1) (bqkvOf X2) b h i j := by
  rw [val_main_v30_apply, val_main_v29_apply, val_main_v28_apply, e_stage]
  have hi : idx_main_v28 (idx_main_v29 (ix4 b h i j)) = ix3 b h i := by
    funext a; match a with | ⟨0, _⟩ => rfl | ⟨1, _⟩ => rfl | ⟨2, _⟩ => rfl
  rw [hi, denom_stage]
  rfl

/-! ## The weighted sum of the values, the heads merged, the output projection -/

theorem y_stage (b : Fin 4) (h : Fin 16) (i : Fin 2048) (d : Fin 64) :
    val_main_v31 (F := Ideal) X0 X1 X2 (ix4 b h i d)
      = AttnSpec.y (xOf X0) (wqkvOf X1) (bqkvOf X2) b h i d := by
  rw [val_main_v31_apply]
  have hl : ∀ k, lidx_main_v31 (ix4 b h i d) k = ix4 b h i k := fun k => by
    funext a; match a with | ⟨0, _⟩ => rfl | ⟨1, _⟩ => rfl | ⟨2, _⟩ => rfl | ⟨3, _⟩ => rfl
  have hr : ∀ k, ridx_main_v31 (ix4 b h i d) k = ix4 b h k d := fun k => by
    funext a; match a with | ⟨0, _⟩ => rfl | ⟨1, _⟩ => rfl | ⟨2, _⟩ => rfl | ⟨3, _⟩ => rfl
  simp only [hl, hr, w_stage, v_stage]
  rfl

theorem ymerged_stage (b : Fin 4) (s : Fin 2048) (c : Fin 1024) :
    val_main_v33 (F := Ideal) X0 X1 X2 (ix3 b s c)
      = AttnSpec.ymerged (xOf X0) (wqkvOf X1) (bqkvOf X2) b s c := by
  rw [val_main_v33_apply, val_main_v32_apply]
  have hi : idx_main_v32 (idx_main_v33 (ix3 b s c)) = ix4 b (AttnSpec.colHead c) s (AttnSpec.colChan c) := by
    have hb := b.isLt; have hs := s.isLt; have hc := c.isLt
    funext a; apply Fin.ext
    match a with
    | ⟨0, _⟩ => show ((b.val * 2048 + s.val) * 1024 + c.val) / 2097152 = b.val; omega
    | ⟨1, _⟩ => show ((b.val * 2048 + s.val) * 1024 + c.val) / 64 % 16 = c.val / 64; omega
    | ⟨2, _⟩ => show ((b.val * 2048 + s.val) * 1024 + c.val) / 1024 % 2048 = s.val; omega
    | ⟨3, _⟩ => show ((b.val * 2048 + s.val) * 1024 + c.val) % 64 = c.val % 64; omega
  rw [hi, y_stage]
  rfl

/-- THE REFERENCE'S RESULT: its last operation's array, at `(b, s, n)`, is the specification's output there. -/
theorem ref_result (b : Fin 4) (s : Fin 2048) (n : Fin 1024) :
    val_main_v37 (F := Ideal) X0 X1 X2 X3 X4 (ix3 b s n)
      = AttnSpec.out (xOf X0) (wqkvOf X1) (bqkvOf X2) (woutOf X3) (boutOf X4) b s n := by
  rw [val_main_v37_apply, val_main_v34_apply, val_main_v36_apply, val_main_v35_apply]
  have hl : ∀ k, lidx_main_v34 (ix3 b s n) k = ix3 b s k := fun k => by
    funext a; match a with | ⟨0, _⟩ => rfl | ⟨1, _⟩ => rfl | ⟨2, _⟩ => rfl
  have hr : ∀ k, ridx_main_v34 (ix3 b s n) k = ix2 n k := fun k => by
    funext a; match a with | ⟨0, _⟩ => rfl | ⟨1, _⟩ => rfl
  have hb : idx_main_v35 (idx_main_v36 (ix3 b s n)) = ix1 n := by
    funext a; match a with | ⟨0, _⟩ => rfl
  simp only [hl, hr, hb, ymerged_stage]
  rfl

/-- The same for every index of the result array. -/
theorem ref_result_idx (j : S4x2048x1024.Idx) :
    val_main_v37 (F := Ideal) X0 X1 X2 X3 X4 j
      = AttnSpec.out (xOf X0) (wqkvOf X1) (bqkvOf X2) (woutOf X3) (boutOf X4) (j 0) (j 1) (j 2) := by
  obtain ⟨b, s, n, rfl⟩ : ∃ (b : Fin 4) (s : Fin 2048) (n : Fin 1024), j = ix3 b s n := ⟨j 0, j 1, j 2, eq_ix3 j⟩
  exact ref_result X0 X1 X2 X3 X4 b s n

open Idealize.ShloMosaic.TcCoe Idealize.SL.Sem in
/-- The same over a memory: the run's result term, at `(b, s, n)`, is the specification's output of the
    argument arrays' contents there. -/
theorem ref_run_result (m : (ℓ : Loc nD τ sig) → Buf (Elt Ideal) ℓ) (c : Dev nD)
    (b : Fin 4) (s : Fin 2048) (n : Fin 1024) :
    Cert.ReferenceIdeal.Value.res_main_v37 m c (ix3 b s n)
      = AttnSpec.out (xOf (m ((c.tc : Thread nD τ).loc main_arg0))) (wqkvOf (m ((c.tc : Thread nD τ).loc main_arg1)))
          (bqkvOf (m ((c.tc : Thread nD τ).loc main_arg2))) (woutOf (m ((c.tc : Thread nD τ).loc main_arg3)))
          (boutOf (m ((c.tc : Thread nD τ).loc main_arg4))) b s n := by
  rw [val_main_v37_eq]
  exact ref_result _ _ _ _ _ b s n

end Cert.ReferenceIdeal.RefValue

end
-- ==== Proof.SpecBridge.lean ====
/-
  Two bridges between the regions' results and the specification.

  * The head-major projection array is the specification's heads: slot `g` of 48 is the query of head `g` for
    `g < 16`, the key of head `g - 16` for `16 ≤ g < 32`, the value of head `g - 32` from 32 on, because row
    `64 g + d` of the fused weight is column `h * 64 + d` of the first, second or third block of 1024; and every
    entry is a real number when the inputs are.
  * The output projection summed head by head is the one sum over the 1024 merged columns: a sum over
    `Fin (16 * 64)` is the double sum over 16 consecutive blocks of 64, column `h * 64 + d` being head `h`,
    channel `d`.
-/
import proofs.«102473_j17867063951717_2_alg».proof.Proof.AttnSpecOnline
import proofs.«102473_j17867063951717_2_alg».proof.Proof.RefValue
import proofs.«102473_j17867063951717_2_alg».proof.Proof.IdealQkvValue

noncomputable section

open scoped BigOperators

namespace Cert.SpecBridge

open Cert.AttnSpec Cert.ReferenceIdeal.RefValue Cert.KernelIdeal.QkvValue
open Idealize.ShloMosaic Idealize.ShloMosaic.ValueIdx

/-! ## The output projection, head by head -/

/-- A sum over the 1024 merged columns is the double sum over heads and channels. -/
theorem sum_hcol {M : Type*} [AddCommMonoid M] (F : Fin 1024 → M) :
    ∑ c : Fin 1024, F c = ∑ h : Fin 16, ∑ d : Fin 64, F (hcol h d) := by
  have e := (finProdFinEquiv (m := 16) (n := 64)).sum_comp (fun c : Fin (16 * 64) => F c)
  refine e.symm.trans ?_
  rw [Fintype.sum_prod_type]
  refine Finset.sum_congr rfl fun h _ => Finset.sum_congr rfl fun d _ => ?_
  congr 1
  apply Fin.ext
  show d.val + 64 * h.val = h.val * 64 + d.val
  omega

/-- Heads laid side by side: column `c` is head `c / 64`, channel `c % 64`. -/
def ymergedOf (y : Fin 4 → Fin 16 → Fin 2048 → Fin 64 → EReal) (b : Fin 4) (s : Fin 2048) (c : Fin 1024) : EReal :=
  y b (colHead c) s (colChan c)

/-- The output projection accumulated head by head is the projection of the merged heads. -/
theorem out_regroup (y : Fin 4 → Fin 16 → Fin 2048 → Fin 64 → EReal) (Wout : Fin 1024 → Fin 1024 → EReal)
    (bout : Fin 1024 → EReal) (b : Fin 4) (s : Fin 2048) (n : Fin 1024) :
    (∑ h : Fin 16, ∑ d : Fin 64, y b h s d * Wout n (hcol h d)) + bout n
      = (∑ c : Fin 1024, ymergedOf y b s c * Wout n c) + bout n := by
  rw [sum_hcol (fun c => ymergedOf y b s c * Wout n c)]
  simp only [ymergedOf, colHead_hcol, colChan_hcol]

/-- The specification's output, head by head. -/
theorem out_eq_heads (x : Fin 4 → Fin 2048 → Fin 1024 → EReal) (Wqkv : Fin 3072 → Fin 1024 → EReal)
    (bqkv : Fin 3072 → EReal) (Wout : Fin 1024 → Fin 1024 → EReal) (bout : Fin 1024 → EReal)
    (b : Fin 4) (s : Fin 2048) (n : Fin 1024) :
    AttnSpec.out x Wqkv bqkv Wout bout b s n
      = (∑ h : Fin 16, ∑ d : Fin 64, AttnSpec.y x Wqkv bqkv b h s d * Wout n (hcol h d)) + bout n :=
  (out_regroup (AttnSpec.y x Wqkv bqkv) Wout bout b s n).symm

/-! ## The head-major projection array is the specification's heads -/

section
variable (x : Cert.KernelIdeal.S4x2048x1024.Idx → EReal) (W : Cert.KernelIdeal.S3072x1024.Idx → EReal)
  (bqkv : Cert.KernelIdeal.S3072.Idx → EReal) (bq : Cert.KernelIdeal.S48x1x64.Idx → EReal)
  (hbq : ∀ (g : Fin 48) (d : Fin 64), bq (ix3 g (0 : Fin 1) d) = bqkv (ix1 (wrow g d)))

include hbq

/-- Slot `g` of the array, for any column `o` of the fused projection equal to `64 g + d`. -/
theorem qkvAt_eq_qkv (g : Fin 48) (b : Fin 4) (s : Fin 2048) (d : Fin 64) (o : Fin 3072) (ho : wrow g d = o) :
    qkvAt x W bq g b s d = AttnSpec.qkv (xOf x) (wqkvOf W) (bqkvOf bqkv) b s o := by
  unfold qkvAt
  rw [hbq, ho]
  rfl

/-- Slots 0 to 15 are the queries. -/
theorem qkvHeads_q (b : Fin 4) (h : Fin 16) (s : Fin 2048) (d : Fin 64) :
    qkvHeads x W bq (ix4 (⟨h.val, by omega⟩ : Fin 48) b s d)
      = AttnSpec.qh (xOf x) (wqkvOf W) (bqkvOf bqkv) b h s d := by
  rw [qkvHeads_ix4]
  exact qkvAt_eq_qkv x W bqkv bq hbq _ b s d (qcol h d) (Fin.ext rfl)

/-- Slots 16 to 31 are the keys. -/
theorem qkvHeads_k (b : Fin 4) (h : Fin 16) (s : Fin 2048) (d : Fin 64) :
    qkvHeads x W bq (ix4 (⟨16 + h.val, by omega⟩ : Fin 48) b s d)
      = AttnSpec.kh (xOf x) (wqkvOf W) (bqkvOf bqkv) b h s d := by
  rw [qkvHeads_ix4]
  exact qkvAt_eq_qkv x W bqkv bq hbq _ b s d (kcol h d)
    (Fin.ext (by show (16 + h.val) * 64 + d.val = 1024 + h.val * 64 + d.val; omega))

/-- Slots 32 to 47 are the values. -/
theorem qkvHeads_v (b : Fin 4) (h : Fin 16) (s : Fin 2048) (d : Fin 64) :
    qkvHeads x W bq (ix4 (⟨32 + h.val, by omega⟩ : Fin 48) b s d)
      = AttnSpec.vh (xOf x) (wqkvOf W) (bqkvOf bqkv) b h s d := by
  rw [qkvHeads_ix4]
  exact qkvAt_eq_qkv x W bqkv bq hbq _ b s d (vcol h d)
    (Fin.ext (by show (32 + h.val) * 64 + d.val = 2048 + h.val * 64 + d.val; omega))

omit hbq in
/-- Every entry of the array is a real number when the inputs are. -/
theorem qkvHeads_isReal (hx : ∀ i, IsReal (x i)) (hW : ∀ i, IsReal (W i)) (hq : ∀ i, IsReal (bq i))
    (i : Cert.KernelIdeal.S48x4x2048x64.Idx) : IsReal (qkvHeads x W bq i) :=
  (isReal_sum _ fun k => (hx _).mul (hW _)).add (hq _)

omit hbq in
/-- The argument arrays' entries being real makes the curried arrays' entries real. -/
theorem xOf_isReal (hx : ∀ i, IsReal (x i)) (b : Fin 4) (s : Fin 2048) (k : Fin 1024) : IsReal (xOf x b s k) := hx _
omit hbq in
theorem wqkvOf_isReal (hW : ∀ i, IsReal (W i)) (o : Fin 3072) (k : Fin 1024) : IsReal (wqkvOf W o k) := hW _
omit hbq in
theorem bqkvOf_isReal (hb : ∀ i, IsReal (bqkv i)) (o : Fin 3072) : IsReal (bqkvOf bqkv o) := hb _

end

end Cert.SpecBridge

end
-- ==== Proof.EndToEnd.lean ====
/-
  The three regions composed are the specification. With `P` the head-major projection array of the inputs,
  the causal softmax rows over `P` are the specification's attention output `y` (slot `h` of `P` is the
  query, slot `16 + h` the key, slot `32 + h` the value of head `h`, and the scale is the same word), and the
  output projection summed head by head against the weight regrouped as `(h, n, d) ↦ Wout n (h * 64 + d)` is the
  projection of the merged heads.
-/
import proofs.«102473_j17867063951717_2_alg».proof.Proof.SpecBridge
import proofs.«102473_j17867063951717_2_alg».proof.Proof.AttnHeadsSpec

noncomputable section

open scoped BigOperators

namespace Cert.EndToEnd

open Cert.AttnSpec Cert.ReferenceIdeal.RefValue Cert.KernelIdeal.QkvValue Cert.SpecBridge
open Idealize.ShloMosaic Idealize.ShloMosaic.ValueIdx

section
variable (x : Cert.KernelIdeal.S4x2048x1024.Idx → EReal) (W : Cert.KernelIdeal.S3072x1024.Idx → EReal)
  (bqkv : Cert.KernelIdeal.S3072.Idx → EReal) (bq : Cert.KernelIdeal.S48x1x64.Idx → EReal)
  (hbq : ∀ (g : Fin 48) (d : Fin 64), bq (ix3 g (0 : Fin 1) d) = bqkv (ix1 (wrow g d)))

include hbq

/-- A row of masked scores over the projection array is the specification's. -/
theorem rowScore_eq (h : Fin 16) (b : Fin 4) (i j : Fin 2048) :
    Cert.AttnHeads.rowScore (qkvHeads x W bq) h b i j
      = AttnSpec.masked (xOf x) (wqkvOf W) (bqkvOf bqkv) b h i j := by
  unfold Cert.AttnHeads.rowScore AttnSpec.masked AttnSpec.score
  simp only [Cert.AttnHeads.hq, Cert.AttnHeads.hk, qkvHeads_q x W bqkv bq hbq, qkvHeads_k x W bqkv bq hbq]
  rfl

/-- The causal softmax row over the projection array is the specification's attention output. -/
theorem attnAt_eq (h : Fin 16) (b : Fin 4) (i : Fin 2048) (d : Fin 64) :
    Cert.AttnHeads.attnAt (qkvHeads x W bq) h b i d
      = AttnSpec.y (xOf x) (wqkvOf W) (bqkvOf bqkv) b h i d := by
  have hrow : Cert.AttnHeads.rowScore (qkvHeads x W bq) h b i
      = AttnSpec.masked (xOf x) (wqkvOf W) (bqkvOf bqkv) b h i :=
    funext fun j => rowScore_eq x W bqkv bq hbq h b i j
  unfold Cert.AttnHeads.attnAt
  rw [hrow]
  simp only [Cert.AttnHeads.hv, qkvHeads_v x W bqkv bq hbq]
  rfl

/-- The head-by-head output projection of the attention rows, against the regrouped weight and bias, is the
    specification's output. -/
theorem heads_out_eq (X3 : Cert.KernelIdeal.S1024x1024.Idx → EReal) (X4 : Cert.KernelIdeal.S1024.Idx → EReal)
    (Wr : Cert.KernelIdeal.S16x1024x64.Idx → EReal) (bo : Cert.KernelIdeal.S1x1024.Idx → EReal)
    (hWr : ∀ (h : Fin 16) (n : Fin 1024) (d : Fin 64), Wr (ix3 h n d) = X3 (ix2 n (hcol h d)))
    (hbo : ∀ n : Fin 1024, bo (ix2 (0 : Fin 1) n) = X4 (ix1 n))
    (b : Fin 4) (s : Fin 2048) (n : Fin 1024) :
    (∑ h : Fin 16, ∑ d : Fin 64,
        Cert.AttnHeads.attnHeads (qkvHeads x W bq) (ix4 h b s d) * Wr (ix3 h n d)) + bo (ix2 (0 : Fin 1) n)
      = AttnSpec.out (xOf x) (wqkvOf W) (bqkvOf bqkv) (woutOf X3) (boutOf X4) b s n := by
  rw [out_eq_heads]
  simp only [Cert.AttnHeads.attnHeads_ix4, attnAt_eq x W bqkv bq hbq, hWr, hbo]
  rfl

end

end Cert.EndToEnd

end
-- ==== Proof.Finite.lean ====
/-
  The precondition, decoded. `finite_inputs` is the conjunction, over the five argument arrays, of
  `all (|x| < +inf)`; at the ideal instance a float is an extended real, so its holding says that every entry of
  every argument is a real number (neither infinity). The laws that join the two programs — dividing a sum by the
  softmax normaliser, dropping the key chunks above the diagonal — hold for reals and fail at infinities, so this is
  where the precondition is used.
-/
import proofs.«102473_j17867063951717_2_alg».proof.Pre_finite_inputs
import proofs.«102473_j17867063951717_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic Cert.Pre_finite_inputs

namespace Cert.Proof.Finite

/-- The result of a reduction over all axes has one index. -/
instance : Subsingleton S_.Idx := ⟨fun a b => funext fun d => d.elim0⟩

/-- The word 0x7F800000 is +∞. -/
theorem top_word : Ideal.ofBits .f32 0x7F800000#32 = (⊤ : EReal) := by
  simp [Ideal.ofBits, Ideal.ieee]

/-- A one-bit word made from a Boolean is 1 exactly when the Boolean is true. -/
theorem ofBool_eq_one {b : Bool} : BitVec.ofBool b = 1#1 ↔ b = true := by cases b <;> decide

/-- An extended real whose absolute value is below +∞ is a real. -/
theorem real_of_abs_lt_top (x : EReal) (h : max x (-x) < ⊤) : x ≠ ⊤ ∧ x ≠ ⊥ := by
  induction x using EReal.rec with
  | bot => simp at h
  | top => simp at h
  | coe r => exact ⟨EReal.coe_ne_top r, EReal.coe_ne_bot r⟩

/-- One conjunct of the precondition: `all (|x| < +inf)` gives a real at every index. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ValueIdx.ix0 = 1#1)
    (i : s.Idx) : x i ≠ ⊤ ∧ x i ≠ ⊥ := by
  have h := Host.reduce_andi_all _ _ hr hu ValueIdx.ix0 e i
  refine real_of_abs_lt_top (x i) ?_
  simp only [cmpf, Host.absf, broadcastInDim, constant, Ideal.hostAbsf_def, Ideal.ofBits_def, top_word] at h
  simp [FloatOps.cmpf, FloatOps.absf, Ideal.cmp] at h
  rw [ofBool_eq_one, Bool.and_eq_true, decide_eq_true_eq, decide_eq_true_eq] at h
  exact max_lt h.1 h.2

variable [Facts]

/-- Under the precondition every entry of every argument array is a real. -/
theorem all_real (x0 : FVec Ideal S4x2048x1024 .f32) (x1 : FVec Ideal S3072x1024 .f32) (x2 : FVec Ideal S3072 .f32)
    (x3 : FVec Ideal S1024x1024 .f32) (x4 : FVec Ideal S1024 .f32)
    (h : fn (F := Ideal) x0 x1 x2 x3 x4 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ (∀ i, x4 i ≠ ⊤ ∧ x4 i ≠ ⊥) := by
  have h0 := congrFun h ValueIdx.ix0
  dsimp only [fn, fn_part1, andi] at h0
  rw [IntOp.andi_eq_one, IntOp.andi_eq_one, IntOp.andi_eq_one, IntOp.andi_eq_one] at h0
  obtain ⟨⟨⟨⟨e0, e1⟩, e2⟩, e3⟩, e4⟩ := h0
  exact ⟨real_of_all x0 _ _ _ e0, real_of_all x1 _ _ _ e1, real_of_all x2 _ _ _ e2, real_of_all x3 _ _ _ e3, real_of_all x4 _ _ _ e4⟩

end Cert.Proof.Finite

end
-- ==== Proof.Algebraic.lean ====
/-
  The algebraic conjunct: at the ideal instance the kernel's result array and the reference's are one function of the
  arguments. The kernel's run ends with the result array at what the output-projection region's write-backs leave;
  that is the out-projection of what the attention region left, which is the causal softmax rows of what the
  projection region left, which is the head-major projection of the arguments (the three regions' value legs, each
  region reading the array the one before it wrote, the host operations in between only re-laying the bias and the
  output weights). Entry by entry this is the specification `AttnSpec.out`, and so is the reference's composed term.
  The precondition enters once: the attention region's online softmax over key chunks equals the plain softmax row
  only for real scores and values, and the projection of real inputs is real.
-/
import proofs.«102473_j17867063951717_2_alg».proof.Defs
import proofs.«102473_j17867063951717_2_alg».proof.Proof.IdealRun
import proofs.«102473_j17867063951717_2_alg».proof.Proof.IdealHostValues
import proofs.«102473_j17867063951717_2_alg».proof.Proof.IdealQkvValue
import proofs.«102473_j17867063951717_2_alg».proof.Proof.IdealAttnValue
import proofs.«102473_j17867063951717_2_alg».proof.Proof.IdealOutProjValue
import proofs.«102473_j17867063951717_2_alg».proof.Proof.EndToEnd
import proofs.«102473_j17867063951717_2_alg».proof.Proof.RefValue
import proofs.«102473_j17867063951717_2_alg».proof.Proof.Finite
import proofs.«102473_j17867063951717_2_alg».proof.Proof.RefFrame

noncomputable section

open Idealize.ShloMosaic Idealize.ShloMosaic.TcCoe Idealize.SL.Sem Idealize.ShloMosaic.ValueIdx

namespace Cert.Proof.Algebraic

open Cert.KernelIdeal Cert.KernelIdeal.Gen Cert.KernelIdeal.Run
open Cert.AttnSpec Cert.ReferenceIdeal.RefValue Cert.KernelIdeal.QkvValue

variable (m : (ℓ : Loc Cert.KernelIdeal.nD Cert.KernelIdeal.τ Cert.KernelIdeal.sig) → Buf (Elt Ideal) ℓ)

/-- Under the precondition every entry of the projection region's output array is a real: sums and products of reals. -/
theorem o1_real (hpre : Cert.Pre_KernelIdeal m) (c : Dev nD) (i : S48x4x2048x64.Idx) :
    (o1 m c : S48x4x2048x64.Idx → EReal) i ≠ (⊤ : EReal) ∧ (o1 m c : S48x4x2048x64.Idx → EReal) i ≠ (⊥ : EReal) := by
  obtain ⟨h0, h1, h2, -, -⟩ := Cert.Proof.Finite.all_real _ _ _ _ _ (hpre c)
  have hq : ∀ j : S48x1x64.Idx, IsReal ((E1 m c main_v0 : S48x1x64.Idx → EReal) j) := fun j => by
    obtain ⟨g, u, d, rfl⟩ : ∃ (g : Fin 48) (u : Fin 1) (d : Fin 64), j = ix3 g u d := ⟨j 0, j 1, j 2, eq_ix3 j⟩
    obtain rfl : u = 0 := Fin.eq_zero u
    rw [bias_at]
    exact isReal_of_ne (h2 _).1 (h2 _).2
  have hr := Cert.SpecBridge.qkvHeads_isReal (m ((c : Thread nD τ).loc main_arg0)) (m ((c : Thread nD τ).loc main_arg1)) (E1 m c main_v0)
    (fun j => isReal_of_ne (h0 j).1 (h0 j).2) (fun j => isReal_of_ne (h1 j).1 (h1 j).2) hq i
  have e : (o1 m c : S48x4x2048x64.Idx → EReal) = qkvHeads (m ((c : Thread nD τ).loc main_arg0)) (m ((c : Thread nD τ).loc main_arg1)) (E1 m c main_v0) := by
    unfold o1; rw [qkv_final, E1_main_arg0, E1_main_arg1]
  rw [e]
  exact ⟨hr.ne_top, hr.ne_bot⟩

/-- The kernel's result array, entry by entry, is the specification of the arguments. -/
theorem kernel_result (hpre : Cert.Pre_KernelIdeal m) (c : Dev nD) (b : Fin 4) (s : Fin 2048) (n : Fin 1024) :
    (o3 m c : S4x2048x1024.Idx → EReal) (ix3 b s n)
      = AttnSpec.out (xOf (m ((c : Thread nD τ).loc main_arg0))) (wqkvOf (m ((c : Thread nD τ).loc main_arg1))) (bqkvOf (m ((c : Thread nD τ).loc main_arg2)))
          (woutOf (m ((c : Thread nD τ).loc main_arg3))) (boutOf (m ((c : Thread nD τ).loc main_arg4))) b s n := by
  have e3 : (o3 m c : S4x2048x1024.Idx → EReal)
      = Cert.KernelIdeal.OutProjValue.outProj (Cert.AttnHeads.attnHeads (qkvHeads (m ((c : Thread nD τ).loc main_arg0)) (m ((c : Thread nD τ).loc main_arg1)) (E1 m c main_v0)))
          (E4 m c main_v4) (E4 m c main_v5) := by
    unfold o3
    rw [Cert.KernelIdeal.OutProjValue.final_out, E4_main_v2]
    unfold o2
    rw [Cert.KernelIdeal.AttnValue.attn_final (E2 m) c (by rw [E2_main_v1]; exact o1_real m hpre c), E2_main_v1]
    unfold o1
    rw [qkv_final, E1_main_arg0, E1_main_arg1]
  rw [e3]
  exact (Cert.KernelIdeal.OutProjValue.outProj_apply _ _ _ b s n).trans
    (Cert.EndToEnd.heads_out_eq _ _ (m ((c : Thread nD τ).loc main_arg2)) (E1 m c main_v0) (fun g d => bias_at m c g d)
      (m ((c : Thread nD τ).loc main_arg3)) (m ((c : Thread nD τ).loc main_arg4)) (E4 m c main_v4) (E4 m c main_v5)
      (fun h n d => wout_at m c h n d) (fun n => bout_at m c n) b s n)

/-- Both programs run, the arguments unchanged, and end with equal result arrays. -/
theorem algebraic : Cert.algebraic_KernelIdeal_ReferenceIdeal := by
  intro m ρ m' ρ' hpre hagree
  refine ⟨fun c => o3 (F := Ideal) m c, Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  rw [eq_ix3 i]
  refine (ref_run_result m' c (i 0) (i 1) (i 2)).trans ?_
  rw [(hagree c).1, (hagree c).2.1, (hagree c).2.2.1, (hagree c).2.2.2.1, (hagree c).2.2.2.2]
  exact (kernel_result m hpre c (i 0) (i 1) (i 2)).symm

end Cert.Proof.Algebraic

end
-- ==== Proof.lean ====
/-
  The certificate's claim. The kernel is a causal self-attention layer in three pallas_calls — a projection into a
  head-major array, a flash attention with an online softmax over key chunks up to the diagonal, an output projection
  accumulated over the heads — against the plain jnp layer. Each kernel program's frame is read off one run theorem
  that follows every unscoped buffer through @main's five segments; the reference is a straight line of host operations;
  the idealized kernel differs from the printed one by the named mask fill alone; and at the ideal instance both
  programs' results are the same function of the arguments under finite inputs.
-/
import proofs.«102473_j17867063951717_2_alg».proof.Defs
import proofs.«102473_j17867063951717_2_alg».proof.Proof.Gen.Kernel
import proofs.«102473_j17867063951717_2_alg».proof.Proof.Gen.KernelIdeal
import proofs.«102473_j17867063951717_2_alg».proof.Proof.Gen.ReferenceIdeal
import proofs.«102473_j17867063951717_2_alg».proof.Proof.Gen.Pre_finite_inputs
import proofs.«102473_j17867063951717_2_alg».proof.Proof.Claims
import proofs.«102473_j17867063951717_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.RefFrame.frame_ri, Cert.Proof.Claims.preserves, Cert.Proof.Algebraic.algebraic⟩

end Cert.Proof

end
